-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg13 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg9 : FVec F S64 .f32) (main_arg10 : FVec F S64 .f32) (main_arg11 : FVec F S64 .f32) (main_arg12 : FVec F S64x32 .f32) (main_arg13 : FVec F S32 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_v48 main_v49 main_v50

def fn_part1 {F : FTy → Type} [FloatOps F] (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64x32 .f32) (main_arg13 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S600000 32) (main_arg2 : IVec S600000 32) (main_arg3 : FVec F S600000 .f32) (main_arg4 : FVec F S128x128 .f32) (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64x32 .f32) (main_arg13 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S50000 : Shape := ⟨1, ![50000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S50000x64 : Shape := ⟨2, ![50000, 64]⟩
abbrev S5000x64 : Shape := ⟨2, ![5000, 64]⟩
abbrev S650000x64 : Shape := ⟨2, ![650000, 64]⟩
abbrev S1x64 : Shape := ⟨2, ![1, 64]⟩
abbrev S50000x32 : Shape := ⟨2, ![50000, 32]⟩
abbrev S5000x32 : Shape := ⟨2, ![5000, 32]⟩
abbrev S650000x32 : Shape := ⟨2, ![650000, 32]⟩
abbrev S1x32 : Shape := ⟨2, ![1, 32]⟩

abbrev nBuf : Space → Nat
  | .hbm => 143
  | .vmem => 52
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S600000, .f32⟩
  | 4 => ⟨S128x128, .f32⟩
  | 5 => ⟨S128, .f32⟩
  | 6 => ⟨S128, .f32⟩
  | 7 => ⟨S128, .f32⟩
  | 8 => ⟨S128x64, .f32⟩
  | 9 => ⟨S64, .f32⟩
  | 10 => ⟨S64, .f32⟩
  | 11 => ⟨S64, .f32⟩
  | 12 => ⟨S64x32, .f32⟩
  | 13 => ⟨S32, .f32⟩
  | 14 => ⟨S50000, .i32⟩
  | 15 => ⟨S650000, .i32⟩
  | 16 => ⟨S650000, .i32⟩
  | 17 => ⟨S_, .f32⟩
  | 18 => ⟨S50000, .f32⟩
  | 19 => ⟨S650000, .f32⟩
  | 20 => ⟨S_, .f32⟩
  | 21 => ⟨S50000, .f32⟩
  | 22 => ⟨S650000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S650000, .i32⟩
  | 36 => ⟨S650000, .i1⟩
  | 37 => ⟨S_, .i32⟩
  | 38 => ⟨S650000, .i32⟩
  | 39 => ⟨S650000, .i32⟩
  | 40 => ⟨S650000, .i32⟩
  | 41 => ⟨S650000x1, .i32⟩
  | 42 => ⟨S650000, .f32⟩
  | 43 => ⟨S650000, .f32⟩
  | 44 => ⟨S_, .i32⟩
  | 45 => ⟨S650000, .i32⟩
  | 46 => ⟨S650000, .i1⟩
  | 47 => ⟨S_, .i32⟩
  | 48 => ⟨S650000, .i32⟩
  | 49 => ⟨S650000, .i32⟩
  | 50 => ⟨S650000, .i32⟩
  | 51 => ⟨S650000x1, .i32⟩
  | 52 => ⟨S650000, .f32⟩
  | 53 => ⟨S650000, .f32⟩
  | 54 => ⟨S50000x128, .f32⟩
  | 55 => ⟨S650000x1, .f32⟩
  | 56 => ⟨S_, .i32⟩
  | 57 => ⟨S650000, .i32⟩
  | 58 => ⟨S650000, .i1⟩
  | 59 => ⟨S_, .i32⟩
  | 60 => ⟨S650000, .i32⟩
  | 61 => ⟨S650000, .i32⟩
  | 62 => ⟨S650000, .i32⟩
  | 63 => ⟨S650000x1, .i32⟩
  | 64 => ⟨S650000x128, .f32⟩
  | 65 => ⟨S650000x128, .f32⟩
  | 66 => ⟨S650000x128, .f32⟩
  | 67 => ⟨S_, .f32⟩
  | 68 => ⟨S50000x128, .f32⟩
  | 69 => ⟨S650000x1, .i32⟩
  | 70 => ⟨S50000x128, .f32⟩
  | 71 => ⟨S1x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S50000x128, .f32⟩
  | 85 => ⟨S50000x64, .f32⟩
  | 86 => ⟨S650000x1, .f32⟩
  | 87 => ⟨S_, .i32⟩
  | 88 => ⟨S650000, .i32⟩
  | 89 => ⟨S650000, .i1⟩
  | 90 => ⟨S_, .i32⟩
  | 91 => ⟨S650000, .i32⟩
  | 92 => ⟨S650000, .i32⟩
  | 93 => ⟨S650000, .i32⟩
  | 94 => ⟨S650000x1, .i32⟩
  | 95 => ⟨S650000x64, .f32⟩
  | 96 => ⟨S650000x64, .f32⟩
  | 97 => ⟨S650000x64, .f32⟩
  | 98 => ⟨S_, .f32⟩
  | 99 => ⟨S50000x64, .f32⟩
  | 100 => ⟨S650000x1, .i32⟩
  | 101 => ⟨S50000x64, .f32⟩
  | 102 => ⟨S1x64, .f32⟩
  | 103 => ⟨S1x64, .f32⟩
  | 104 => ⟨S1x64, .f32⟩
  | 105 => ⟨S_, .f32⟩
  | 106 => ⟨S1x64, .f32⟩
  | 107 => ⟨S1x64, .f32⟩
  | 108 => ⟨S_, .f32⟩
  | 109 => ⟨S1x64, .f32⟩
  | 110 => ⟨S1x64, .f32⟩
  | 111 => ⟨S1x64, .f32⟩
  | 112 => ⟨S1x64, .f32⟩
  | 113 => ⟨S1x64, .f32⟩
  | 114 => ⟨S1x64, .f32⟩
  | 115 => ⟨S50000x64, .f32⟩
  | 116 => ⟨S50000x32, .f32⟩
  | 117 => ⟨S650000x1, .f32⟩
  | 118 => ⟨S_, .i32⟩
  | 119 => ⟨S650000, .i32⟩
  | 120 => ⟨S650000, .i1⟩
  | 121 => ⟨S_, .i32⟩
  | 122 => ⟨S650000, .i32⟩
  | 123 => ⟨S650000, .i32⟩
  | 124 => ⟨S650000, .i32⟩
  | 125 => ⟨S650000x1, .i32⟩
  | 126 => ⟨S650000x32, .f32⟩
  | 127 => ⟨S650000x32, .f32⟩
  | _ => ⟨S50000x128, .f32⟩

abbrev hbmTy0_1 (i : Nat) : BufTy := match i % 128 with
  | 0 => ⟨S650000x32, .f32⟩
  | 1 => ⟨S_, .f32⟩
  | 2 => ⟨S50000x32, .f32⟩
  | 3 => ⟨S650000x1, .i32⟩
  | 4 => ⟨S50000x32, .f32⟩
  | 5 => ⟨S1x32, .f32⟩
  | 6 => ⟨S_, .f32⟩
  | 7 => ⟨S1x32, .f32⟩
  | 8 => ⟨S_, .f32⟩
  | 9 => ⟨S1x32, .f32⟩
  | 10 => ⟨S_, .f32⟩
  | 11 => ⟨S1x32, .f32⟩
  | 12 => ⟨S_, .f32⟩
  | 13 => ⟨S1x32, .f32⟩
  | 14 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S5000x64, .f32⟩
  | .local _ .vmem, ⟨30, _⟩ => ⟨S5000x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x32, .f32⟩
  | .local _ .vmem, ⟨41, _⟩ => ⟨S5000x32, .f32⟩
  | .local _ .vmem, ⟨42, _⟩ => ⟨S5000x32, .f32⟩
  | .local _ .vmem, ⟨43, _⟩ => ⟨S5000x32, .f32⟩
  | .local _ .vmem, ⟨44, _⟩ => ⟨S5000x32, .f32⟩
  | .local _ .vmem, ⟨45, _⟩ => ⟨S1x32, .f32⟩
  | .local _ .vmem, ⟨46, _⟩ => ⟨S1x32, .f32⟩
  | .local _ .vmem, ⟨47, _⟩ => ⟨S1x32, .f32⟩
  | .local _ .vmem, ⟨48, _⟩ => ⟨S1x32, .f32⟩
  | .local _ .vmem, ⟨49, _⟩ => ⟨S1x32, .f32⟩
  | .local _ .vmem, ⟨50, _⟩ => ⟨S5000x32, .f32⟩
  | .local _ .vmem, ⟨51, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44_0 : Ref sig .tc := ⟨.hbm, 72, rfl⟩
abbrev main_v44_1 : Ref sig .tc := ⟨.hbm, 73, rfl⟩
abbrev main_cst_10 : Ref sig .tc := ⟨.hbm, 74, rfl⟩
abbrev main_v45 : Ref sig .tc := ⟨.hbm, 75, rfl⟩
abbrev main_v46 : Ref sig .tc := ⟨.hbm, 76, rfl⟩
abbrev main_cst_11 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_12 : Ref sig .tc := ⟨.hbm, 87, rfl⟩
abbrev main_v56 : Ref sig .tc := ⟨.hbm, 88, rfl⟩
abbrev main_v57 : Ref sig .tc := ⟨.hbm, 89, rfl⟩
abbrev main_c_13 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69_0 : Ref sig .tc := ⟨.hbm, 103, rfl⟩
abbrev main_v69_1 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_17 : Ref sig .tc := ⟨.hbm, 118, rfl⟩
abbrev main_v81 : Ref sig .tc := ⟨.hbm, 119, rfl⟩
abbrev main_v82 : Ref sig .tc := ⟨.hbm, 120, rfl⟩
abbrev main_c_18 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_19 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_20 : Ref sig .tc := ⟨.hbm, 134, rfl⟩
abbrev main_v94 : Ref sig .tc := ⟨.hbm, 135, rfl⟩
abbrev main_cst_21 : Ref sig .tc := ⟨.hbm, 136, rfl⟩
abbrev main_v95 : Ref sig .tc := ⟨.hbm, 137, rfl⟩
abbrev main_cst_22 : Ref sig .tc := ⟨.hbm, 138, rfl⟩
abbrev main_v96 : Ref sig .tc := ⟨.hbm, 139, rfl⟩
abbrev main_cst_23 : Ref sig .tc := ⟨.hbm, 140, rfl⟩
abbrev main_v97 : Ref sig .tc := ⟨.hbm, 141, rfl⟩
abbrev main_v98 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc7_stg4_0 : Ref sig .tc := ⟨.vmem, 48, rfl⟩
abbrev cc7_stg5_0 : Ref sig .tc := ⟨.vmem, 49, rfl⟩
abbrev cc7_stg6_0 : Ref sig .tc := ⟨.vmem, 50, rfl⟩
abbrev cc7_stg6_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc7_sem4_0 : DmaSem sig := 48
abbrev cc7_sem5_0 : DmaSem sig := 49
abbrev cc7_sem6_0 : DmaSem sig := 50
abbrev cc7_sem6_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x32 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x32 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S650000x1_S650000x32_0_1 : S650000x1.BroadcastsInDim S650000x32 (![0, 1] : Fin 2 → Fin S650000x32.rank)
  bcast_S_S50000x32 : S_.BroadcastsInDim S50000x32 (![] : Fin 0 → Fin S50000x32.rank)
  shapeCasts_S32_S1x32 : S32.ShapeCasts S1x32
  bcast_S_S1x32 : S_.BroadcastsInDim S1x32 (![] : Fin 0 → Fin S1x32.rank)
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  dot_S5000x64_S64x32_S5000x32_1_0_0_1_n_n_wf : DotDims.WF S5000x64 S64x32 S5000x32 [1] [0] [0] [1] [] []
  gather_S50000x32_S650000x1_S650000x32_1_0_n_n_0_1_132_wf : GatherDims.WF S50000x32 S650000x1 S650000x32 [1] [0] [] [0] [] 1 ![1, 32]
  scatter_S50000x32_S650000x1_S650000x32_1_0_0_1_wf : ScatterDims.WF S50000x32 S650000x1 S650000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S50000x64.size a
  hwx5_6 : ∀ i : grid5.Coords, EltTy.bits .f32 = 32 ∨ (Rect.block (s := S50000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x32.size a ≤ S50000x32.size a
  hwx6_2 : ∀ i : grid6.Coords, EltTy.bits .f32 = 32 ∨ (Rect.block (s := S50000x32) S5000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S50000x32.size a
  hwx7_0 : ∀ i : grid7.Coords, EltTy.bits .f32 = 32 ∨ (Rect.block (s := S50000x32) S5000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x32.size a ≤ S1x32.size a
  hwx7_4 : ∀ i : grid7.Coords, EltTy.bits .f32 = 32 ∨ (Rect.block (s := S1x32) S1x32.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x32.size a ≤ S1x32.size a
  hwx7_5 : ∀ i : grid7.Coords, EltTy.bits .f32 = 32 ∨ (Rect.block (s := S1x32) S1x32.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x32.size a ≤ S50000x32.size a
  hwx7_6 : ∀ i : grid7.Coords, EltTy.bits .f32 = 32 ∨ (Rect.block (s := S50000x32) S5000x32.size (cc7_transform_6 i) (hinb7_6 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S650000x1_S650000x32_1_0_n_n_0_1_132 : GatherDims S50000x32 S650000x1 S650000x32 where
  offsetDims := [1]
  collapsedSliceDims := [0]
  operandBatchingDims := []
  startIndicesBatchingDims := []
  startIndexMap := [0]
  indexVectorDim := 1
  sliceSizes := ![1, 32]
  wf := gather_S50000x32_S650000x1_S650000x32_1_0_n_n_0_1_132_wf
def scatter_S50000x32_S650000x1_S650000x32_1_0_0_1 : ScatterDims S50000x32 S650000x1 S650000x32 where
  updateWindowDims := [1]
  insertedWindowDims := [0]
  scatterDimsToOperandDims := [0]
  indexVectorDim := 1
  wf := scatter_S50000x32_S650000x1_S650000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69_0) S1x64.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69_1) S1x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v67) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v71) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v77) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v78) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v78) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S5000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v92) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v93) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v94) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v95) S1x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v96) S1x32.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v97) S1x32.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v98) S5000x32.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩
abbrev S50000x32 : Shape := ⟨2, ![50000, 32]⟩
abbrev S650000x32 : Shape := ⟨2, ![650000, 32]⟩
abbrev S1x32 : Shape := ⟨2, ![1, 32]⟩

abbrev nBuf : Space → Nat
  | .hbm => 180
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S600000, .f32⟩
  | 4 => ⟨S128x128, .f32⟩
  | 5 => ⟨S128, .f32⟩
  | 6 => ⟨S128, .f32⟩
  | 7 => ⟨S128, .f32⟩
  | 8 => ⟨S128x64, .f32⟩
  | 9 => ⟨S64, .f32⟩
  | 10 => ⟨S64, .f32⟩
  | 11 => ⟨S64, .f32⟩
  | 12 => ⟨S64x32, .f32⟩
  | 13 => ⟨S32, .f32⟩
  | 14 => ⟨S50000, .i32⟩
  | 15 => ⟨S650000, .i32⟩
  | 16 => ⟨S650000, .i32⟩
  | 17 => ⟨S_, .f32⟩
  | 18 => ⟨S50000, .f32⟩
  | 19 => ⟨S650000, .f32⟩
  | 20 => ⟨S_, .f32⟩
  | 21 => ⟨S50000, .f32⟩
  | 22 => ⟨S650000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S650000, .i32⟩
  | 36 => ⟨S650000, .i1⟩
  | 37 => ⟨S_, .i32⟩
  | 38 => ⟨S650000, .i32⟩
  | 39 => ⟨S650000, .i32⟩
  | 40 => ⟨S650000, .i32⟩
  | 41 => ⟨S650000x1, .i32⟩
  | 42 => ⟨S650000, .f32⟩
  | 43 => ⟨S650000, .f32⟩
  | 44 => ⟨S_, .i32⟩
  | 45 => ⟨S650000, .i32⟩
  | 46 => ⟨S650000, .i1⟩
  | 47 => ⟨S_, .i32⟩
  | 48 => ⟨S650000, .i32⟩
  | 49 => ⟨S650000, .i32⟩
  | 50 => ⟨S650000, .i32⟩
  | 51 => ⟨S650000x1, .i32⟩
  | 52 => ⟨S650000, .f32⟩
  | 53 => ⟨S650000, .f32⟩
  | 54 => ⟨S50000x128, .f32⟩
  | 55 => ⟨S650000x1, .f32⟩
  | 56 => ⟨S_, .i32⟩
  | 57 => ⟨S650000, .i32⟩
  | 58 => ⟨S650000, .i1⟩
  | 59 => ⟨S_, .i32⟩
  | 60 => ⟨S650000, .i32⟩
  | 61 => ⟨S650000, .i32⟩
  | 62 => ⟨S650000, .i32⟩
  | 63 => ⟨S650000x1, .i32⟩
  | 64 => ⟨S650000x128, .f32⟩
  | 65 => ⟨S650000x128, .f32⟩
  | 66 => ⟨S650000x128, .f32⟩
  | 67 => ⟨S_, .f32⟩
  | 68 => ⟨S50000x128, .f32⟩
  | 69 => ⟨S650000x1, .i32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S50000x128, .f32⟩
  | 83 => ⟨S_, .f32⟩
  | 84 => ⟨S128, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S128, .f32⟩
  | 96 => ⟨S128, .f32⟩
  | 97 => ⟨S128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S50000x64, .f32⟩
  | 108 => ⟨S650000x1, .f32⟩
  | 109 => ⟨S_, .i32⟩
  | 110 => ⟨S650000, .i32⟩
  | 111 => ⟨S650000, .i1⟩
  | 112 => ⟨S_, .i32⟩
  | 113 => ⟨S650000, .i32⟩
  | 114 => ⟨S650000, .i32⟩
  | 115 => ⟨S650000, .i32⟩
  | 116 => ⟨S650000x1, .i32⟩
  | 117 => ⟨S650000x64, .f32⟩
  | 118 => ⟨S650000x64, .f32⟩
  | 119 => ⟨S650000x64, .f32⟩
  | 120 => ⟨S_, .f32⟩
  | 121 => ⟨S50000x64, .f32⟩
  | 122 => ⟨S650000x1, .i32⟩
  | 123 => ⟨S50000x64, .f32⟩
  | 124 => ⟨S1x64, .f32⟩
  | 125 => ⟨S50000x64, .f32⟩
  | 126 => ⟨S50000x64, .f32⟩
  | 127 => ⟨S_, .f32⟩
  | _ => ⟨S50000x128, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S1x64, .f32⟩
  | 5 => ⟨S50000x64, .f32⟩
  | 6 => ⟨S50000x64, .f32⟩
  | 7 => ⟨S50000x64, .f32⟩
  | 8 => ⟨S_, .f32⟩
  | 9 => ⟨S64, .f32⟩
  | 10 => ⟨S_, .f32⟩
  | 11 => ⟨S64, .f32⟩
  | 12 => ⟨S64, .f32⟩
  | 13 => ⟨S1x64, .f32⟩
  | 14 => ⟨S50000x64, .f32⟩
  | 15 => ⟨S50000x64, .f32⟩
  | 16 => ⟨S1x64, .f32⟩
  | 17 => ⟨S50000x64, .f32⟩
  | 18 => ⟨S50000x64, .f32⟩
  | 19 => ⟨S_, .f32⟩
  | 20 => ⟨S64, .f32⟩
  | 21 => ⟨S64, .f32⟩
  | 22 => ⟨S64, .f32⟩
  | 23 => ⟨S1x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S50000x32, .f32⟩
  | 33 => ⟨S650000x1, .f32⟩
  | 34 => ⟨S_, .i32⟩
  | 35 => ⟨S650000, .i32⟩
  | 36 => ⟨S650000, .i1⟩
  | 37 => ⟨S_, .i32⟩
  | 38 => ⟨S650000, .i32⟩
  | 39 => ⟨S650000, .i32⟩
  | 40 => ⟨S650000, .i32⟩
  | 41 => ⟨S650000x1, .i32⟩
  | 42 => ⟨S650000x32, .f32⟩
  | 43 => ⟨S650000x32, .f32⟩
  | 44 => ⟨S650000x32, .f32⟩
  | 45 => ⟨S_, .f32⟩
  | 46 => ⟨S50000x32, .f32⟩
  | 47 => ⟨S650000x1, .i32⟩
  | 48 => ⟨S50000x32, .f32⟩
  | 49 => ⟨S1x32, .f32⟩
  | 50 => ⟨S50000x32, .f32⟩
  | 51 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_cst_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_12 : Ref sig .tc := ⟨.hbm, 83, rfl⟩
abbrev main_v53 : Ref sig .tc := ⟨.hbm, 84, rfl⟩
abbrev main_cst_13 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call1_cst : Ref sig .tc := ⟨.hbm, 104, rfl⟩
abbrev main_call1_v0 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_15 : Ref sig .tc := ⟨.hbm, 109, rfl⟩
abbrev main_v74 : Ref sig .tc := ⟨.hbm, 110, rfl⟩
abbrev main_v75 : Ref sig .tc := ⟨.hbm, 111, rfl⟩
abbrev main_c_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_17 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_18 : Ref sig .tc := ⟨.hbm, 127, rfl⟩
abbrev main_v89 : Ref sig .tc := ⟨.hbm, 128, rfl⟩
abbrev main_cst_19 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_20 : Ref sig .tc := ⟨.hbm, 136, rfl⟩
abbrev main_v96 : Ref sig .tc := ⟨.hbm, 137, rfl⟩
abbrev main_cst_21 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_22 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_call2_cst : Ref sig .tc := ⟨.hbm, 157, rfl⟩
abbrev main_call2_v0 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_23 : Ref sig .tc := ⟨.hbm, 162, rfl⟩
abbrev main_v117 : Ref sig .tc := ⟨.hbm, 163, rfl⟩
abbrev main_v118 : Ref sig .tc := ⟨.hbm, 164, rfl⟩
abbrev main_c_24 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_25 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩

abbrev nD : Nat := 1
abbrev τ : Topo := Topo.v7x

variable {F : FTy → Type} [FloatOps F]

class Facts₀ : Prop where
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S650000x1_S650000x32_0_1 : S650000x1.BroadcastsInDim S650000x32 (![0, 1] : Fin 2 → Fin S650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  dot_S50000x64_S64x32_S50000x32_1_0_0_1_n_n_wf : DotDims.WF S50000x64 S64x32 S50000x32 [1] [0] [0] [1] [] []
  gather_S50000x32_S650000x1_S650000x32_1_0_n_n_0_1_132_wf : GatherDims.WF S50000x32 S650000x1 S650000x32 [1] [0] [] [0] [] 1 ![1, 32]
  scatter_S50000x32_S650000x1_S650000x32_1_0_0_1_wf : ScatterDims.WF S50000x32 S650000x1 S650000x32 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S650000x1_S650000x32_1_0_n_n_0_1_132 : GatherDims S50000x32 S650000x1 S650000x32 where
  offsetDims := [1]
  collapsedSliceDims := [0]
  operandBatchingDims := []
  startIndicesBatchingDims := []
  startIndexMap := [0]
  indexVectorDim := 1
  sliceSizes := ![1, 32]
  wf := gather_S50000x32_S650000x1_S650000x32_1_0_n_n_0_1_132_wf
def scatter_S50000x32_S650000x1_S650000x32_1_0_0_1 : ScatterDims S50000x32 S650000x1 S650000x32 where
  updateWindowDims := [1]
  insertedWindowDims := [0]
  scatterDimsToOperandDims := [0]
  indexVectorDim := 1
  wf := scatter_S50000x32_S650000x1_S650000x32_1_0_0_1_wf

class Facts : Prop extends Facts₀ where

variable [Facts]
-- ==== Proof.KernelRun.lean ====
/-
  The idealized kernel's run, read with its final memory: every weakly fair execution of the program terminates
  without a fault, and in the final state every buffer that outlives the regions holds the contents obtained by
  folding the program's segments, in order, over the launch memory — a host stretch applies its operations, a
  region replaces its arrays by what its write-backs leave. In particular the result array is that fold's value
  at the result buffer, and the argument arrays are as launched.
-/
import proofs.«159056_j27436251087104_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and every buffer that outlives the regions ends at the fold of the
    segments over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- The result array ends at the fold's value at the result buffer. -/
theorem result_mem (r : PUnit × MemSt nD τ sig (Elt F))
    (h : ∀ c : Dev nD, ∀ b ∈ Pipeline.ucRefs τ sig, r.2.mem (((c : Thread nD τ)).1, b) = W16 m ρ c b) (c : Dev nD) :
    r.2.mem ((c.tc : Thread nD τ).loc main_v98) = W16 m ρ c (Proc.devRef .tc main_v98) :=
  h c _ (mem_uc main_v98 (by decide))

end Cert.KernelIdeal.RunValue

end
-- ==== Proof.Spec.lean ====
/-
  The mathematics of one graph-convolution layer, as index-by-index functions on extended reals.

  A layer takes node features `h` (n rows), multiplies them by a weight matrix, aggregates the product along the
  edges of the graph, adds a bias row, and (in the first two layers) normalises every feature column by its mean
  and variance over the n nodes before clipping at zero. The functions below name each of those pieces once:
  the matrix product, the pre-activation (aggregate plus bias), the column sums of the pre-activation and of its
  square, and the normalise-and-clip map. Both programs are shown to compute exactly these functions; the only
  difference between them is which formula gives the variance.
-/
import Idealize.ShloMosaic.PureOps.Ideal
import Idealize.ShloMosaic.Lib.ValueIdx

noncomputable section

namespace Cert.Spec

open Idealize.ShloMosaic Idealize.ShloMosaic.ValueIdx

/-- A rank-2 array of extended reals with `n0` rows and `n1` columns. -/
abbrev Arr2 (n0 n1 : Nat) : Type := (⟨2, ![n0, n1]⟩ : Shape).Idx → EReal

/-- The matrix product: entry (r, c) is the sum over l of x[r, l] · w[l, c]. -/
def mm {n k p : Nat} (x : Arr2 n k) (w : Arr2 k p) : Arr2 n p :=
  fun i => ∑ l : Fin k, x (ix2 (i 0) l) * w (ix2 l (i 1))

/-- The pre-activation: the aggregated rows plus the bias row, a[r, c] + b[0, c]. -/
def pre {n f : Nat} (a : Arr2 n f) (b : Arr2 1 f) : Arr2 n f :=
  fun i => a i + b (ix2 0 (i 1))

/-- The sum of every column over all rows, as a single row. -/
def colSum {n f : Nat} (p : Arr2 n f) : Arr2 1 f :=
  fun j => ∑ r : Fin n, p (ix2 r (j 1))

/-- The sum of the squares of every column over all rows, as a single row. -/
def colSumSq {n f : Nat} (p : Arr2 n f) : Arr2 1 f :=
  fun j => ∑ r : Fin n, p (ix2 r (j 1)) * p (ix2 r (j 1))

/-- The small positive constant added to the variance before the inverse square root (its exact binary value). -/
def eps : EReal := Ideal.ofBits .f32 0x3727C5AC#32

/-- Normalise and clip: max(γ[c] · ((a[r, c] + b[c]) − μ[c]) · (var[c] + ε)^(−1/2) + β[c], 0). -/
def normRelu {n f : Nat} (a : Arr2 n f) (b mu var g be : Arr2 1 f) : Arr2 n f :=
  fun i => max (g (ix2 0 (i 1)) * (a i + b (ix2 0 (i 1)) - mu (ix2 0 (i 1)))
      * Ideal.rsqrt (var (ix2 0 (i 1)) + eps) + be (ix2 0 (i 1))) 0

end Cert.Spec

end
-- ==== Proof.Region0.lean ====
/-
  The first matrix product of the kernel, as one function of whole arrays.

  The node features x (50000 rows of 128 features) are multiplied by a 128 × 128 weight matrix w. The kernel
  does this in ten steps: step t takes rows 5000·t … 5000·t + 4999 of x together with the whole of w, forms the
  product of that block of rows with w, and writes it to the same rows of the result. Entry (p, q) of a block
  product is ∑ l, x[5000·t + p, l] · w[l, q], which is entry (5000·t + p, q) of the product of the whole arrays:
  a row of the product depends on the same row of x only. The ten blocks of rows fill all 50000 rows, so after
  the ten steps the result array is the matrix product of the two arrays the region found on entry.
  The rounding of the operands to a shorter format before the product is the identity on extended reals.
-/
import proofs.«159056_j27436251087104_1_alg».proof.Proof.Gen.KernelIdeal.Frame
import proofs.«159056_j27436251087104_1_alg».proof.Proof.Spec
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The two zero offsets of a whole-block access, as a constant function. -/
theorem mm0_zero_offsets : (![0, 0] : Fin 2 → Nat) = fun _ => 0 := funext fun a => by fin_cases a <;> rfl

/-! ## The block product at an index -/

/-- The left operand is read on the row of the output entry, … -/
theorem mm0_lhs_row (i : S5000x128.Idx) (z : dot_S5000x128_S128x128_S5000x128_1_0_0_1_n_n.contr.Idx) :
    (dot_S5000x128_S128x128_S5000x128_1_0_0_1_n_n.lhsIdx i z 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … at the column the summation position names; -/
theorem mm0_lhs_col (i : S5000x128.Idx) (z : dot_S5000x128_S128x128_S5000x128_1_0_0_1_n_n.contr.Idx) :
    (dot_S5000x128_S128x128_S5000x128_1_0_0_1_n_n.lhsIdx i z 1).val = (z ⟨0, by decide⟩).val :=
  dot_S5000x128_S128x128_S5000x128_1_0_0_1_n_n.lhsIdx_val_of_single rfl i z
/-- the right operand on the row the summation position names, … -/
theorem mm0_rhs_row (i : S5000x128.Idx) (z : dot_S5000x128_S128x128_S5000x128_1_0_0_1_n_n.contr.Idx) :
    (dot_S5000x128_S128x128_S5000x128_1_0_0_1_n_n.rhsIdx i z 0).val = (z ⟨0, by decide⟩).val :=
  dot_S5000x128_S128x128_S5000x128_1_0_0_1_n_n.rhsIdx_val_of_single rfl i z
/-- … at the column of the output entry. -/
theorem mm0_rhs_col (i : S5000x128.Idx) (z : dot_S5000x128_S128x128_S5000x128_1_0_0_1_n_n.contr.Idx) :
    (dot_S5000x128_S128x128_S5000x128_1_0_0_1_n_n.rhsIdx i z 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (p, q) of the body's result: the sum over l of x[p, l] · w[l, q], with no accumulator term (it starts
    from the zero array) and no rounding (narrowing a format is the identity on extended reals). -/
theorem mm0_payload (x : Vec Ideal S5000x128 .f32) (w : Vec Ideal S128x128 .f32) (p : Fin 5000) (q : Fin 128) :
    k0_pay1 (F := Ideal) x w (ix2 p q) = ∑ l : Fin 128, x (ix2 p l) * w (ix2 l q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun l _ => ?_
  have hl := contrEquiv1_symm_val dot_S5000x128_S128x128_S5000x128_1_0_0_1_n_n 128 rfl rfl l
  have el : dot_S5000x128_S128x128_S5000x128_1_0_0_1_n_n.lhsIdx (ix2 p q) ((contrEquiv1 dot_S5000x128_S128x128_S5000x128_1_0_0_1_n_n 128 rfl rfl).symm l) = ix2 p l :=
    funext fun a => Fin.ext (by
      match a with
      | ⟨0, _⟩ => exact mm0_lhs_row _ _
      | ⟨1, _⟩ => exact (mm0_lhs_col _ _).trans hl)
  have er : dot_S5000x128_S128x128_S5000x128_1_0_0_1_n_n.rhsIdx (ix2 p q) ((contrEquiv1 dot_S5000x128_S128x128_S5000x128_1_0_0_1_n_n 128 rfl rfl).symm l) = ix2 l q :=
    funext fun a => Fin.ext (by
      match a with
      | ⟨0, _⟩ => exact (mm0_rhs_row _ _).trans hl
      | ⟨1, _⟩ => exact mm0_rhs_col _ _)
  rw [truncf_apply, truncf_apply, el, er]

/-! ## From the blocks of rows to the whole arrays -/

variable (V : (c : Dev nD) → (b : Ref sig .tc) → Buf (Elt Ideal) ((c : Thread nD τ).loc b))

/-- Where each step's blocks sit, decided over the ten steps: step t takes block t of the rows of the left
    operand and of the result (all columns), and the one block that is the whole weight matrix. -/
theorem mm0_block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, l) of step t's block of the left operand is entry (5000·t + p, l) of the array. -/
theorem mm0_lhs_block (c : Dev nD) (t : Fin cfg0.N) (p : Fin 5000) (l : Fin 128) (r : Fin 50000)
    (hr : r.val = 5000 * t.val + p.val) :
    (iblk0 V c 0 t : S5000x128.Idx → EReal) (ix2 p l) = (V c main_arg0 : S50000x128.Idx → EReal) (ix2 r l) := by
  obtain ⟨e00, e01, -⟩ := mm0_block_indices t
  have h : ((cfg0.win 0).blk t).view.emb (ix2 p l) = (ix2 r l : S50000x128.Idx) := by
    funext a; apply Fin.ext
    match a with
    | ⟨0, _⟩ => show win0_0.index t (0 : Fin 2) * 5000 + 1 * p.val = r.val; omega
    | ⟨1, _⟩ => show win0_0.index t (1 : Fin 2) * 128 + 1 * l.val = l.val; omega
  show V c main_arg0 (((cfg0.win 0).blk t).view.emb (ix2 p l)) = V c main_arg0 (ix2 r l)
  rw [h]

/-- Every step's block of the weight matrix is the whole matrix. -/
theorem mm0_rhs_block (c : Dev nD) (t : Fin cfg0.N) (l : Fin 128) (q : Fin 128) :
    (iblk0 V c 1 t : S128x128.Idx → EReal) (ix2 l q) = (V c main_arg4 : S128x128.Idx → EReal) (ix2 l q) := by
  obtain ⟨-, -, e10, e11, -⟩ := mm0_block_indices t
  have h : ((cfg0.win 1).blk t).view.emb (ix2 l q) = (ix2 l q : S128x128.Idx) := by
    funext a; apply Fin.ext
    match a with
    | ⟨0, _⟩ => show win0_1.index t (0 : Fin 2) * 128 + 1 * l.val = l.val; omega
    | ⟨1, _⟩ => show win0_1.index t (1 : Fin 2) * 128 + 1 * q.val = q.val; omega
  show V c main_arg4 (((cfg0.win 1).blk t).view.emb (ix2 l q)) = V c main_arg4 (ix2 l q)
  rw [h]

/-- Entry (p, q) of step t's block of the result is entry (5000·t + p, q) of the result array. -/
theorem mm0_out_index (t : Fin cfg0.N) (p : Fin 5000) (q : Fin 128) (r : Fin 50000)
    (hr : r.val = 5000 * t.val + p.val) :
    ((cfg0.win 2).blk t).view.emb (ix2 p q) = (ix2 r q : S50000x128.Idx) := by
  obtain ⟨-, -, -, -, e20, e21⟩ := mm0_block_indices t
  funext a; apply Fin.ext
  match a with
  | ⟨0, _⟩ => show win0_2.index t (0 : Fin 2) * 5000 + 1 * p.val = r.val; omega
  | ⟨1, _⟩ => show win0_2.index t (1 : Fin 2) * 128 + 1 * q.val = q.val; omega

/-- What the body computes from step t's blocks is, entry by entry, the product of the whole arrays read at the
    place that entry has in the result array: a row of the product depends on that row of the left operand only. -/
theorem mm0_block (c : Dev nD) (t : Fin cfg0.N) (j : S5000x128.Idx) :
    k0_pay1 (F := Ideal) (iblk0 V c 0 t) (iblk0 V c 1 t) j
      = Cert.Spec.mm (V c main_arg0) (V c main_arg4) (((cfg0.win 2).blk t).view.emb j) := by
  obtain ⟨p, q, rfl⟩ : ∃ (p : Fin 5000) (q : Fin 128), j = ix2 p q := ⟨j 0, j 1, eq_ix2 j⟩
  have ht : t.val < 10 := lt_of_lt_of_eq t.isLt N_0
  obtain ⟨r, hr⟩ : ∃ r : Fin 50000, r.val = 5000 * t.val + p.val := ⟨⟨5000 * t.val + p.val, by omega⟩, rfl⟩
  refine (mm0_payload (iblk0 V c 0 t) (iblk0 V c 1 t) p q).trans ?_
  rw [mm0_out_index t p q r hr]
  refine Finset.sum_congr rfl fun l _ => ?_
  rw [mm0_lhs_block V c t p l r hr, mm0_rhs_block V c t l q]

/-- What step t writes back is block t of the product of the whole arrays. -/
theorem mm0_flushed (c : Dev nD) (t : Fin cfg0.N) :
    (dat0 V c).flushed 2 t
      = ((cfg0.win 2).blk t).view.read (Elt Ideal) (Cert.Spec.mm (V c main_arg0) (V c main_arg4)) := by
  show (cfg0.win 2).cut (grid0.coords t) ((dat0 V c).after 2 t) = _
  rw [after0_2]
  unfold out0_2
  rw [View.canon_unit_zero mm0_zero_offsets]
  simp only [View.ld_unit_zero (S := S5000x128) mm0_zero_offsets, View.ld_unit_zero (S := S128x128) mm0_zero_offsets]
  exact funext fun j => mm0_block V c t j

/-- An index of the result array is in step t's block exactly when each coordinate is in the block's range. -/
theorem mm0_mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- The ten blocks of rows fill the result array: row r is in the block of step r / 5000. -/
theorem mm0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, e20, e21⟩ := mm0_block_indices t
  refine ⟨t, flush0_2 t, ?_⟩
  rw [mm0_mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- THE REGION'S RESULT: after the ten steps the result array is the matrix product of the two arrays the region
    found on entry. -/
theorem region0 (c : Dev nD) :
    ((dat0 V c).arrAt 2 cfg0.N : S50000x128.Idx → EReal) = Cert.Spec.mm (V c main_arg0) (V c main_arg4) :=
  (dat0 V c).arrAt_eq_of_cover 2 (Cert.Spec.mm (V c main_arg0) (V c main_arg4))
    (fun t _ => mm0_flushed V c t) (mm0_cover)

end Cert.KernelIdeal.RegionValue

end
-- ==== Proof.Region1.lean ====
/-
  The statistics pass of the first layer, read as a value: the column sums and the column sums of squares of the
  pre-activation (the aggregated rows plus the bias row).

  The pass visits the 50000 rows of the aggregate in ten blocks of 5000 rows. At the first block it clears two rows
  of 128 lanes; at every block it adds, lane by lane, to the first row the sum over the block's rows of
  (aggregate + bias) and to the second row the sum of the squares of those entries. The two rows stay in place from
  one block to the next and are written out once, after the tenth block. Hence after block n they hold the sums over
  rows 0 … 5000·(n+1) − 1: an induction on n whose step says that a range of 5000·(n+2) naturals is a range of
  5000·(n+1) followed by 5000 more. After the tenth block these are the sums over all rows. Addition of extended reals
  is commutative and associative with 0 neutral, so nothing here asks any entry to be finite.

  The order of the file: what each of the two control cases of the body leaves in each row, as the body's arithmetic
  applied to the blocks; that arithmetic read at a lane; where a block's entry sits in its array; the induction;
  the single write-back and the result arrays.
-/
import proofs.«159056_j27436251087104_1_alg».proof.Proof.Gen.KernelIdeal.Frame
import proofs.«159056_j27436251087104_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RegionValue.R1

open Cert.KernelIdeal Cert.KernelIdeal.Gen

section Pieces
variable {F : FTy → Type} [FloatOps F]

theorem hz : (![0, 0] : Fin 2 → Nat) = fun _ => 0 := funext fun a => by fin_cases a <;> rfl

/-- A later point (the reset not taken): the body leaves in the first staging row its running contents `xo2` plus
    the column sums of (block + bias row) — the one covering store's payload, whose loads read the whole buffers. -/
theorem out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero hz]
  simp only [View.readAt_eq_ld, h1.read_unread, h2.read_unread, h3.read_unread, View.ld_unit_zero (S := S5000x128) hz,
    View.ld_unit_zero (S := S1x128) hz]

/-- The same point, second staging row: its running contents `xo3` plus the column sums of squares. -/
theorem out_B_3 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero hz]
  simp only [View.readAt_eq_ld, h1.read_unread, h2.read_unread, h4.read_unread, View.ld_unit_zero (S := S5000x128) hz,
    View.ld_unit_zero (S := S1x128) hz]

/-- The first point (the reset taken): the body stores the zero row, reads it back, and leaves zero row plus the
    column sums of (block + bias row). -/
theorem out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

/-- The first point, second staging row: zero row plus the column sums of squares. -/
theorem out_A_3 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz,
    View.ld_unit_zero (S := S1x128) hz]

end Pieces

section Payloads

/-- The zero row the reset stores, at any lane. -/
theorem pay1_apply (u : Fin 1) (k : Fin 128) : (k1_pay1 (F := Ideal)) (ix2 u k) = 0 := by
  unfold k1_pay1
  exact Ideal.ofBits_zero_f32

theorem pay2_apply (u : Fin 1) (k : Fin 128) : (k1_pay2 (F := Ideal)) (ix2 u k) = 0 := by
  unfold k1_pay2
  exact Ideal.ofBits_zero_f32

/-- The pre-activation of one block: entry (q, k) of the block plus the bias row at lane k. -/
theorem pay3_apply (x0 : Vec Ideal S5000x128 .f32) (x1 : Vec Ideal S1x128 .f32) (q : Fin 5000) (k : Fin 128) :
    k1_pay3 x0 x1 (ix2 q k) = x0 (ix2 q k) + x1 (ix2 0 k) := by
  unfold k1_pay3
  show shapeCast S5000x128 x0 shapeCasts_S5000x128_S5000x128 (ix2 q k)
      + broadcastTo S5000x128 (shapeCast S1x128 x1 shapeCasts_S1x128_S1x128) broadcasts_S1x128_S5000x128 (ix2 q k) = _
  rw [shapeCast_self, shapeCast_self]
  exact congrArg (x0 (ix2 q k) + ·) (broadcastTo_1b_ab_apply x1 broadcasts_S1x128_S5000x128 q k)

/-- A sum over axis 0 of a [5000, 128] vector, at lane k: the sum over the 5000 rows. -/
theorem laneSum_apply (src : FVec Ideal S5000x128 .f32) (h : S5000x128.Reduces [0] S128) (hφ : FKind.Formats .f32)
    (hacc : (0x00000000#32 : BitVec 32) = FKind.add.neutral .f32 hφ) (k : Fin 128) :
    multiReduction .add [0] S128 src 0x00000000#32 h hφ hacc (ix1 k) = ∑ q : Fin 5000, src (ix2 q k) := by
  refine (Ideal.multiReduction_add_single src 0x00000000#32 h hφ hacc (ix1 k)).trans ?_
  refine Finset.sum_congr rfl fun q _ => congrArg src ?_
  funext a
  match a with
  | ⟨0, _⟩ => rfl
  | ⟨1, _⟩ => rfl

end Payloads

section Payloads2

/-- The first accumulating payload at lane k: the row it is given plus the column sum, over the block's 5000 rows, of
    (block + bias row). -/
theorem pay4_apply (x0 : Vec Ideal S5000x128 .f32) (x1 acc : Vec Ideal S1x128 .f32) (u : Fin 1) (k : Fin 128) :
    k1_pay4 x0 x1 acc (ix2 u k) = acc (ix2 u k) + ∑ q : Fin 5000, (x0 (ix2 q k) + x1 (ix2 0 k)) := by
  unfold k1_pay4
  show shapeCast S1x128 acc shapeCasts_S1x128_S1x128 (ix2 u k)
      + shapeCast S1x128 (multiReduction .add [0] S128 (k1_pay3 x0 x1) 0x00000000#32 reduces_S5000x128_S128 (.inl rfl) rfl)
          shapeCasts_S128_S1x128 (ix2 u k) = _
  rw [shapeCast_self]
  refine congrArg (acc (ix2 u k) + ·) ?_
  refine (shapeCast_a_1a_apply _ shapeCasts_S128_S1x128 u k).trans ?_
  refine (laneSum_apply (k1_pay3 x0 x1) reduces_S5000x128_S128 (.inl rfl) rfl k).trans ?_
  exact Finset.sum_congr rfl fun q _ => pay3_apply x0 x1 q k

/-- The second accumulating payload at lane k: the row it is given plus the column sum of the squares. -/
theorem pay5_apply (x0 : Vec Ideal S5000x128 .f32) (x1 acc : Vec Ideal S1x128 .f32) (u : Fin 1) (k : Fin 128) :
    k1_pay5 x0 x1 acc (ix2 u k)
      = acc (ix2 u k) + ∑ q : Fin 5000, (x0 (ix2 q k) + x1 (ix2 0 k)) * (x0 (ix2 q k) + x1 (ix2 0 k)) := by
  unfold k1_pay5
  show shapeCast S1x128 acc shapeCasts_S1x128_S1x128 (ix2 u k)
      + shapeCast S1x128 (multiReduction .add [0] S128 (mulf (k1_pay3 x0 x1) (k1_pay3 x0 x1)) 0x00000000#32
            reduces_S5000x128_S128 (.inl rfl) rfl) shapeCasts_S128_S1x128 (ix2 u k) = _
  rw [shapeCast_self]
  refine congrArg (acc (ix2 u k) + ·) ?_
  refine (shapeCast_a_1a_apply _ shapeCasts_S128_S1x128 u k).trans ?_
  refine (laneSum_apply (mulf (k1_pay3 x0 x1) (k1_pay3 x0 x1)) reduces_S5000x128_S128 (.inl rfl) rfl k).trans ?_
  refine Finset.sum_congr rfl fun q _ => ?_
  show k1_pay3 x0 x1 (ix2 q k) * k1_pay3 x0 x1 (ix2 q k) = _
  rw [pay3_apply]

end Payloads2

section Reads
variable (V : (c : Dev nD) → (b : Ref sig .tc) → Buf (Elt Ideal) ((c : Thread nD τ).loc b))

/-- The block of the aggregated rows staged at point t holds rows 5000·t … 5000·t + 4999 of the array. -/
theorem agg_blk (c : Dev nD) (t : Fin cfg1.N) (q : Fin 5000) (k : Fin 128) (hr : 5000 * t.val + q.val < 50000) :
    (iblk1 V c 0 t : Vec Ideal S5000x128 .f32) (ix2 q k)
      = (V c main_v42 : S50000x128.Idx → EReal) (ix2 ⟨5000 * t.val + q.val, hr⟩ k) := by
  have hi : ∀ t : Fin cfg1.N, win1_0.index t 0 = t.val ∧ win1_0.index t 1 = 0 :=
    (by decide +kernel : ∀ t : Fin grid1.N, win1_0.index t 0 = t.val ∧ win1_0.index t 1 = 0)
  unfold iblk1
  rw [View.read_apply]
  show V c main_v42 _ = V c main_v42 _
  refine congrArg (V c main_v42) ?_
  funext a
  apply Fin.ext
  match a with
  | ⟨0, _⟩ => show win1_0.index t 0 * 5000 + 1 * q.val = 5000 * t.val + q.val; rw [(hi t).1]; omega
  | ⟨1, _⟩ => show win1_0.index t 1 * 128 + 1 * k.val = k.val; rw [(hi t).2]; omega

/-- The bias window's block is the whole bias row at every point. -/
theorem bias_blk (c : Dev nD) (t : Fin cfg1.N) (k : Fin 128) :
    (iblk1 V c 1 t : Vec Ideal S1x128 .f32) (ix2 0 k) = (V c main_v43 : S1x128.Idx → EReal) (ix2 0 k) := by
  have hi : ∀ t : Fin cfg1.N, win1_1.index t 0 = 0 ∧ win1_1.index t 1 = 0 :=
    (by decide +kernel : ∀ t : Fin grid1.N, win1_1.index t 0 = 0 ∧ win1_1.index t 1 = 0)
  unfold iblk1
  rw [View.read_apply]
  show V c main_v43 _ = V c main_v43 _
  refine congrArg (V c main_v43) ?_
  funext a
  apply Fin.ext
  match a with
  | ⟨0, _⟩ => show win1_1.index t 0 * 1 + 1 * 0 = 0; rw [(hi t).1]
  | ⟨1, _⟩ => show win1_1.index t 1 * 128 + 1 * k.val = k.val; rw [(hi t).2]; omega

end Reads

section Accumulate
variable (V : (c : Dev nD) → (b : Ref sig .tc) → Buf (Elt Ideal) ((c : Thread nD τ).loc b))

/-- The pre-activation of the arrays the region finds: aggregated rows plus the bias row. -/
abbrev preAct (c : Dev nD) : Cert.Spec.Arr2 50000 128 := Cert.Spec.pre (V c main_v42) (V c main_v43)

/-- Column k of the pre-activation as a function of the row number (zero past the last row), so that sums over
    stretches of rows are sums over ranges of naturals. -/
def col (c : Dev nD) (k : Fin 128) (r : ℕ) : EReal := if h : r < 50000 then preAct V c (ix2 ⟨r, h⟩ k) else 0

/-- Entry (q, k) of the block at point t plus the bias at lane k is the pre-activation at row 5000·t + q. -/
theorem blk_entry (c : Dev nD) (t : Fin cfg1.N) (k : Fin 128) (x0 : Vec Ideal S5000x128 .f32) (x1 : Vec Ideal S1x128 .f32)
    (h0 : x0 = iblk1 V c 0 t) (h1 : x1 = iblk1 V c 1 t) (q : Fin 5000) :
    x0 (ix2 q k) + x1 (ix2 0 k) = col V c k (5000 * t.val + q.val) := by
  have hN : t.val < 10 := lt_of_lt_of_eq t.isLt (show cfg1.N = 10 from N_1)
  have hr : 5000 * t.val + q.val < 50000 := by have := q.isLt; omega
  subst h0 h1
  rw [agg_blk V c t q k hr, bias_blk V c t k]
  unfold col
  rw [dif_pos hr]
  rfl

/-- A range of 5000·(n+1) rows is the first 5000·n rows followed by one block of 5000. -/
theorem range_step (g : ℕ → EReal) (n : ℕ) :
    ∑ r ∈ Finset.range (5000 * (n + 1)), g r = ∑ r ∈ Finset.range (5000 * n), g r + ∑ x ∈ Finset.range 5000, g (5000 * n + x) := by
  rw [Nat.mul_succ, Finset.sum_range_add]

/-- The column sums of one block. -/
theorem blk_sum (c : Dev nD) (t : Fin cfg1.N) (k : Fin 128) (x0 : Vec Ideal S5000x128 .f32) (x1 : Vec Ideal S1x128 .f32)
    (h0 : x0 = iblk1 V c 0 t) (h1 : x1 = iblk1 V c 1 t) :
    ∑ q : Fin 5000, (x0 (ix2 q k) + x1 (ix2 0 k)) = ∑ x ∈ Finset.range 5000, col V c k (5000 * t.val + x) :=
  (Finset.sum_congr rfl fun q _ => blk_entry V c t k x0 x1 h0 h1 q).trans
    (Finset.sum_range fun x => col V c k (5000 * t.val + x)).symm

/-- The column sums of squares of one block. -/
theorem blk_sumsq (c : Dev nD) (t : Fin cfg1.N) (k : Fin 128) (x0 : Vec Ideal S5000x128 .f32) (x1 : Vec Ideal S1x128 .f32)
    (h0 : x0 = iblk1 V c 0 t) (h1 : x1 = iblk1 V c 1 t) :
    ∑ q : Fin 5000, (x0 (ix2 q k) + x1 (ix2 0 k)) * (x0 (ix2 q k) + x1 (ix2 0 k))
      = ∑ x ∈ Finset.range 5000, col V c k (5000 * t.val + x) * col V c k (5000 * t.val + x) :=
  (Finset.sum_congr rfl fun q _ => by rw [blk_entry V c t k x0 x1 h0 h1 q]).trans
    (Finset.sum_range fun x => col V c k (5000 * t.val + x) * col V c k (5000 * t.val + x)).symm

/-- THE INVARIANT. After point n the two staging rows hold, at lane k, the sum (resp. the sum of squares) of column k
    of the pre-activation over rows 0 … 5000·(n+1) − 1: the reset row is zero, every point adds its block's column
    sums, and addition of extended reals needs no side condition to be regrouped this way. By induction on the point. -/
theorem outsAt_eq (c : Dev nD) : ∀ (n : ℕ) (h : n < cfg1.N) (u : Fin 1) (k : Fin 128),
    (outsAt1 V c n h).1 (ix2 u k) = ∑ r ∈ Finset.range (5000 * (n + 1)), col V c k r
    ∧ (outsAt1 V c n h).2 (ix2 u k) = ∑ r ∈ Finset.range (5000 * (n + 1)), col V c k r * col V c k r
  | 0, h, u, k => by
    rw [outsAt1_A V c ⟨0, h⟩ rfl]
    dsimp only
    rw [out_A_2, out_A_3, pay4_apply, pay5_apply, pay1_apply, pay2_apply, zero_add, zero_add,
      blk_sum V c ⟨0, h⟩ k _ _ rfl rfl, blk_sumsq V c ⟨0, h⟩ k _ _ rfl rfl, range_step, range_step, Nat.mul_zero,
      Finset.range_zero, Finset.sum_empty, Finset.sum_empty, zero_add, zero_add]
    exact ⟨rfl, rfl⟩
  | n + 1, h, u, k => by
    have hN : cfg1.N = 10 := N_1
    have hB : ¬(⟨n + 1, h⟩ : Fin cfg1.N).val % 10 = 0 := by dsimp only; omega
    obtain ⟨ih1, ih2⟩ := outsAt_eq c n (Nat.lt_of_succ_lt h) u k
    rw [outsAt1_B V c ⟨n + 1, h⟩ hB]
    dsimp only
    rw [out_B_2, out_B_3, pay4_apply, pay5_apply, blk_sum V c ⟨n + 1, h⟩ k _ _ rfl rfl,
      blk_sumsq V c ⟨n + 1, h⟩ k _ _ rfl rfl, range_step _ (n + 1), range_step _ (n + 1)]
    exact ⟨congrArg (· + _) ih1, congrArg (· + _) ih2⟩

/-- All 50000 rows: the range sum is the sum over the array's rows. -/
theorem total (g : EReal → EReal) (c : Dev nD) (k : Fin 128) :
    ∑ r ∈ Finset.range (5000 * (9 + 1)), g (col V c k r) = ∑ r : Fin 50000, g (preAct V c (ix2 r k)) := by
  rw [show 5000 * (9 + 1) = 50000 from rfl, Finset.sum_range]
  refine Finset.sum_congr rfl fun r _ => ?_
  unfold col
  rw [dif_pos r.isLt]

end Accumulate

section Final
variable (V : (c : Dev nD) → (b : Ref sig .tc) → Buf (Elt Ideal) ((c : Thread nD τ).loc b))

/-- The two result rows: the column sums and the column sums of squares of the pre-activation. -/
abbrev sumRow (c : Dev nD) : Buf (Elt Ideal) ((c : Thread nD τ).loc main_v44_0) := Cert.Spec.colSum (preAct V c)
abbrev sumsqRow (c : Dev nD) : Buf (Elt Ideal) ((c : Thread nD τ).loc main_v44_1) := Cert.Spec.colSumSq (preAct V c)

/-- After the last point the first staging row is the column sums over all 50000 rows. -/
theorem last_sum (c : Dev nD) : (outsAt1 V c t1_9.val t1_9.isLt).1 = sumRow V c := by
  funext j
  obtain ⟨u, k, rfl⟩ : ∃ (u : Fin 1) (k : Fin 128), j = ix2 u k := ⟨j 0, j 1, eq_ix2 j⟩
  exact ((outsAt_eq V c 9 t1_9.isLt u k).1).trans (total V (fun x => x) c k)

/-- After the last point the second staging row is the column sums of squares over all 50000 rows. -/
theorem last_sumsq (c : Dev nD) : (outsAt1 V c t1_9.val t1_9.isLt).2 = sumsqRow V c := by
  funext j
  obtain ⟨u, k, rfl⟩ : ∃ (u : Fin 1) (k : Fin 128), j = ix2 u k := ⟨j 0, j 1, eq_ix2 j⟩
  exact ((outsAt_eq V c 9 t1_9.isLt u k).2).trans (total V (fun x => x * x) c k)

/-- The one write-back of the first row, after point 9, writes the column sums: its block is the whole [1, 128] array. -/
theorem sum_flushed (c : Dev nD) (t : Fin cfg1.N) (hf : (cfg1.win 2).flush t = true) :
    (dat1 V c).flushed 2 t = ((cfg1.win 2).blk t).view.read (Elt Ideal) (sumRow V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2, last_sum]
  have hz' : (fun a => win1_2.index t1_9 a * main_v44_0.ty.shape.size a) = fun _ => 0 := funext fun a => by fin_cases a <;> decide
  exact (Memref.read_access_unit_zero (Elt Ideal) main_v44_0 hz' (fun a => by rw [congrFun hz' a]; simp) (sumRow V c)).symm

/-- The one write-back of the second row likewise. -/
theorem sumsq_flushed (c : Dev nD) (t : Fin cfg1.N) (hf : (cfg1.win 3).flush t = true) :
    (dat1 V c).flushed 3 t = ((cfg1.win 3).blk t).view.read (Elt Ideal) (sumsqRow V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3, last_sumsq]
  have hz' : (fun a => win1_3.index t1_9 a * main_v44_1.ty.shape.size a) = fun _ => 0 := funext fun a => by fin_cases a <;> decide
  exact (Memref.read_access_unit_zero (Elt Ideal) main_v44_1 hz' (fun a => by rw [congrFun hz' a]; simp) (sumsqRow V c)).symm

/-- So the first result array ends holding the column sums: point 9's block covers it. -/
theorem sum_final (c : Dev nD) : (dat1 V c).arrAt 2 cfg1.N = sumRow V c :=
  (dat1 V c).arrAt_eq_of_cover 2 (sumRow V c) (sum_flushed V c) fun i =>
    ⟨t1_9, (flush1_2 t1_9).mpr rfl, by
      show i ∈ ((View.whole main_v44_0).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

/-- And the second result array the column sums of squares. -/
theorem sumsq_final (c : Dev nD) : (dat1 V c).arrAt 3 cfg1.N = sumsqRow V c :=
  (dat1 V c).arrAt_eq_of_cover 3 (sumsqRow V c) (sumsq_flushed V c) fun i =>
    ⟨t1_9, (flush1_3 t1_9).mpr rfl, by
      show i ∈ ((View.whole main_v44_1).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

end Final

end Cert.KernelIdeal.RegionValue.R1

namespace Cert.KernelIdeal.RegionValue

open Cert.KernelIdeal Cert.KernelIdeal.Gen

variable (V : (c : Dev nD) → (b : Ref sig .tc) → Buf (Elt Ideal) ((c : Thread nD τ).loc b)) (c : Dev nD)

/-- Region 1's first result, as one function of the arrays the region finds: the column sums of (aggregate + bias). -/
theorem region1_sum : ((dat1 V c).arrAt 2 cfg1.N : S1x128.Idx → EReal)
    = Cert.Spec.colSum (Cert.Spec.pre (V c main_v42) (V c main_v43)) := R1.sum_final V c

/-- Region 1's second result: the column sums of squares of (aggregate + bias). -/
theorem region1_sumsq : ((dat1 V c).arrAt 3 cfg1.N : S1x128.Idx → EReal)
    = Cert.Spec.colSumSq (Cert.Spec.pre (V c main_v42) (V c main_v43)) := R1.sumsq_final V c

end Cert.KernelIdeal.RegionValue

end
-- ==== Proof.Region2.lean ====
/-
  The first layer's normalise-and-clip step, as one function of whole arrays.

  The step runs over ten row blocks of 5000 nodes. At each block it reads the block of aggregated features and five
  whole rows (bias, mean, variance, scale, shift; 128 columns), and writes
  max(scale · ((aggregate + bias) − mean) · (variance + ε)^(−1/2) + shift, 0). Here that is read entry by entry: the value
  written at row p, column q of a block uses the aggregate's entry there and every row at column q; block t of the
  result sits at rows 5000·t … 5000·t + 4999 of the array, where the aggregate's block t sits too, and each row is
  read whole; the ten blocks cover every row. So the result array is the normalise-and-clip map of the six arrays.
-/
import proofs.«159056_j27436251087104_1_alg».proof.Proof.Gen.KernelIdeal.Frame
import proofs.«159056_j27436251087104_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets2 : (![0, 0] : Fin 2 → Nat) = fun _ => 0 := funext fun a => by fin_cases a <;> rfl

/-- The inverse square root of a vector, read at an entry. -/
theorem rsqrtAt2 {s : Shape} {φ : FTy} (a : FVec Ideal s φ) (i : s.Idx) : rsqrt a i = Ideal.rsqrt (a i) := rfl

/-- The body's value at one entry of a block: scale times (aggregate plus bias minus mean) times the inverse square
    root of (variance plus ε), plus shift, clipped at zero — every row operand read at the entry's column. -/
theorem pay2_apply (x0 : Vec Ideal S5000x128 .f32) (xb xv xg xm xe : Vec Ideal S1x128 .f32) (p : Fin 5000) (q : Fin 128) :
    k2_pay1 x0 xb xv xg xm xe (ix2 p q)
      = max (xg (ix2 (0 : Fin 1) q) * (x0 (ix2 p q) + xb (ix2 (0 : Fin 1) q) - xm (ix2 (0 : Fin 1) q))
          * Ideal.rsqrt (xv (ix2 (0 : Fin 1) q) + Cert.Spec.eps) + xe (ix2 (0 : Fin 1) q)) 0 := by
  unfold k2_pay1
  simp only [shapeCast_self, maximumf_apply, addf_apply, mulf_apply, subf_apply, broadcast_apply, broadcastTo_1b_ab_apply]
  simp only [rsqrtAt2, addf_apply, broadcast_apply, Ideal.ofBits_def, Ideal.ofBits_zero_f32]
  rfl

/-- One entry of a block is the normalise-and-clip map at the array entry it sits at, when the block of aggregates
    holds the array's entry there and each row block is its whole row. -/
theorem point2 (x0 : Vec Ideal S5000x128 .f32) (xb xv xg xm xe : Vec Ideal S1x128 .f32)
    (a : Cert.Spec.Arr2 50000 128) (b mu var g be : Cert.Spec.Arr2 1 128) (j : S5000x128.Idx) (i : S50000x128.Idx)
    (hcol : (i 1).val = (j 1).val) (h0 : x0 j = a i)
    (hb : ∀ y : S1x128.Idx, xb y = b y) (hm : ∀ y : S1x128.Idx, xm y = mu y) (hv : ∀ y : S1x128.Idx, xv y = var y)
    (hg : ∀ y : S1x128.Idx, xg y = g y) (he : ∀ y : S1x128.Idx, xe y = be y) :
    k2_pay1 x0 xb xv xg xm xe j = Cert.Spec.normRelu a b mu var g be i := by
  obtain ⟨p, q, rfl⟩ : ∃ (p : Fin 5000) (q : Fin 128), j = ix2 p q := ⟨j 0, j 1, eq_ix2 j⟩
  rw [pay2_apply, h0, hb, hm, hv, hg, he]
  have e : (i 1 : Fin 128) = q := Fin.ext hcol
  show _ = max (g (ix2 0 (i 1)) * (a i + b (ix2 0 (i 1)) - mu (ix2 0 (i 1)))
      * Ideal.rsqrt (var (ix2 0 (i 1)) + Cert.Spec.eps) + be (ix2 0 (i 1))) 0
  rw [e]

/-- The printed index maps over the grid: the aggregate's block and the result's block are both block (t, 0), and
    every row operand's block is (0, 0). -/
theorem idxFacts2 : ∀ t : Fin cfg2.N, win2_0.index t (0 : Fin 2) = win2_6.index t (0 : Fin 2)
    ∧ win2_0.index t (1 : Fin 2) = 0 ∧ win2_6.index t (1 : Fin 2) = 0
    ∧ win2_6.index t (0 : Fin 2) = t.val
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0) :=
  (by decide +kernel : ∀ t : Fin grid2.N, _)

/-- The bias row's block at any point is the whole bias row. -/
theorem rowBlock2_1 (c : Dev nD) (t : Fin cfg2.N) (y : S1x128.Idx) : iblk2 V c 1 t y = V c main_v43 y := by
  obtain ⟨-, -, -, -, e1, e2, e3, e4, e5⟩ := idxFacts2 t
  unfold iblk2
  rw [View.read_apply]
  show V c main_v43 (((cfg2.win 1).blk t).view.emb y) = V c main_v43 y
  refine congrArg (V c main_v43) ?_
  funext a
  apply Fin.ext
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- The mean row's block at any point is the whole mean row. -/
theorem rowBlock2_2 (c : Dev nD) (t : Fin cfg2.N) (y : S1x128.Idx) : iblk2 V c 2 t y = V c main_v46 y := by
  obtain ⟨-, -, -, -, e1, e2, e3, e4, e5⟩ := idxFacts2 t
  unfold iblk2
  rw [View.read_apply]
  show V c main_v46 (((cfg2.win 2).blk t).view.emb y) = V c main_v46 y
  refine congrArg (V c main_v46) ?_
  funext a
  apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The variance row's block at any point is the whole variance row. -/
theorem rowBlock2_3 (c : Dev nD) (t : Fin cfg2.N) (y : S1x128.Idx) : iblk2 V c 3 t y = V c main_v50 y := by
  obtain ⟨-, -, -, -, e1, e2, e3, e4, e5⟩ := idxFacts2 t
  unfold iblk2
  rw [View.read_apply]
  show V c main_v50 (((cfg2.win 3).blk t).view.emb y) = V c main_v50 y
  refine congrArg (V c main_v50) ?_
  funext a
  apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The scale row's block at any point is the whole scale row. -/
theorem rowBlock2_4 (c : Dev nD) (t : Fin cfg2.N) (y : S1x128.Idx) : iblk2 V c 4 t y = V c main_v51 y := by
  obtain ⟨-, -, -, -, e1, e2, e3, e4, e5⟩ := idxFacts2 t
  unfold iblk2
  rw [View.read_apply]
  show V c main_v51 (((cfg2.win 4).blk t).view.emb y) = V c main_v51 y
  refine congrArg (V c main_v51) ?_
  funext a
  apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The shift row's block at any point is the whole shift row. -/
theorem rowBlock2_5 (c : Dev nD) (t : Fin cfg2.N) (y : S1x128.Idx) : iblk2 V c 5 t y = V c main_v52 y := by
  obtain ⟨-, -, -, -, e1, e2, e3, e4, e5⟩ := idxFacts2 t
  unfold iblk2
  rw [View.read_apply]
  show V c main_v52 (((cfg2.win 5).blk t).view.emb y) = V c main_v52 y
  refine congrArg (V c main_v52) ?_
  funext a
  apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- What point t writes back is block t of the normalise-and-clip map of the region's input arrays. -/
theorem flushed2_eq (c : Dev nD) (t : Fin cfg2.N) :
    (dat2 V c).flushed 6 t = ((cfg2.win 6).blk t).view.read (Elt Ideal)
      (Cert.Spec.normRelu (V c main_v42) (V c main_v43) (V c main_v46) (V c main_v50) (V c main_v51) (V c main_v52)) := by
  show (cfg2.win 6).cut (grid2.coords t) ((dat2 V c).after 6 t) = _
  rw [after2_6]
  unfold out2_6
  rw [View.canon_unit_zero zeroOffsets2]
  simp only [View.ld_unit_zero (S := S5000x128) zeroOffsets2, View.ld_unit_zero (S := S1x128) zeroOffsets2]
  obtain ⟨e0, e1, e2, e3, -⟩ := idxFacts2 t
  funext j
  show k2_pay1 (iblk2 V c 0 t) (iblk2 V c 1 t) (iblk2 V c 3 t) (iblk2 V c 4 t) (iblk2 V c 2 t) (iblk2 V c 5 t)
      ((win2 6).xinj (grid2.coords t) j)
    = Cert.Spec.normRelu (V c main_v42) (V c main_v43) (V c main_v46) (V c main_v50) (V c main_v51) (V c main_v52) (((cfg2.win 6).blk t).view.emb j)
  refine point2 _ _ _ _ _ _ _ _ _ _ _ _ _ _ ?_ ?_ (rowBlock2_1 V c t) (rowBlock2_2 V c t) (rowBlock2_3 V c t)
    (rowBlock2_4 V c t) (rowBlock2_5 V c t)
  · show win2_6.index t (1 : Fin 2) * 128 + 1 * (j 1).val = (j 1).val
    omega
  · unfold iblk2
    rw [View.read_apply]
    show V c main_v42 (((cfg2.win 0).blk t).view.emb ((win2 6).xinj (grid2.coords t) j)) = V c main_v42 (((cfg2.win 6).blk t).view.emb j)
    refine congrArg (V c main_v42) ?_
    funext a
    apply Fin.ext
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 128 + 1 * (j 1).val = win2_6.index t (1 : Fin 2) * 128 + 1 * (j 1).val; omega

/-- An entry of the array is in point t's block of the result iff each coordinate is in the block's range on its axis. -/
theorem mem_blk2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v53).slice (win2_6.rect t)).set ↔ _
  rw [View.set_slice_whole, Rect.mem_set_unit]
  exact Iff.rfl

/-- Every entry of the result is in some point's block: row r is in the block of point r / 5000. -/
theorem cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  refine ⟨t, flush2_6 t, ?_⟩
  rw [mem_blk2]
  obtain ⟨e0, e1, e2, e3, -⟩ := idxFacts2 t
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The layer's result array after the region: the normalise-and-clip map of the aggregate, bias, mean, variance,
    scale and shift arrays, entry by entry. -/
theorem region2 (c : Dev nD) :
    ((dat2 V c).arrAt 6 cfg2.N : S50000x128.Idx → EReal)
      = Cert.Spec.normRelu (V c main_v42) (V c main_v43) (V c main_v46) (V c main_v50) (V c main_v51) (V c main_v52) :=
  (dat2 V c).arrAt_eq_of_cover 6 (Cert.Spec.normRelu (V c main_v42) (V c main_v43) (V c main_v46) (V c main_v50) (V c main_v51) (V c main_v52))
    (fun t _ => flushed2_eq V c t) cover2

end Cert.KernelIdeal.RegionValue

end
-- ==== Proof.Region3.lean ====
/-
  The second matrix product of the kernel, as one function of whole arrays.

  The first layer's output x (50000 rows of 128 features) is multiplied by a 128 × 64 weight matrix w. The kernel
  does this in ten steps: step t takes rows 5000·t … 5000·t + 4999 of x together with the whole of w, forms the
  product of that block of rows with w, and writes it to the same rows of the result. Entry (p, q) of a block
  product is ∑ l, x[5000·t + p, l] · w[l, q], which is entry (5000·t + p, q) of the product of the whole arrays:
  a row of the product depends on the same row of x only. The ten blocks of rows fill all 50000 rows, so after
  the ten steps the result array is the matrix product of the two arrays the region found on entry.
  The rounding of the operands to a shorter format before the product is the identity on extended reals, and
  so is the recasting of the block of rows to the shape it already has.
-/
import proofs.«159056_j27436251087104_1_alg».proof.Proof.Gen.KernelIdeal.Frame
import proofs.«159056_j27436251087104_1_alg».proof.Proof.Spec
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The two zero offsets of a whole-block access, as a constant function. -/
theorem mm3_zero_offsets : (![0, 0] : Fin 2 → Nat) = fun _ => 0 := funext fun a => by fin_cases a <;> rfl

/-! ## The block product at an index -/

/-- The left operand is read on the row of the output entry, … -/
theorem mm3_lhs_row (i : S5000x64.Idx) (z : dot_S5000x128_S128x64_S5000x64_1_0_0_1_n_n.contr.Idx) :
    (dot_S5000x128_S128x64_S5000x64_1_0_0_1_n_n.lhsIdx i z 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
/-- … at the column the summation position names; -/
theorem mm3_lhs_col (i : S5000x64.Idx) (z : dot_S5000x128_S128x64_S5000x64_1_0_0_1_n_n.contr.Idx) :
    (dot_S5000x128_S128x64_S5000x64_1_0_0_1_n_n.lhsIdx i z 1).val = (z ⟨0, by decide⟩).val :=
  dot_S5000x128_S128x64_S5000x64_1_0_0_1_n_n.lhsIdx_val_of_single rfl i z
/-- the right operand on the row the summation position names, … -/
theorem mm3_rhs_row (i : S5000x64.Idx) (z : dot_S5000x128_S128x64_S5000x64_1_0_0_1_n_n.contr.Idx) :
    (dot_S5000x128_S128x64_S5000x64_1_0_0_1_n_n.rhsIdx i z 0).val = (z ⟨0, by decide⟩).val :=
  dot_S5000x128_S128x64_S5000x64_1_0_0_1_n_n.rhsIdx_val_of_single rfl i z
/-- … at the column of the output entry. -/
theorem mm3_rhs_col (i : S5000x64.Idx) (z : dot_S5000x128_S128x64_S5000x64_1_0_0_1_n_n.contr.Idx) :
    (dot_S5000x128_S128x64_S5000x64_1_0_0_1_n_n.rhsIdx i z 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- Entry (p, q) of the body's result: the sum over l of x[p, l] · w[l, q], with no accumulator term (it starts
    from the zero array) and no rounding (narrowing a format is the identity on extended reals). -/
theorem mm3_payload (x : Vec Ideal S5000x128 .f32) (w : Vec Ideal S128x64 .f32) (p : Fin 5000) (q : Fin 64) :
    k3_pay1 (F := Ideal) x w (ix2 p q) = ∑ l : Fin 128, x (ix2 p l) * w (ix2 l q) := by
  unfold k3_pay1
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun l _ => ?_
  have hl := contrEquiv1_symm_val dot_S5000x128_S128x64_S5000x64_1_0_0_1_n_n 128 rfl rfl l
  have el : dot_S5000x128_S128x64_S5000x64_1_0_0_1_n_n.lhsIdx (ix2 p q) ((contrEquiv1 dot_S5000x128_S128x64_S5000x64_1_0_0_1_n_n 128 rfl rfl).symm l) = ix2 p l :=
    funext fun a => Fin.ext (by
      match a with
      | ⟨0, _⟩ => exact mm3_lhs_row _ _
      | ⟨1, _⟩ => exact (mm3_lhs_col _ _).trans hl)
  have er : dot_S5000x128_S128x64_S5000x64_1_0_0_1_n_n.rhsIdx (ix2 p q) ((contrEquiv1 dot_S5000x128_S128x64_S5000x64_1_0_0_1_n_n 128 rfl rfl).symm l) = ix2 l q :=
    funext fun a => Fin.ext (by
      match a with
      | ⟨0, _⟩ => exact (mm3_rhs_row _ _).trans hl
      | ⟨1, _⟩ => exact mm3_rhs_col _ _)
  rw [truncf_apply, truncf_apply, el, er, shapeCast_self]

/-! ## From the blocks of rows to the whole arrays -/

variable (V : (c : Dev nD) → (b : Ref sig .tc) → Buf (Elt Ideal) ((c : Thread nD τ).loc b))

/-- Where each step's blocks sit, decided over the ten steps: step t takes block t of the rows of the left
    operand and of the result (all columns), and the one block that is the whole weight matrix. -/
theorem mm3_block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, l) of step t's block of the left operand is entry (5000·t + p, l) of the array. -/
theorem mm3_lhs_block (c : Dev nD) (t : Fin cfg3.N) (p : Fin 5000) (l : Fin 128) (r : Fin 50000)
    (hr : r.val = 5000 * t.val + p.val) :
    (iblk3 V c 0 t : S5000x128.Idx → EReal) (ix2 p l) = (V c main_v53 : S50000x128.Idx → EReal) (ix2 r l) := by
  obtain ⟨e00, e01, -⟩ := mm3_block_indices t
  have h : ((cfg3.win 0).blk t).view.emb (ix2 p l) = (ix2 r l : S50000x128.Idx) := by
    funext a; apply Fin.ext
    match a with
    | ⟨0, _⟩ => show win3_0.index t (0 : Fin 2) * 5000 + 1 * p.val = r.val; omega
    | ⟨1, _⟩ => show win3_0.index t (1 : Fin 2) * 128 + 1 * l.val = l.val; omega
  show V c main_v53 (((cfg3.win 0).blk t).view.emb (ix2 p l)) = V c main_v53 (ix2 r l)
  rw [h]

/-- Every step's block of the weight matrix is the whole matrix. -/
theorem mm3_rhs_block (c : Dev nD) (t : Fin cfg3.N) (l : Fin 128) (q : Fin 64) :
    (iblk3 V c 1 t : S128x64.Idx → EReal) (ix2 l q) = (V c main_arg8 : S128x64.Idx → EReal) (ix2 l q) := by
  obtain ⟨-, -, e10, e11, -⟩ := mm3_block_indices t
  have h : ((cfg3.win 1).blk t).view.emb (ix2 l q) = (ix2 l q : S128x64.Idx) := by
    funext a; apply Fin.ext
    match a with
    | ⟨0, _⟩ => show win3_1.index t (0 : Fin 2) * 128 + 1 * l.val = l.val; omega
    | ⟨1, _⟩ => show win3_1.index t (1 : Fin 2) * 64 + 1 * q.val = q.val; omega
  show V c main_arg8 (((cfg3.win 1).blk t).view.emb (ix2 l q)) = V c main_arg8 (ix2 l q)
  rw [h]

/-- Entry (p, q) of step t's block of the result is entry (5000·t + p, q) of the result array. -/
theorem mm3_out_index (t : Fin cfg3.N) (p : Fin 5000) (q : Fin 64) (r : Fin 50000)
    (hr : r.val = 5000 * t.val + p.val) :
    ((cfg3.win 2).blk t).view.emb (ix2 p q) = (ix2 r q : S50000x64.Idx) := by
  obtain ⟨-, -, -, -, e20, e21⟩ := mm3_block_indices t
  funext a; apply Fin.ext
  match a with
  | ⟨0, _⟩ => show win3_2.index t (0 : Fin 2) * 5000 + 1 * p.val = r.val; omega
  | ⟨1, _⟩ => show win3_2.index t (1 : Fin 2) * 64 + 1 * q.val = q.val; omega

/-- What the body computes from step t's blocks is, entry by entry, the product of the whole arrays read at the
    place that entry has in the result array: a row of the product depends on that row of the left operand only. -/
theorem mm3_block (c : Dev nD) (t : Fin cfg3.N) (j : S5000x64.Idx) :
    k3_pay1 (F := Ideal) (iblk3 V c 0 t) (iblk3 V c 1 t) j
      = Cert.Spec.mm (V c main_v53) (V c main_arg8) (((cfg3.win 2).blk t).view.emb j) := by
  obtain ⟨p, q, rfl⟩ : ∃ (p : Fin 5000) (q : Fin 64), j = ix2 p q := ⟨j 0, j 1, eq_ix2 j⟩
  have ht : t.val < 10 := lt_of_lt_of_eq t.isLt N_3
  obtain ⟨r, hr⟩ : ∃ r : Fin 50000, r.val = 5000 * t.val + p.val := ⟨⟨5000 * t.val + p.val, by omega⟩, rfl⟩
  refine (mm3_payload (iblk3 V c 0 t) (iblk3 V c 1 t) p q).trans ?_
  rw [mm3_out_index t p q r hr]
  refine Finset.sum_congr rfl fun l _ => ?_
  rw [mm3_lhs_block V c t p l r hr, mm3_rhs_block V c t l q]

/-- What step t writes back is block t of the product of the whole arrays. -/
theorem mm3_flushed (c : Dev nD) (t : Fin cfg3.N) :
    (dat3 V c).flushed 2 t
      = ((cfg3.win 2).blk t).view.read (Elt Ideal) (Cert.Spec.mm (V c main_v53) (V c main_arg8)) := by
  show (cfg3.win 2).cut (grid3.coords t) ((dat3 V c).after 2 t) = _
  rw [after3_2]
  unfold out3_2
  rw [View.canon_unit_zero mm3_zero_offsets]
  simp only [View.ld_unit_zero (S := S5000x128) mm3_zero_offsets, View.ld_unit_zero (S := S128x64) mm3_zero_offsets]
  exact funext fun j => mm3_block V c t j

/-- An index of the result array is in step t's block exactly when each coordinate is in the block's range. -/
theorem mm3_mem_block (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v54).slice (win3_2.rect t)).set ↔ _
  rw [View.set_slice_whole, Rect.mem_set_unit]
  exact Iff.rfl

/-- The ten blocks of rows fill the result array: row r is in the block of step r / 5000. -/
theorem mm3_cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, e20, e21⟩ := mm3_block_indices t
  refine ⟨t, flush3_2 t, ?_⟩
  rw [mm3_mem_block]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

/-- THE REGION'S RESULT: after the ten steps the result array is the matrix product of the two arrays the region
    found on entry. -/
theorem region3 (c : Dev nD) :
    ((dat3 V c).arrAt 2 cfg3.N : S50000x64.Idx → EReal) = Cert.Spec.mm (V c main_v53) (V c main_arg8) :=
  (dat3 V c).arrAt_eq_of_cover 2 (Cert.Spec.mm (V c main_v53) (V c main_arg8))
    (fun t _ => mm3_flushed V c t) (mm3_cover)

end Cert.KernelIdeal.RegionValue

end
-- ==== Proof.Region4.lean ====
/-
  The statistics pass of the second layer, read as a value: the column sums and the column sums of squares of the
  pre-activation (the aggregated rows plus the bias row).

  The pass visits the 50000 rows of the aggregate in ten blocks of 5000 rows. At the first block it clears two rows
  of 64 lanes; at every block it adds, lane by lane, to the first row the sum over the block's rows of
  (aggregate + bias) and to the second row the sum of the squares of those entries. The two rows stay in place from
  one block to the next and are written out once, after the tenth block. Hence after block n they hold the sums over
  rows 0 … 5000·(n+1) − 1: an induction on n whose step says that a range of 5000·(n+2) naturals is a range of
  5000·(n+1) followed by 5000 more. After the tenth block these are the sums over all rows. Addition of extended reals
  is commutative and associative with 0 neutral, so nothing here asks any entry to be finite.

  The order of the file: what each of the two control cases of the body leaves in each row, as the body's arithmetic
  applied to the blocks; that arithmetic read at a lane; where a block's entry sits in its array; the induction;
  the single write-back and the result arrays.
-/
import proofs.«159056_j27436251087104_1_alg».proof.Proof.Gen.KernelIdeal.Frame
import proofs.«159056_j27436251087104_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RegionValue.R4

open Cert.KernelIdeal Cert.KernelIdeal.Gen

section Pieces
variable {F : FTy → Type} [FloatOps F]

theorem hz : (![0, 0] : Fin 2 → Nat) = fun _ => 0 := funext fun a => by fin_cases a <;> rfl

/-- A later point (the reset not taken): the body leaves in the first staging row its running contents `xo2` plus
    the column sums of (block + bias row) — the one covering store's payload, whose loads read the whole buffers. -/
theorem out_B_2 (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond4_0 i)
    (x0 : Vec F S5000x64 .f32) (x1 xo2 xo3 : Vec F S1x64 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  rw [View.canon_unit_zero hz]
  simp only [View.readAt_eq_ld, h1.read_unread, h2.read_unread, h3.read_unread, View.ld_unit_zero (S := S5000x64) hz,
    View.ld_unit_zero (S := S1x64) hz]

/-- The same point, second staging row: its running contents `xo3` plus the column sums of squares. -/
theorem out_B_3 (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : ¬cond4_0 i)
    (x0 : Vec F S5000x64 .f32) (x1 xo2 xo3 : Vec F S1x64 .f32) :
    out4_B_3 c i a1 h1 a2 h2 a3 h3 a4 h4 hc x0 x1 xo2 xo3 = k4_pay5 x0 x1 xo3 := by
  unfold out4_B_3
  rw [View.read_writes_eq_canon _ _ _ (cover4_B_3 c i a1 h1 a2 h2 a3 h3 a4 h4 hc x0 x1 xo2 xo3)]
  unfold kernelRun4_B
  dsimp only
  rw [View.canon_unit_zero hz]
  simp only [View.readAt_eq_ld, h1.read_unread, h2.read_unread, h4.read_unread, View.ld_unit_zero (S := S5000x64) hz,
    View.ld_unit_zero (S := S1x64) hz]

/-- The first point (the reset taken): the body stores the zero row, reads it back, and leaves zero row plus the
    column sums of (block + bias row). -/
theorem out_A_2 (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond4_0 i)
    (x0 : Vec F S5000x64 .f32) (x1 : Vec F S1x64 .f32) :
    out4_A_2 c i a1 h1 a2 h2 a3 h3 a4 h4 hc x0 x1 = k4_pay4 x0 x1 k4_pay1 := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S1x64) hz, View.readCov_unit_zero (S := S1x64) _ hz]
  simp only [View.readAt_eq_ld, h1.read_unread, h2.read_unread, View.ld_unit_zero (S := S5000x64) hz,
    View.ld_unit_zero (S := S1x64) hz]

/-- The first point, second staging row: zero row plus the column sums of squares. -/
theorem out_A_3 (c : Dev nD) (i : grid4.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (a4 : Memref sig .tc .vmem S1x64 .f32) (h4 : a4.IsWhole) (hc : cond4_0 i)
    (x0 : Vec F S5000x64 .f32) (x1 : Vec F S1x64 .f32) :
    out4_A_3 c i a1 h1 a2 h2 a3 h3 a4 h4 hc x0 x1 = k4_pay5 x0 x1 k4_pay2 := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S1x64) hz, View.readCov_unit_zero (S := S1x64) _ hz]
  simp only [View.readAt_eq_ld, h1.read_unread, h2.read_unread, View.ld_unit_zero (S := S5000x64) hz,
    View.ld_unit_zero (S := S1x64) hz]

end Pieces

section Payloads

/-- The zero row the reset stores, at any lane. -/
theorem pay1_apply (u : Fin 1) (k : Fin 64) : (k4_pay1 (F := Ideal)) (ix2 u k) = 0 := by
  unfold k4_pay1
  exact Ideal.ofBits_zero_f32

theorem pay2_apply (u : Fin 1) (k : Fin 64) : (k4_pay2 (F := Ideal)) (ix2 u k) = 0 := by
  unfold k4_pay2
  exact Ideal.ofBits_zero_f32

/-- The pre-activation of one block: entry (q, k) of the block plus the bias row at lane k. -/
theorem pay3_apply (x0 : Vec Ideal S5000x64 .f32) (x1 : Vec Ideal S1x64 .f32) (q : Fin 5000) (k : Fin 64) :
    k4_pay3 x0 x1 (ix2 q k) = x0 (ix2 q k) + x1 (ix2 0 k) := by
  unfold k4_pay3
  show shapeCast S5000x64 x0 shapeCasts_S5000x64_S5000x64 (ix2 q k)
      + broadcastTo S5000x64 (shapeCast S1x64 x1 shapeCasts_S1x64_S1x64) broadcasts_S1x64_S5000x64 (ix2 q k) = _
  rw [shapeCast_self, shapeCast_self]
  exact congrArg (x0 (ix2 q k) + ·) (broadcastTo_1b_ab_apply x1 broadcasts_S1x64_S5000x64 q k)

/-- A sum over axis 0 of a [5000, 64] vector, at lane k: the sum over the 5000 rows. -/
theorem laneSum_apply (src : FVec Ideal S5000x64 .f32) (h : S5000x64.Reduces [0] S64) (hφ : FKind.Formats .f32)
    (hacc : (0x00000000#32 : BitVec 32) = FKind.add.neutral .f32 hφ) (k : Fin 64) :
    multiReduction .add [0] S64 src 0x00000000#32 h hφ hacc (ix1 k) = ∑ q : Fin 5000, src (ix2 q k) := by
  refine (Ideal.multiReduction_add_single src 0x00000000#32 h hφ hacc (ix1 k)).trans ?_
  refine Finset.sum_congr rfl fun q _ => congrArg src ?_
  funext a
  match a with
  | ⟨0, _⟩ => rfl
  | ⟨1, _⟩ => rfl

end Payloads

section Payloads2

/-- The first accumulating payload at lane k: the row it is given plus the column sum, over the block's 5000 rows, of
    (block + bias row). -/
theorem pay4_apply (x0 : Vec Ideal S5000x64 .f32) (x1 acc : Vec Ideal S1x64 .f32) (u : Fin 1) (k : Fin 64) :
    k4_pay4 x0 x1 acc (ix2 u k) = acc (ix2 u k) + ∑ q : Fin 5000, (x0 (ix2 q k) + x1 (ix2 0 k)) := by
  unfold k4_pay4
  show shapeCast S1x64 acc shapeCasts_S1x64_S1x64 (ix2 u k)
      + shapeCast S1x64 (multiReduction .add [0] S64 (k4_pay3 x0 x1) 0x00000000#32 reduces_S5000x64_S64 (.inl rfl) rfl)
          shapeCasts_S64_S1x64 (ix2 u k) = _
  rw [shapeCast_self]
  refine congrArg (acc (ix2 u k) + ·) ?_
  refine (shapeCast_a_1a_apply _ shapeCasts_S64_S1x64 u k).trans ?_
  refine (laneSum_apply (k4_pay3 x0 x1) reduces_S5000x64_S64 (.inl rfl) rfl k).trans ?_
  exact Finset.sum_congr rfl fun q _ => pay3_apply x0 x1 q k

/-- The second accumulating payload at lane k: the row it is given plus the column sum of the squares. -/
theorem pay5_apply (x0 : Vec Ideal S5000x64 .f32) (x1 acc : Vec Ideal S1x64 .f32) (u : Fin 1) (k : Fin 64) :
    k4_pay5 x0 x1 acc (ix2 u k)
      = acc (ix2 u k) + ∑ q : Fin 5000, (x0 (ix2 q k) + x1 (ix2 0 k)) * (x0 (ix2 q k) + x1 (ix2 0 k)) := by
  unfold k4_pay5
  show shapeCast S1x64 acc shapeCasts_S1x64_S1x64 (ix2 u k)
      + shapeCast S1x64 (multiReduction .add [0] S64 (mulf (k4_pay3 x0 x1) (k4_pay3 x0 x1)) 0x00000000#32
            reduces_S5000x64_S64 (.inl rfl) rfl) shapeCasts_S64_S1x64 (ix2 u k) = _
  rw [shapeCast_self]
  refine congrArg (acc (ix2 u k) + ·) ?_
  refine (shapeCast_a_1a_apply _ shapeCasts_S64_S1x64 u k).trans ?_
  refine (laneSum_apply (mulf (k4_pay3 x0 x1) (k4_pay3 x0 x1)) reduces_S5000x64_S64 (.inl rfl) rfl k).trans ?_
  refine Finset.sum_congr rfl fun q _ => ?_
  show k4_pay3 x0 x1 (ix2 q k) * k4_pay3 x0 x1 (ix2 q k) = _
  rw [pay3_apply]

end Payloads2

section Reads
variable (V : (c : Dev nD) → (b : Ref sig .tc) → Buf (Elt Ideal) ((c : Thread nD τ).loc b))

/-- The block of the aggregated rows staged at point t holds rows 5000·t … 5000·t + 4999 of the array. -/
theorem agg_blk (c : Dev nD) (t : Fin cfg4.N) (q : Fin 5000) (k : Fin 64) (hr : 5000 * t.val + q.val < 50000) :
    (iblk4 V c 0 t : Vec Ideal S5000x64 .f32) (ix2 q k)
      = (V c main_v67 : S50000x64.Idx → EReal) (ix2 ⟨5000 * t.val + q.val, hr⟩ k) := by
  have hi : ∀ t : Fin cfg4.N, win4_0.index t 0 = t.val ∧ win4_0.index t 1 = 0 :=
    (by decide +kernel : ∀ t : Fin grid4.N, win4_0.index t 0 = t.val ∧ win4_0.index t 1 = 0)
  unfold iblk4
  rw [View.read_apply]
  show V c main_v67 _ = V c main_v67 _
  refine congrArg (V c main_v67) ?_
  funext a
  apply Fin.ext
  match a with
  | ⟨0, _⟩ => show win4_0.index t 0 * 5000 + 1 * q.val = 5000 * t.val + q.val; rw [(hi t).1]; omega
  | ⟨1, _⟩ => show win4_0.index t 1 * 64 + 1 * k.val = k.val; rw [(hi t).2]; omega

/-- The bias window's block is the whole bias row at every point. -/
theorem bias_blk (c : Dev nD) (t : Fin cfg4.N) (k : Fin 64) :
    (iblk4 V c 1 t : Vec Ideal S1x64 .f32) (ix2 0 k) = (V c main_v68 : S1x64.Idx → EReal) (ix2 0 k) := by
  have hi : ∀ t : Fin cfg4.N, win4_1.index t 0 = 0 ∧ win4_1.index t 1 = 0 :=
    (by decide +kernel : ∀ t : Fin grid4.N, win4_1.index t 0 = 0 ∧ win4_1.index t 1 = 0)
  unfold iblk4
  rw [View.read_apply]
  show V c main_v68 _ = V c main_v68 _
  refine congrArg (V c main_v68) ?_
  funext a
  apply Fin.ext
  match a with
  | ⟨0, _⟩ => show win4_1.index t 0 * 1 + 1 * 0 = 0; rw [(hi t).1]
  | ⟨1, _⟩ => show win4_1.index t 1 * 64 + 1 * k.val = k.val; rw [(hi t).2]; omega

end Reads

section Accumulate
variable (V : (c : Dev nD) → (b : Ref sig .tc) → Buf (Elt Ideal) ((c : Thread nD τ).loc b))

/-- The pre-activation of the arrays the region finds: aggregated rows plus the bias row. -/
abbrev preAct (c : Dev nD) : Cert.Spec.Arr2 50000 64 := Cert.Spec.pre (V c main_v67) (V c main_v68)

/-- Column k of the pre-activation as a function of the row number (zero past the last row), so that sums over
    stretches of rows are sums over ranges of naturals. -/
def col (c : Dev nD) (k : Fin 64) (r : ℕ) : EReal := if h : r < 50000 then preAct V c (ix2 ⟨r, h⟩ k) else 0

/-- Entry (q, k) of the block at point t plus the bias at lane k is the pre-activation at row 5000·t + q. -/
theorem blk_entry (c : Dev nD) (t : Fin cfg4.N) (k : Fin 64) (x0 : Vec Ideal S5000x64 .f32) (x1 : Vec Ideal S1x64 .f32)
    (h0 : x0 = iblk4 V c 0 t) (h1 : x1 = iblk4 V c 1 t) (q : Fin 5000) :
    x0 (ix2 q k) + x1 (ix2 0 k) = col V c k (5000 * t.val + q.val) := by
  have hN : t.val < 10 := lt_of_lt_of_eq t.isLt (show cfg4.N = 10 from N_4)
  have hr : 5000 * t.val + q.val < 50000 := by have := q.isLt; omega
  subst h0 h1
  rw [agg_blk V c t q k hr, bias_blk V c t k]
  unfold col
  rw [dif_pos hr]
  rfl

/-- A range of 5000·(n+1) rows is the first 5000·n rows followed by one block of 5000. -/
theorem range_step (g : ℕ → EReal) (n : ℕ) :
    ∑ r ∈ Finset.range (5000 * (n + 1)), g r = ∑ r ∈ Finset.range (5000 * n), g r + ∑ x ∈ Finset.range 5000, g (5000 * n + x) := by
  rw [Nat.mul_succ, Finset.sum_range_add]

/-- The column sums of one block. -/
theorem blk_sum (c : Dev nD) (t : Fin cfg4.N) (k : Fin 64) (x0 : Vec Ideal S5000x64 .f32) (x1 : Vec Ideal S1x64 .f32)
    (h0 : x0 = iblk4 V c 0 t) (h1 : x1 = iblk4 V c 1 t) :
    ∑ q : Fin 5000, (x0 (ix2 q k) + x1 (ix2 0 k)) = ∑ x ∈ Finset.range 5000, col V c k (5000 * t.val + x) :=
  (Finset.sum_congr rfl fun q _ => blk_entry V c t k x0 x1 h0 h1 q).trans
    (Finset.sum_range fun x => col V c k (5000 * t.val + x)).symm

/-- The column sums of squares of one block. -/
theorem blk_sumsq (c : Dev nD) (t : Fin cfg4.N) (k : Fin 64) (x0 : Vec Ideal S5000x64 .f32) (x1 : Vec Ideal S1x64 .f32)
    (h0 : x0 = iblk4 V c 0 t) (h1 : x1 = iblk4 V c 1 t) :
    ∑ q : Fin 5000, (x0 (ix2 q k) + x1 (ix2 0 k)) * (x0 (ix2 q k) + x1 (ix2 0 k))
      = ∑ x ∈ Finset.range 5000, col V c k (5000 * t.val + x) * col V c k (5000 * t.val + x) :=
  (Finset.sum_congr rfl fun q _ => by rw [blk_entry V c t k x0 x1 h0 h1 q]).trans
    (Finset.sum_range fun x => col V c k (5000 * t.val + x) * col V c k (5000 * t.val + x)).symm

/-- THE INVARIANT. After point n the two staging rows hold, at lane k, the sum (resp. the sum of squares) of column k
    of the pre-activation over rows 0 … 5000·(n+1) − 1: the reset row is zero, every point adds its block's column
    sums, and addition of extended reals needs no side condition to be regrouped this way. By induction on the point. -/
theorem outsAt_eq (c : Dev nD) : ∀ (n : ℕ) (h : n < cfg4.N) (u : Fin 1) (k : Fin 64),
    (outsAt4 V c n h).1 (ix2 u k) = ∑ r ∈ Finset.range (5000 * (n + 1)), col V c k r
    ∧ (outsAt4 V c n h).2 (ix2 u k) = ∑ r ∈ Finset.range (5000 * (n + 1)), col V c k r * col V c k r
  | 0, h, u, k => by
    rw [outsAt4_A V c ⟨0, h⟩ rfl]
    dsimp only
    rw [out_A_2, out_A_3, pay4_apply, pay5_apply, pay1_apply, pay2_apply, zero_add, zero_add,
      blk_sum V c ⟨0, h⟩ k _ _ rfl rfl, blk_sumsq V c ⟨0, h⟩ k _ _ rfl rfl, range_step, range_step, Nat.mul_zero,
      Finset.range_zero, Finset.sum_empty, Finset.sum_empty, zero_add, zero_add]
    exact ⟨rfl, rfl⟩
  | n + 1, h, u, k => by
    have hN : cfg4.N = 10 := N_4
    have hB : ¬(⟨n + 1, h⟩ : Fin cfg4.N).val % 10 = 0 := by dsimp only; omega
    obtain ⟨ih1, ih2⟩ := outsAt_eq c n (Nat.lt_of_succ_lt h) u k
    rw [outsAt4_B V c ⟨n + 1, h⟩ hB]
    dsimp only
    rw [out_B_2, out_B_3, pay4_apply, pay5_apply, blk_sum V c ⟨n + 1, h⟩ k _ _ rfl rfl,
      blk_sumsq V c ⟨n + 1, h⟩ k _ _ rfl rfl, range_step _ (n + 1), range_step _ (n + 1)]
    exact ⟨congrArg (· + _) ih1, congrArg (· + _) ih2⟩

/-- All 50000 rows: the range sum is the sum over the array's rows. -/
theorem total (g : EReal → EReal) (c : Dev nD) (k : Fin 64) :
    ∑ r ∈ Finset.range (5000 * (9 + 1)), g (col V c k r) = ∑ r : Fin 50000, g (preAct V c (ix2 r k)) := by
  rw [show 5000 * (9 + 1) = 50000 from rfl, Finset.sum_range]
  refine Finset.sum_congr rfl fun r _ => ?_
  unfold col
  rw [dif_pos r.isLt]

end Accumulate

section Final
variable (V : (c : Dev nD) → (b : Ref sig .tc) → Buf (Elt Ideal) ((c : Thread nD τ).loc b))

/-- The two result rows: the column sums and the column sums of squares of the pre-activation. -/
abbrev sumRow (c : Dev nD) : Buf (Elt Ideal) ((c : Thread nD τ).loc main_v69_0) := Cert.Spec.colSum (preAct V c)
abbrev sumsqRow (c : Dev nD) : Buf (Elt Ideal) ((c : Thread nD τ).loc main_v69_1) := Cert.Spec.colSumSq (preAct V c)

/-- After the last point the first staging row is the column sums over all 50000 rows. -/
theorem last_sum (c : Dev nD) : (outsAt4 V c t4_9.val t4_9.isLt).1 = sumRow V c := by
  funext j
  obtain ⟨u, k, rfl⟩ : ∃ (u : Fin 1) (k : Fin 64), j = ix2 u k := ⟨j 0, j 1, eq_ix2 j⟩
  exact ((outsAt_eq V c 9 t4_9.isLt u k).1).trans (total V (fun x => x) c k)

/-- After the last point the second staging row is the column sums of squares over all 50000 rows. -/
theorem last_sumsq (c : Dev nD) : (outsAt4 V c t4_9.val t4_9.isLt).2 = sumsqRow V c := by
  funext j
  obtain ⟨u, k, rfl⟩ : ∃ (u : Fin 1) (k : Fin 64), j = ix2 u k := ⟨j 0, j 1, eq_ix2 j⟩
  exact ((outsAt_eq V c 9 t4_9.isLt u k).2).trans (total V (fun x => x * x) c k)

/-- The one write-back of the first row, after point 9, writes the column sums: its block is the whole [1, 64] array. -/
theorem sum_flushed (c : Dev nD) (t : Fin cfg4.N) (hf : (cfg4.win 2).flush t = true) :
    (dat4 V c).flushed 2 t = ((cfg4.win 2).blk t).view.read (Elt Ideal) (sumRow V c) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2, last_sum]
  have hz' : (fun a => win4_2.index t4_9 a * main_v69_0.ty.shape.size a) = fun _ => 0 := funext fun a => by fin_cases a <;> decide
  exact (Memref.read_access_unit_zero (Elt Ideal) main_v69_0 hz' (fun a => by rw [congrFun hz' a]; simp) (sumRow V c)).symm

/-- The one write-back of the second row likewise. -/
theorem sumsq_flushed (c : Dev nD) (t : Fin cfg4.N) (hf : (cfg4.win 3).flush t = true) :
    (dat4 V c).flushed 3 t = ((cfg4.win 3).blk t).view.read (Elt Ideal) (sumsqRow V c) := by
  have hN : cfg4.N = 10 := N_4
  have h9 : t.val = 9 := by have := (flush4_3 t).mp hf; have := t.isLt; omega
  obtain rfl : t = t4_9 := Fin.ext h9
  show (cfg4.win 3).cut (grid4.coords t4_9) ((dat4 V c).after 3 t4_9) = _
  rw [after4_3, last_sumsq]
  have hz' : (fun a => win4_3.index t4_9 a * main_v69_1.ty.shape.size a) = fun _ => 0 := funext fun a => by fin_cases a <;> decide
  exact (Memref.read_access_unit_zero (Elt Ideal) main_v69_1 hz' (fun a => by rw [congrFun hz' a]; simp) (sumsqRow V c)).symm

/-- So the first result array ends holding the column sums: point 9's block covers it. -/
theorem sum_final (c : Dev nD) : (dat4 V c).arrAt 2 cfg4.N = sumRow V c :=
  (dat4 V c).arrAt_eq_of_cover 2 (sumRow V c) (sum_flushed V c) fun i =>
    ⟨t4_9, (flush4_2 t4_9).mpr rfl, by
      show i ∈ ((View.whole main_v69_0).slice (win4_2.rect t4_9)).set
      rw [View.set_slice_whole, Rect.mem_set_unit]
      intro a
      have h0 : (i 0 : Nat) < 1 := (i 0).isLt
      have h1 : (i 1 : Nat) < 64 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 1 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 64 from by decide +kernel]; omega⟩

/-- And the second result array the column sums of squares. -/
theorem sumsq_final (c : Dev nD) : (dat4 V c).arrAt 3 cfg4.N = sumsqRow V c :=
  (dat4 V c).arrAt_eq_of_cover 3 (sumsqRow V c) (sumsq_flushed V c) fun i =>
    ⟨t4_9, (flush4_3 t4_9).mpr rfl, by
      show i ∈ ((View.whole main_v69_1).slice (win4_3.rect t4_9)).set
      rw [View.set_slice_whole, Rect.mem_set_unit]
      intro a
      have h0 : (i 0 : Nat) < 1 := (i 0).isLt
      have h1 : (i 1 : Nat) < 64 := (i 1).isLt
      match a with
      | ⟨0, _⟩ => show win4_3.index t4_9 0 * win4_3.size 0 ≤ (i 0 : Nat) ∧ (i 0 : Nat) < win4_3.index t4_9 0 * win4_3.size 0 + win4_3.xsize (grid4.coords t4_9) 0
                  rw [show win4_3.index t4_9 0 * win4_3.size 0 = 0 from by decide +kernel, show win4_3.xsize (grid4.coords t4_9) 0 = 1 from by decide +kernel]; omega
      | ⟨1, _⟩ => show win4_3.index t4_9 1 * win4_3.size 1 ≤ (i 1 : Nat) ∧ (i 1 : Nat) < win4_3.index t4_9 1 * win4_3.size 1 + win4_3.xsize (grid4.coords t4_9) 1
                  rw [show win4_3.index t4_9 1 * win4_3.size 1 = 0 from by decide +kernel, show win4_3.xsize (grid4.coords t4_9) 1 = 64 from by decide +kernel]; omega⟩

end Final

end Cert.KernelIdeal.RegionValue.R4

namespace Cert.KernelIdeal.RegionValue

open Cert.KernelIdeal Cert.KernelIdeal.Gen

variable (V : (c : Dev nD) → (b : Ref sig .tc) → Buf (Elt Ideal) ((c : Thread nD τ).loc b)) (c : Dev nD)

/-- Region 4's first result, as one function of the arrays the region finds: the column sums of (aggregate + bias). -/
theorem region4_sum : ((dat4 V c).arrAt 2 cfg4.N : S1x64.Idx → EReal)
    = Cert.Spec.colSum (Cert.Spec.pre (V c main_v67) (V c main_v68)) := R4.sum_final V c

/-- Region 4's second result: the column sums of squares of (aggregate + bias). -/
theorem region4_sumsq : ((dat4 V c).arrAt 3 cfg4.N : S1x64.Idx → EReal)
    = Cert.Spec.colSumSq (Cert.Spec.pre (V c main_v67) (V c main_v68)) := R4.sumsq_final V c

end Cert.KernelIdeal.RegionValue

end
-- ==== Proof.Region5.lean ====
/-
  The second layer's normalise-and-clip step, as one function of whole arrays.

  The step runs over ten row blocks of 5000 nodes. At each block it reads the block of aggregated features and five
  whole rows (bias, mean, variance, scale, shift; 64 columns), and writes
  max(scale · ((aggregate + bias) − mean) · (variance + ε)^(−1/2) + shift, 0). Here that is read entry by entry: the value
  written at row p, column q of a block uses the aggregate's entry there and every row at column q; block t of the
  result sits at rows 5000·t … 5000·t + 4999 of the array, where the aggregate's block t sits too, and each row is
  read whole; the ten blocks cover every row. So the result array is the normalise-and-clip map of the six arrays.
-/
import proofs.«159056_j27436251087104_1_alg».proof.Proof.Gen.KernelIdeal.Frame
import proofs.«159056_j27436251087104_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets5 : (![0, 0] : Fin 2 → Nat) = fun _ => 0 := funext fun a => by fin_cases a <;> rfl

/-- The inverse square root of a vector, read at an entry. -/
theorem rsqrtAt5 {s : Shape} {φ : FTy} (a : FVec Ideal s φ) (i : s.Idx) : rsqrt a i = Ideal.rsqrt (a i) := rfl

/-- The body's value at one entry of a block: scale times (aggregate plus bias minus mean) times the inverse square
    root of (variance plus ε), plus shift, clipped at zero — every row operand read at the entry's column. -/
theorem pay5_apply (x0 : Vec Ideal S5000x64 .f32) (xb xv xg xm xe : Vec Ideal S1x64 .f32) (p : Fin 5000) (q : Fin 64) :
    k5_pay1 x0 xb xv xg xm xe (ix2 p q)
      = max (xg (ix2 (0 : Fin 1) q) * (x0 (ix2 p q) + xb (ix2 (0 : Fin 1) q) - xm (ix2 (0 : Fin 1) q))
          * Ideal.rsqrt (xv (ix2 (0 : Fin 1) q) + Cert.Spec.eps) + xe (ix2 (0 : Fin 1) q)) 0 := by
  unfold k5_pay1
  simp only [shapeCast_self, maximumf_apply, addf_apply, mulf_apply, subf_apply, broadcast_apply, broadcastTo_1b_ab_apply]
  simp only [rsqrtAt5, addf_apply, broadcast_apply, Ideal.ofBits_def, Ideal.ofBits_zero_f32]
  rfl

/-- One entry of a block is the normalise-and-clip map at the array entry it sits at, when the block of aggregates
    holds the array's entry there and each row block is its whole row. -/
theorem point5 (x0 : Vec Ideal S5000x64 .f32) (xb xv xg xm xe : Vec Ideal S1x64 .f32)
    (a : Cert.Spec.Arr2 50000 64) (b mu var g be : Cert.Spec.Arr2 1 64) (j : S5000x64.Idx) (i : S50000x64.Idx)
    (hcol : (i 1).val = (j 1).val) (h0 : x0 j = a i)
    (hb : ∀ y : S1x64.Idx, xb y = b y) (hm : ∀ y : S1x64.Idx, xm y = mu y) (hv : ∀ y : S1x64.Idx, xv y = var y)
    (hg : ∀ y : S1x64.Idx, xg y = g y) (he : ∀ y : S1x64.Idx, xe y = be y) :
    k5_pay1 x0 xb xv xg xm xe j = Cert.Spec.normRelu a b mu var g be i := by
  obtain ⟨p, q, rfl⟩ : ∃ (p : Fin 5000) (q : Fin 64), j = ix2 p q := ⟨j 0, j 1, eq_ix2 j⟩
  rw [pay5_apply, h0, hb, hm, hv, hg, he]
  have e : (i 1 : Fin 64) = q := Fin.ext hcol
  show _ = max (g (ix2 0 (i 1)) * (a i + b (ix2 0 (i 1)) - mu (ix2 0 (i 1)))
      * Ideal.rsqrt (var (ix2 0 (i 1)) + Cert.Spec.eps) + be (ix2 0 (i 1))) 0
  rw [e]

/-- The printed index maps over the grid: the aggregate's block and the result's block are both block (t, 0), and
    every row operand's block is (0, 0). -/
theorem idxFacts5 : ∀ t : Fin cfg5.N, win5_0.index t (0 : Fin 2) = win5_6.index t (0 : Fin 2)
    ∧ win5_0.index t (1 : Fin 2) = 0 ∧ win5_6.index t (1 : Fin 2) = 0
    ∧ win5_6.index t (0 : Fin 2) = t.val
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0) :=
  (by decide +kernel : ∀ t : Fin grid5.N, _)

/-- The bias row's block at any point is the whole bias row. -/
theorem rowBlock5_1 (c : Dev nD) (t : Fin cfg5.N) (y : S1x64.Idx) : iblk5 V c 1 t y = V c main_v68 y := by
  obtain ⟨-, -, -, -, e1, e2, e3, e4, e5⟩ := idxFacts5 t
  unfold iblk5
  rw [View.read_apply]
  show V c main_v68 (((cfg5.win 1).blk t).view.emb y) = V c main_v68 y
  refine congrArg (V c main_v68) ?_
  funext a
  apply Fin.ext
  match a with
  | ⟨0, _⟩ => show win5_1.index t (0 : Fin 2) * 1 + 1 * (y 0).val = (y 0).val; omega
  | ⟨1, _⟩ => show win5_1.index t (1 : Fin 2) * 64 + 1 * (y 1).val = (y 1).val; omega

/-- The mean row's block at any point is the whole mean row. -/
theorem rowBlock5_2 (c : Dev nD) (t : Fin cfg5.N) (y : S1x64.Idx) : iblk5 V c 2 t y = V c main_v71 y := by
  obtain ⟨-, -, -, -, e1, e2, e3, e4, e5⟩ := idxFacts5 t
  unfold iblk5
  rw [View.read_apply]
  show V c main_v71 (((cfg5.win 2).blk t).view.emb y) = V c main_v71 y
  refine congrArg (V c main_v71) ?_
  funext a
  apply Fin.ext
  match a with
  | ⟨0, _⟩ => show win5_2.index t (0 : Fin 2) * 1 + 1 * (y 0).val = (y 0).val; omega
  | ⟨1, _⟩ => show win5_2.index t (1 : Fin 2) * 64 + 1 * (y 1).val = (y 1).val; omega

/-- The variance row's block at any point is the whole variance row. -/
theorem rowBlock5_3 (c : Dev nD) (t : Fin cfg5.N) (y : S1x64.Idx) : iblk5 V c 3 t y = V c main_v75 y := by
  obtain ⟨-, -, -, -, e1, e2, e3, e4, e5⟩ := idxFacts5 t
  unfold iblk5
  rw [View.read_apply]
  show V c main_v75 (((cfg5.win 3).blk t).view.emb y) = V c main_v75 y
  refine congrArg (V c main_v75) ?_
  funext a
  apply Fin.ext
  match a with
  | ⟨0, _⟩ => show win5_3.index t (0 : Fin 2) * 1 + 1 * (y 0).val = (y 0).val; omega
  | ⟨1, _⟩ => show win5_3.index t (1 : Fin 2) * 64 + 1 * (y 1).val = (y 1).val; omega

/-- The scale row's block at any point is the whole scale row. -/
theorem rowBlock5_4 (c : Dev nD) (t : Fin cfg5.N) (y : S1x64.Idx) : iblk5 V c 4 t y = V c main_v76 y := by
  obtain ⟨-, -, -, -, e1, e2, e3, e4, e5⟩ := idxFacts5 t
  unfold iblk5
  rw [View.read_apply]
  show V c main_v76 (((cfg5.win 4).blk t).view.emb y) = V c main_v76 y
  refine congrArg (V c main_v76) ?_
  funext a
  apply Fin.ext
  match a with
  | ⟨0, _⟩ => show win5_4.index t (0 : Fin 2) * 1 + 1 * (y 0).val = (y 0).val; omega
  | ⟨1, _⟩ => show win5_4.index t (1 : Fin 2) * 64 + 1 * (y 1).val = (y 1).val; omega

/-- The shift row's block at any point is the whole shift row. -/
theorem rowBlock5_5 (c : Dev nD) (t : Fin cfg5.N) (y : S1x64.Idx) : iblk5 V c 5 t y = V c main_v77 y := by
  obtain ⟨-, -, -, -, e1, e2, e3, e4, e5⟩ := idxFacts5 t
  unfold iblk5
  rw [View.read_apply]
  show V c main_v77 (((cfg5.win 5).blk t).view.emb y) = V c main_v77 y
  refine congrArg (V c main_v77) ?_
  funext a
  apply Fin.ext
  match a with
  | ⟨0, _⟩ => show win5_5.index t (0 : Fin 2) * 1 + 1 * (y 0).val = (y 0).val; omega
  | ⟨1, _⟩ => show win5_5.index t (1 : Fin 2) * 64 + 1 * (y 1).val = (y 1).val; omega

/-- What point t writes back is block t of the normalise-and-clip map of the region's input arrays. -/
theorem flushed5_eq (c : Dev nD) (t : Fin cfg5.N) :
    (dat5 V c).flushed 6 t = ((cfg5.win 6).blk t).view.read (Elt Ideal)
      (Cert.Spec.normRelu (V c main_v67) (V c main_v68) (V c main_v71) (V c main_v75) (V c main_v76) (V c main_v77)) := by
  show (cfg5.win 6).cut (grid5.coords t) ((dat5 V c).after 6 t) = _
  rw [after5_6]
  unfold out5_6
  rw [View.canon_unit_zero zeroOffsets5]
  simp only [View.ld_unit_zero (S := S5000x64) zeroOffsets5, View.ld_unit_zero (S := S1x64) zeroOffsets5]
  obtain ⟨e0, e1, e2, e3, -⟩ := idxFacts5 t
  funext j
  show k5_pay1 (iblk5 V c 0 t) (iblk5 V c 1 t) (iblk5 V c 3 t) (iblk5 V c 4 t) (iblk5 V c 2 t) (iblk5 V c 5 t)
      ((win5 6).xinj (grid5.coords t) j)
    = Cert.Spec.normRelu (V c main_v67) (V c main_v68) (V c main_v71) (V c main_v75) (V c main_v76) (V c main_v77) (((cfg5.win 6).blk t).view.emb j)
  refine point5 _ _ _ _ _ _ _ _ _ _ _ _ _ _ ?_ ?_ (rowBlock5_1 V c t) (rowBlock5_2 V c t) (rowBlock5_3 V c t)
    (rowBlock5_4 V c t) (rowBlock5_5 V c t)
  · show win5_6.index t (1 : Fin 2) * 64 + 1 * (j 1).val = (j 1).val
    omega
  · unfold iblk5
    rw [View.read_apply]
    show V c main_v67 (((cfg5.win 0).blk t).view.emb ((win5 6).xinj (grid5.coords t) j)) = V c main_v67 (((cfg5.win 6).blk t).view.emb j)
    refine congrArg (V c main_v67) ?_
    funext a
    apply Fin.ext
    match a with
    | ⟨0, _⟩ => show win5_0.index t (0 : Fin 2) * 5000 + 1 * (j 0).val = win5_6.index t (0 : Fin 2) * 5000 + 1 * (j 0).val; omega
    | ⟨1, _⟩ => show win5_0.index t (1 : Fin 2) * 64 + 1 * (j 1).val = win5_6.index t (1 : Fin 2) * 64 + 1 * (j 1).val; omega

/-- An entry of the array is in point t's block of the result iff each coordinate is in the block's range on its axis. -/
theorem mem_blk5 (t : Fin cfg5.N) (i : S50000x64.Idx) :
    i ∈ ((cfg5.win 6).blk t).view.set ↔ ∀ a : Fin 2, win5_6.index t a * S5000x64.size a ≤ (i a).val ∧ (i a).val < win5_6.index t a * S5000x64.size a + S5000x64.size a := by
  show i ∈ ((View.whole main_v78).slice (win5_6.rect t)).set ↔ _
  rw [View.set_slice_whole, Rect.mem_set_unit]
  exact Iff.rfl

/-- Every entry of the result is in some point's block: row r is in the block of point r / 5000. -/
theorem cover5 (i : S50000x64.Idx) : ∃ t : Fin cfg5.N, (cfg5.win 6).flush t = true ∧ i ∈ ((cfg5.win 6).blk t).view.set := by
  have hi0 : (i 0).val < 50000 := (i 0).isLt
  have hi1 : (i 1).val < 64 := (i 1).isLt
  have hN : cfg5.N = 10 := N_5
  obtain ⟨t, ht⟩ : ∃ t : Fin cfg5.N, t.val = (i 0).val / 5000 := ⟨⟨(i 0).val / 5000, by rw [hN]; omega⟩, rfl⟩
  refine ⟨t, flush5_6 t, ?_⟩
  rw [mem_blk5]
  obtain ⟨e0, e1, e2, e3, -⟩ := idxFacts5 t
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 64 ≤ (i 1).val ∧ (i 1).val < win5_6.index t (1 : Fin 2) * 64 + 64; omega

/-- The layer's result array after the region: the normalise-and-clip map of the aggregate, bias, mean, variance,
    scale and shift arrays, entry by entry. -/
theorem region5 (c : Dev nD) :
    ((dat5 V c).arrAt 6 cfg5.N : S50000x64.Idx → EReal)
      = Cert.Spec.normRelu (V c main_v67) (V c main_v68) (V c main_v71) (V c main_v75) (V c main_v76) (V c main_v77) :=
  (dat5 V c).arrAt_eq_of_cover 6 (Cert.Spec.normRelu (V c main_v67) (V c main_v68) (V c main_v71) (V c main_v75) (V c main_v76) (V c main_v77))
    (fun t _ => flushed5_eq V c t) cover5

end Cert.KernelIdeal.RegionValue

end
-- ==== Proof.Region6.lean ====
/-
  The third matrix product of the kernel, as one function of whole arrays.

  The second layer's output x (50000 rows of 64 features) is multiplied by a 64 × 32 weight matrix w. The kernel
  does this in ten steps: step t takes rows 5000·t … 5000·t + 4999 of x together with the whole of w, forms the
  product of that block of rows with w, and writes it to the same rows of the result. Entry (p, q) of a block
  product is ∑ l, x[5000·t + p, l] · w[l, q], which is entry (5000·t + p, q) of the product of the whole arrays:
  a row of the product depends on the same row of x only. The ten blocks of rows fill all 50000 rows, so after
  the ten steps the result array is the matrix product of the two arrays the region found on entry.
  The rounding of the operands to a shorter format before the product is the identity on extended reals, and
  so is the recasting of the block of rows to the shape it already has.
-/
import proofs.«159056_j27436251087104_1_alg».proof.Proof.Gen.KernelIdeal.Frame
import proofs.«159056_j27436251087104_1_alg».proof.Proof.Spec
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The two zero offsets of a whole-block access, as a constant function. -/
theorem mm6_zero_offsets : (![0, 0] : Fin 2 → Nat) = fun _ => 0 := funext fun a => by fin_cases a <;> rfl

/-! ## The block product at an index -/

/-- The left operand is read on the row of the output entry, … -/
theorem mm6_lhs_row (i : S5000x32.Idx) (z : dot_S5000x64_S64x32_S5000x32_1_0_0_1_n_n.contr.Idx) :
    (dot_S5000x64_S64x32_S5000x32_1_0_0_1_n_n.lhsIdx i z 0).val = (i 0).val := by
  unfold DotDims.lhsIdx
  rw [dif_neg (show ¬(0 : Fin S5000x64.rank) ∈ dot_S5000x64_S64x32_S5000x32_1_0_0_1_n_n.lhsBatch by decide),
    dif_pos (show (0 : Fin S5000x64.rank) ∈ dot_S5000x64_S64x32_S5000x32_1_0_0_1_n_n.lhsNonContracting by decide)]
  rfl
/-- … at the column the summation position names; -/
theorem mm6_lhs_col (i : S5000x32.Idx) (z : dot_S5000x64_S64x32_S5000x32_1_0_0_1_n_n.contr.Idx) :
    (dot_S5000x64_S64x32_S5000x32_1_0_0_1_n_n.lhsIdx i z 1).val = (z ⟨0, by decide⟩).val :=
  dot_S5000x64_S64x32_S5000x32_1_0_0_1_n_n.lhsIdx_val_of_single rfl i z
/-- the right operand on the row the summation position names, … -/
theorem mm6_rhs_row (i : S5000x32.Idx) (z : dot_S5000x64_S64x32_S5000x32_1_0_0_1_n_n.contr.Idx) :
    (dot_S5000x64_S64x32_S5000x32_1_0_0_1_n_n.rhsIdx i z 0).val = (z ⟨0, by decide⟩).val :=
  dot_S5000x64_S64x32_S5000x32_1_0_0_1_n_n.rhsIdx_val_of_single rfl i z
/-- … at the column of the output entry. -/
theorem mm6_rhs_col (i : S5000x32.Idx) (z : dot_S5000x64_S64x32_S5000x32_1_0_0_1_n_n.contr.Idx) :
    (dot_S5000x64_S64x32_S5000x32_1_0_0_1_n_n.rhsIdx i z 1).val = (i 1).val := by
  unfold DotDims.rhsIdx
  rw [dif_neg (show ¬(1 : Fin S64x32.rank) ∈ dot_S5000x64_S64x32_S5000x32_1_0_0_1_n_n.rhsBatch by decide),
    dif_pos (show (1 : Fin S64x32.rank) ∈ dot_S5000x64_S64x32_S5000x32_1_0_0_1_n_n.rhsNonContracting by decide)]
  rfl

/-- Entry (p, q) of the body's result: the sum over l of x[p, l] · w[l, q], with no accumulator term (it starts
    from the zero array) and no rounding (narrowing a format is the identity on extended reals). -/
theorem mm6_payload (x : Vec Ideal S5000x64 .f32) (w : Vec Ideal S64x32 .f32) (p : Fin 5000) (q : Fin 32) :
    k6_pay1 (F := Ideal) x w (ix2 p q) = ∑ l : Fin 64, x (ix2 p l) * w (ix2 l q) := by
  unfold k6_pay1
  refine (Ideal.matmul_constant_zero_apply dot_S5000x64_S64x32_S5000x32_1_0_0_1_n_n none _ _ (ix2 p q)).trans ?_
  rw [← Equiv.sum_comp (contrEquiv1 dot_S5000x64_S64x32_S5000x32_1_0_0_1_n_n 64 rfl rfl).symm]
  refine Finset.sum_congr rfl fun l _ => ?_
  have hl := contrEquiv1_symm_val dot_S5000x64_S64x32_S5000x32_1_0_0_1_n_n 64 rfl rfl l
  have el : dot_S5000x64_S64x32_S5000x32_1_0_0_1_n_n.lhsIdx (ix2 p q) ((contrEquiv1 dot_S5000x64_S64x32_S5000x32_1_0_0_1_n_n 64 rfl rfl).symm l) = ix2 p l :=
    funext fun a => Fin.ext (by
      match a with
      | ⟨0, _⟩ => exact mm6_lhs_row _ _
      | ⟨1, _⟩ => exact (mm6_lhs_col _ _).trans hl)
  have er : dot_S5000x64_S64x32_S5000x32_1_0_0_1_n_n.rhsIdx (ix2 p q) ((contrEquiv1 dot_S5000x64_S64x32_S5000x32_1_0_0_1_n_n 64 rfl rfl).symm l) = ix2 l q :=
    funext fun a => Fin.ext (by
      match a with
      | ⟨0, _⟩ => exact (mm6_rhs_row _ _).trans hl
      | ⟨1, _⟩ => exact mm6_rhs_col _ _)
  rw [truncf_apply, truncf_apply, el, er, shapeCast_self]

/-! ## From the blocks of rows to the whole arrays -/

variable (V : (c : Dev nD) → (b : Ref sig .tc) → Buf (Elt Ideal) ((c : Thread nD τ).loc b))

/-- Where each step's blocks sit, decided over the ten steps: step t takes block t of the rows of the left
    operand and of the result (all columns), and the one block that is the whole weight matrix. -/
theorem mm6_block_indices : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Entry (p, l) of step t's block of the left operand is entry (5000·t + p, l) of the array. -/
theorem mm6_lhs_block (c : Dev nD) (t : Fin cfg6.N) (p : Fin 5000) (l : Fin 64) (r : Fin 50000)
    (hr : r.val = 5000 * t.val + p.val) :
    (iblk6 V c 0 t : S5000x64.Idx → EReal) (ix2 p l) = (V c main_v78 : S50000x64.Idx → EReal) (ix2 r l) := by
  obtain ⟨e00, e01, -⟩ := mm6_block_indices t
  have h : ((cfg6.win 0).blk t).view.emb (ix2 p l) = (ix2 r l : S50000x64.Idx) := by
    funext a; apply Fin.ext
    match a with
    | ⟨0, _⟩ => show win6_0.index t (0 : Fin 2) * 5000 + 1 * p.val = r.val; omega
    | ⟨1, _⟩ => show win6_0.index t (1 : Fin 2) * 64 + 1 * l.val = l.val; omega
  show V c main_v78 (((cfg6.win 0).blk t).view.emb (ix2 p l)) = V c main_v78 (ix2 r l)
  rw [h]

/-- Every step's block of the weight matrix is the whole matrix. -/
theorem mm6_rhs_block (c : Dev nD) (t : Fin cfg6.N) (l : Fin 64) (q : Fin 32) :
    (iblk6 V c 1 t : S64x32.Idx → EReal) (ix2 l q) = (V c main_arg12 : S64x32.Idx → EReal) (ix2 l q) := by
  obtain ⟨-, -, e10, e11, -⟩ := mm6_block_indices t
  have h : ((cfg6.win 1).blk t).view.emb (ix2 l q) = (ix2 l q : S64x32.Idx) := by
    funext a; apply Fin.ext
    match a with
    | ⟨0, _⟩ => show win6_1.index t (0 : Fin 2) * 64 + 1 * l.val = l.val; omega
    | ⟨1, _⟩ => show win6_1.index t (1 : Fin 2) * 32 + 1 * q.val = q.val; omega
  show V c main_arg12 (((cfg6.win 1).blk t).view.emb (ix2 l q)) = V c main_arg12 (ix2 l q)
  rw [h]

/-- Entry (p, q) of step t's block of the result is entry (5000·t + p, q) of the result array. -/
theorem mm6_out_index (t : Fin cfg6.N) (p : Fin 5000) (q : Fin 32) (r : Fin 50000)
    (hr : r.val = 5000 * t.val + p.val) :
    ((cfg6.win 2).blk t).view.emb (ix2 p q) = (ix2 r q : S50000x32.Idx) := by
  obtain ⟨-, -, -, -, e20, e21⟩ := mm6_block_indices t
  funext a; apply Fin.ext
  match a with
  | ⟨0, _⟩ => show win6_2.index t (0 : Fin 2) * 5000 + 1 * p.val = r.val; omega
  | ⟨1, _⟩ => show win6_2.index t (1 : Fin 2) * 32 + 1 * q.val = q.val; omega

/-- What the body computes from step t's blocks is, entry by entry, the product of the whole arrays read at the
    place that entry has in the result array: a row of the product depends on that row of the left operand only. -/
theorem mm6_block (c : Dev nD) (t : Fin cfg6.N) (j : S5000x32.Idx) :
    k6_pay1 (F := Ideal) (iblk6 V c 0 t) (iblk6 V c 1 t) j
      = Cert.Spec.mm (V c main_v78) (V c main_arg12) (((cfg6.win 2).blk t).view.emb j) := by
  obtain ⟨p, q, rfl⟩ : ∃ (p : Fin 5000) (q : Fin 32), j = ix2 p q := ⟨j 0, j 1, eq_ix2 j⟩
  have ht : t.val < 10 := lt_of_lt_of_eq t.isLt N_6
  obtain ⟨r, hr⟩ : ∃ r : Fin 50000, r.val = 5000 * t.val + p.val := ⟨⟨5000 * t.val + p.val, by omega⟩, rfl⟩
  refine (mm6_payload (iblk6 V c 0 t) (iblk6 V c 1 t) p q).trans ?_
  rw [mm6_out_index t p q r hr]
  refine Finset.sum_congr rfl fun l _ => ?_
  rw [mm6_lhs_block V c t p l r hr, mm6_rhs_block V c t l q]

/-- What step t writes back is block t of the product of the whole arrays. -/
theorem mm6_flushed (c : Dev nD) (t : Fin cfg6.N) :
    (dat6 V c).flushed 2 t
      = ((cfg6.win 2).blk t).view.read (Elt Ideal) (Cert.Spec.mm (V c main_v78) (V c main_arg12)) := by
  show (cfg6.win 2).cut (grid6.coords t) ((dat6 V c).after 2 t) = _
  rw [after6_2]
  unfold out6_2
  rw [View.canon_unit_zero mm6_zero_offsets]
  simp only [View.ld_unit_zero (S := S5000x64) mm6_zero_offsets, View.ld_unit_zero (S := S64x32) mm6_zero_offsets]
  exact funext fun j => mm6_block V c t j

/-- An index of the result array is in step t's block exactly when each coordinate is in the block's range. -/
theorem mm6_mem_block (t : Fin cfg6.N) (i : S50000x32.Idx) :
    i ∈ ((cfg6.win 2).blk t).view.set ↔ ∀ a : Fin 2, win6_2.index t a * S5000x32.size a ≤ (i a).val
      ∧ (i a).val < win6_2.index t a * S5000x32.size a + S5000x32.size a := by
  show i ∈ ((View.whole main_v79).slice (win6_2.rect t)).set ↔ _
  rw [View.set_slice_whole, Rect.mem_set_unit]
  exact Iff.rfl

/-- The ten blocks of rows fill the result array: row r is in the block of step r / 5000. -/
theorem mm6_cover (i : S50000x32.Idx) :
    ∃ t : Fin cfg6.N, (cfg6.win 2).flush t = true ∧ i ∈ ((cfg6.win 2).blk t).view.set := by
  have hi0 : (i 0).val < 50000 := (i 0).isLt
  have hi1 : (i 1).val < 32 := (i 1).isLt
  obtain ⟨t, ht⟩ : ∃ t : Fin cfg6.N, t.val = (i 0).val / 5000 :=
    ⟨⟨(i 0).val / 5000, by rw [show cfg6.N = 10 from N_6]; omega⟩, rfl⟩
  obtain ⟨-, -, -, -, e20, e21⟩ := mm6_block_indices t
  refine ⟨t, flush6_2 t, ?_⟩
  rw [mm6_mem_block]
  intro a
  match a with
  | ⟨0, _⟩ =>
    show win6_2.index t (0 : Fin 2) * 5000 ≤ (i 0).val ∧ (i 0).val < win6_2.index t (0 : Fin 2) * 5000 + 5000
    omega
  | ⟨1, _⟩ =>
    show win6_2.index t (1 : Fin 2) * 32 ≤ (i 1).val ∧ (i 1).val < win6_2.index t (1 : Fin 2) * 32 + 32
    omega

/-- THE REGION'S RESULT: after the ten steps the result array is the matrix product of the two arrays the region
    found on entry. -/
theorem region6 (c : Dev nD) :
    ((dat6 V c).arrAt 2 cfg6.N : S50000x32.Idx → EReal) = Cert.Spec.mm (V c main_v78) (V c main_arg12) :=
  (dat6 V c).arrAt_eq_of_cover 2 (Cert.Spec.mm (V c main_v78) (V c main_arg12))
    (fun t _ => mm6_flushed V c t) (mm6_cover)

end Cert.KernelIdeal.RegionValue

end
-- ==== Proof.Region7.lean ====
/-
  The last layer's pointwise step, as one function of whole arrays.

  The step runs over ten row blocks of 5000 nodes. At each block it reads the block of aggregated features and the
  bias row, and writes aggregate plus bias. Here that is read entry by entry: the value written at row p, column q
  of a block is the aggregate's entry there plus the bias of column q; block t of the result sits at rows
  5000·t … 5000·t + 4999 of the array, where the aggregate's block t sits too, and the bias row is read whole; the ten
  blocks cover every row. So the result array is the pre-activation of the aggregate array and the bias row.
-/
import proofs.«159056_j27436251087104_1_alg».proof.Proof.Gen.KernelIdeal.Frame
import proofs.«159056_j27436251087104_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets7 : (![0, 0] : Fin 2 → Nat) = fun _ => 0 := funext fun a => by fin_cases a <;> rfl

/-- The body's value at one entry of a block: the aggregate entry plus the bias of its column. -/
theorem pay7_apply (x0 : Vec Ideal S5000x32 .f32) (x1 : Vec Ideal S1x32 .f32) (p : Fin 5000) (q : Fin 32) :
    k7_pay1 x0 x1 (ix2 p q) = x0 (ix2 p q) + x1 (ix2 (0 : Fin 1) q) := by
  unfold k7_pay1
  rw [addf_apply, shapeCast_self, shapeCast_self, broadcastTo_1b_ab_apply]

/-- One entry of a block is the pre-activation at the array entry it sits at, when the block of aggregates holds the
    array's entry there and the bias block is the bias row. -/
theorem point7 (x0 : Vec Ideal S5000x32 .f32) (x1 : Vec Ideal S1x32 .f32)
    (a : Cert.Spec.Arr2 50000 32) (b : Cert.Spec.Arr2 1 32) (j : S5000x32.Idx) (i : S50000x32.Idx)
    (hcol : (i 1).val = (j 1).val) (h0 : x0 j = a i) (h1 : ∀ y : S1x32.Idx, x1 y = b y) :
    k7_pay1 x0 x1 j = Cert.Spec.pre a b i := by
  obtain ⟨p, q, rfl⟩ : ∃ (p : Fin 5000) (q : Fin 32), j = ix2 p q := ⟨j 0, j 1, eq_ix2 j⟩
  rw [pay7_apply, h0, h1]
  show a i + b (ix2 0 q) = a i + b (ix2 0 (i 1))
  have e : (i 1 : Fin 32) = q := Fin.ext hcol
  rw [e]

/-- The printed index maps over the grid: the aggregate's block and the result's block are both block (t, 0), the bias row's block (0, 0). -/
theorem idxFacts7 : ∀ t : Fin cfg7.N, win7_0.index t (0 : Fin 2) = win7_6.index t (0 : Fin 2)
    ∧ win7_0.index t (1 : Fin 2) = 0 ∧ win7_6.index t (1 : Fin 2) = 0
    ∧ win7_1.index t (0 : Fin 2) = 0 ∧ win7_1.index t (1 : Fin 2) = 0
    ∧ win7_6.index t (0 : Fin 2) = t.val :=
  (by decide +kernel : ∀ t : Fin grid7.N, _)

theorem flushed7_eq (c : Dev nD) (t : Fin cfg7.N) :
    (dat7 V c).flushed 6 t = ((cfg7.win 6).blk t).view.read (Elt Ideal) (Cert.Spec.pre (V c main_v92) (V c main_v93)) := by
  show (cfg7.win 6).cut (grid7.coords t) ((dat7 V c).after 6 t) = _
  rw [after7_6]
  unfold out7_6
  rw [View.canon_unit_zero zeroOffsets7]
  simp only [View.ld_unit_zero (S := S5000x32) zeroOffsets7, View.ld_unit_zero (S := S1x32) zeroOffsets7]
  obtain ⟨e0, e1, e2, e3, e4, e5⟩ := idxFacts7 t
  funext j
  show k7_pay1 (iblk7 V c 0 t) (iblk7 V c 1 t) ((win7 6).xinj (grid7.coords t) j) = Cert.Spec.pre (V c main_v92) (V c main_v93) (((cfg7.win 6).blk t).view.emb j)
  refine point7 _ _ _ _ _ _ ?_ ?_ ?_
  · show win7_6.index t (1 : Fin 2) * 32 + 1 * (j 1).val = (j 1).val
    omega
  · unfold iblk7
    rw [View.read_apply]
    show V c main_v92 (((cfg7.win 0).blk t).view.emb ((win7 6).xinj (grid7.coords t) j)) = V c main_v92 (((cfg7.win 6).blk t).view.emb j)
    refine congrArg (V c main_v92) ?_
    funext a
    apply Fin.ext
    match a with
    | ⟨0, _⟩ => show win7_0.index t (0 : Fin 2) * 5000 + 1 * (j 0).val = win7_6.index t (0 : Fin 2) * 5000 + 1 * (j 0).val; omega
    | ⟨1, _⟩ => show win7_0.index t (1 : Fin 2) * 32 + 1 * (j 1).val = win7_6.index t (1 : Fin 2) * 32 + 1 * (j 1).val; omega
  · intro y
    unfold iblk7
    rw [View.read_apply]
    show V c main_v93 (((cfg7.win 1).blk t).view.emb y) = V c main_v93 y
    refine congrArg (V c main_v93) ?_
    funext a
    apply Fin.ext
    match a with
    | ⟨0, _⟩ => show win7_1.index t (0 : Fin 2) * 1 + 1 * (y 0).val = (y 0).val; omega
    | ⟨1, _⟩ => show win7_1.index t (1 : Fin 2) * 32 + 1 * (y 1).val = (y 1).val; omega

/-- An entry of the array is in point t's block of the result iff each coordinate is in the block's range on its axis. -/
theorem mem_blk7 (t : Fin cfg7.N) (i : S50000x32.Idx) :
    i ∈ ((cfg7.win 6).blk t).view.set ↔ ∀ a : Fin 2, win7_6.index t a * S5000x32.size a ≤ (i a).val ∧ (i a).val < win7_6.index t a * S5000x32.size a + S5000x32.size a := by
  show i ∈ ((View.whole main_v98).slice (win7_6.rect t)).set ↔ _
  rw [View.set_slice_whole, Rect.mem_set_unit]
  exact Iff.rfl

/-- Every entry of the result is in some point's block: row r is in the block of point r / 5000. -/
theorem cover7 (i : S50000x32.Idx) : ∃ t : Fin cfg7.N, (cfg7.win 6).flush t = true ∧ i ∈ ((cfg7.win 6).blk t).view.set := by
  have hi0 : (i 0).val < 50000 := (i 0).isLt
  have hi1 : (i 1).val < 32 := (i 1).isLt
  have hN : cfg7.N = 10 := N_7
  obtain ⟨t, ht⟩ : ∃ t : Fin cfg7.N, t.val = (i 0).val / 5000 := ⟨⟨(i 0).val / 5000, by rw [hN]; omega⟩, rfl⟩
  refine ⟨t, flush7_6 t, ?_⟩
  rw [mem_blk7]
  obtain ⟨e0, e1, e2, e3, e4, e5⟩ := idxFacts7 t
  intro a
  match a with
  | ⟨0, _⟩ => show win7_6.index t (0 : Fin 2) * 5000 ≤ (i 0).val ∧ (i 0).val < win7_6.index t (0 : Fin 2) * 5000 + 5000; omega
  | ⟨1, _⟩ => show win7_6.index t (1 : Fin 2) * 32 ≤ (i 1).val ∧ (i 1).val < win7_6.index t (1 : Fin 2) * 32 + 32; omega

/-- The last layer's result array after the region: the aggregate plus the bias row, entry by entry. -/
theorem region7 (c : Dev nD) :
    ((dat7 V c).arrAt 6 cfg7.N : S50000x32.Idx → EReal) = Cert.Spec.pre (V c main_v92) (V c main_v93) :=
  (dat7 V c).arrAt_eq_of_cover 6 (Cert.Spec.pre (V c main_v92) (V c main_v93)) (fun t _ => flushed7_eq V c t) cover7

end Cert.KernelIdeal.RegionValue

end
-- ==== Proof.VarianceLaw.lean ====
/-
  The one algebraic law that joins the two programs: for finitely many REAL numbers p_i with mean μ = (Σ p_i)/n,
  the mean of the squared deviations equals the mean of the squares minus the square of the mean,
      (Σ (p_i − μ)²)/n = (Σ p_i²)/n − μ·μ.
  One program normalises with the left-hand side, the other with the right-hand side. The law is first proved over
  the reals and then transported to the extended reals for entries that are real: there, division by the nonzero
  real n is multiplication by 1/n, a sum of reals is a real, and the two sides are images of the two real sides.
  At an infinite entry the law fails (∞ − ∞ has no sensible value), which is why the entries' finiteness is needed.
-/
import Idealize.ShloMosaic.PureOps.Ideal

namespace Cert.VarianceLaw

open Finset Idealize.ShloMosaic

/-- Two-pass variance equals one-pass variance over the reals, division written as multiplication by `1/n`. -/
theorem real_law {ι : Type*} [Fintype ι] (q : ι → ℝ) (n : ℝ) (hn : n ≠ 0) (hcard : (Fintype.card ι : ℝ) = n) :
    (∑ i, (q i - (∑ j, q j) * (1 / n)) * (q i - (∑ j, q j) * (1 / n))) * (1 / n)
      = (∑ i, q i * q i) * (1 / n) - ((∑ j, q j) * (1 / n)) * ((∑ j, q j) * (1 / n)) := by
  set S := ∑ j, q j with hS
  set μ := S * (1 / n) with hμ
  have hexp : ∀ i, (q i - μ) * (q i - μ) = q i * q i - 2 * μ * q i + μ * μ := fun i => by ring
  have h1 : ∑ i, (q i - μ) * (q i - μ) = ∑ i, q i * q i - 2 * μ * S + n * (μ * μ) := by
    simp only [hexp, Finset.sum_add_distrib, Finset.sum_sub_distrib, ← Finset.mul_sum, Finset.sum_const,
      Finset.card_univ, nsmul_eq_mul, ← hS, hcard]
    ring
  rw [h1, hμ]
  field_simp
  ring

/-- A finite sum of (coerced) reals is the coerced real sum. -/
theorem coe_sum {ι : Type*} (s : Finset ι) (q : ι → ℝ) :
    (∑ i ∈ s, ((q i : ℝ) : EReal)) = (((∑ i ∈ s, q i : ℝ)) : EReal) := by
  classical
  induction s using Finset.induction_on with
  | empty => simp
  | insert a s ha ih => rw [Finset.sum_insert ha, Finset.sum_insert ha, ih, EReal.coe_add]

/-- The law on the extended reals, for real entries and the exact quotient by a nonzero real `n` (the number of
    entries): the mean of the squared deviations from the mean is the mean of the squares minus the squared mean. -/
theorem ereal_law {ι : Type*} [Fintype ι] (p : ι → EReal) (hp : ∀ i, ∃ r : ℝ, p i = (r : EReal)) (n : ℝ)
    (hn : n ≠ 0) (hcard : (Fintype.card ι : ℝ) = n) :
    Ideal.div (∑ i, (p i - Ideal.div (∑ j, p j) (n : EReal)) * (p i - Ideal.div (∑ j, p j) (n : EReal))) (n : EReal)
      = Ideal.div (∑ i, p i * p i) (n : EReal)
          - Ideal.div (∑ j, p j) (n : EReal) * Ideal.div (∑ j, p j) (n : EReal) := by
  obtain ⟨q, hq⟩ : ∃ q : ι → ℝ, ∀ i, p i = ((q i : ℝ) : EReal) := ⟨fun i => (hp i).choose, fun i => (hp i).choose_spec⟩
  obtain rfl : p = fun i => ((q i : ℝ) : EReal) := funext hq
  simp only [Ideal.div_coe hn, coe_sum, ← EReal.coe_mul, ← EReal.coe_sub]
  exact congrArg _ (real_law q n hn hcard)

end Cert.VarianceLaw
-- ==== Proof.Finite.lean ====
/-
  Closure of "is a real number" on the extended reals, elementwise and over arrays.

  On the extended reals the sum, difference, product, maximum, a finite sum, the quotient by a nonzero real, the
  inverse square root of a positive real and the real power of a real are again real whenever their arguments
  are. Every array operation below either applies one of these at each index or copies elements of its operands
  to new places, so an array built from arrays of reals by these operations is an array of reals — whatever the
  integer index arrays of a gather or a scatter hold. A sum of squares of reals is moreover a nonnegative real,
  which stays nonnegative after the division by a positive real, and becomes positive once a positive real is
  added to it.
-/
import Idealize.ShloMosaic.PureOps.Ideal
import Idealize.ShloMosaic.PureOps.Ideal.Laws
import Idealize.ShloMosaic.Lib.ValueIdx

noncomputable section

namespace Cert.Finite

open Idealize.ShloMosaic

/-! ### Elements -/

/-- An extended real that is a real number. -/
def IsReal (x : EReal) : Prop := ∃ r : ℝ, x = (r : EReal)

/-- An extended real that is a nonnegative real number. -/
def IsNonnegReal (x : EReal) : Prop := ∃ r : ℝ, 0 ≤ r ∧ x = (r : EReal)

/-- An extended real that is a positive real number. -/
def IsPosReal (x : EReal) : Prop := ∃ r : ℝ, 0 < r ∧ x = (r : EReal)

theorem isReal_coe (r : ℝ) : IsReal (r : EReal) := ⟨r, rfl⟩
theorem isReal_zero : IsReal 0 := ⟨0, rfl⟩
theorem isReal_one : IsReal 1 := ⟨1, rfl⟩
theorem isNonnegReal_zero : IsNonnegReal 0 := ⟨0, le_refl _, rfl⟩

theorem IsNonnegReal.isReal {x : EReal} (h : IsNonnegReal x) : IsReal x := by
  obtain ⟨r, _, rfl⟩ := h; exact ⟨r, rfl⟩
theorem IsPosReal.isReal {x : EReal} (h : IsPosReal x) : IsReal x := by
  obtain ⟨r, _, rfl⟩ := h; exact ⟨r, rfl⟩
theorem IsPosReal.isNonnegReal {x : EReal} (h : IsPosReal x) : IsNonnegReal x := by
  obtain ⟨r, hr, rfl⟩ := h; exact ⟨r, hr.le, rfl⟩
theorem IsNonnegReal.nonneg {x : EReal} (h : IsNonnegReal x) : 0 ≤ x := by
  obtain ⟨r, hr, rfl⟩ := h; exact_mod_cast hr
theorem IsPosReal.pos {x : EReal} (h : IsPosReal x) : 0 < x := by
  obtain ⟨r, hr, rfl⟩ := h; exact_mod_cast hr

/-- A real is neither infinity. -/
theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r

/-- An extended real that is neither infinity is a real. -/
theorem isReal_of_ne {x : EReal} (ht : x ≠ ⊤) (hb : x ≠ ⊥) : IsReal x := by
  induction x using EReal.rec with
  | bot => exact absurd rfl hb
  | top => exact absurd rfl ht
  | coe r => exact ⟨r, rfl⟩

/-- An extended real whose absolute value (the larger of itself and its negation) is below positive infinity is a real. -/
theorem isReal_of_abs_lt_top {x : EReal} (h : max x (-x) < ⊤) : IsReal x := by
  induction x using EReal.rec with
  | bot => simp at h
  | top => simp at h
  | coe r => exact ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The square of a real is a nonnegative real. -/
theorem IsReal.mul_self {x : EReal} (hx : IsReal x) : IsNonnegReal (x * x) := by
  obtain ⟨a, rfl⟩ := hx; exact ⟨a * a, mul_self_nonneg a, (EReal.coe_mul a a).symm⟩

theorem IsNonnegReal.add {x y : EReal} (hx : IsNonnegReal x) (hy : IsNonnegReal y) : IsNonnegReal (x + y) := by
  obtain ⟨a, ha, rfl⟩ := hx; obtain ⟨b, hb, rfl⟩ := hy
  exact ⟨a + b, add_nonneg ha hb, (EReal.coe_add a b).symm⟩

/-- A nonnegative real plus a positive real is a positive real. -/
theorem IsNonnegReal.add_pos {x y : EReal} (hx : IsNonnegReal x) (hy : IsPosReal y) : IsPosReal (x + y) := by
  obtain ⟨a, ha, rfl⟩ := hx; obtain ⟨b, hb, rfl⟩ := hy
  exact ⟨a + b, add_pos_of_nonneg_of_pos ha hb, (EReal.coe_add a b).symm⟩

/-- A finite sum of reals is a real. -/
theorem isReal_sum {ι : Type} (S : Finset ι) (f : ι → EReal) (h : ∀ i ∈ S, IsReal (f i)) : IsReal (∑ i ∈ S, f i) := by
  classical
  induction S using Finset.induction_on with
  | empty => rw [Finset.sum_empty]; exact isReal_zero
  | insert a S ha ih =>
    rw [Finset.sum_insert ha]
    exact (h a (Finset.mem_insert_self a S)).add (ih fun i hi => h i (Finset.mem_insert_of_mem hi))

/-- A finite sum of nonnegative reals is a nonnegative real. -/
theorem isNonnegReal_sum {ι : Type} (S : Finset ι) (f : ι → EReal) (h : ∀ i ∈ S, IsNonnegReal (f i)) :
    IsNonnegReal (∑ i ∈ S, f i) := by
  classical
  induction S using Finset.induction_on with
  | empty => rw [Finset.sum_empty]; exact isNonnegReal_zero
  | insert a S ha ih =>
    rw [Finset.sum_insert ha]
    exact (h a (Finset.mem_insert_self a S)).add (ih fun i hi => h i (Finset.mem_insert_of_mem hi))

/-- The quotient of a real by a nonzero real is a real. -/
theorem IsReal.div {x : EReal} (hx : IsReal x) {y : ℝ} (hy : y ≠ 0) : IsReal (Ideal.div x (y : EReal)) := by
  rw [Ideal.div_coe hy]; exact hx.mul (isReal_coe _)

/-- The quotient of a nonnegative real by a positive real is a nonnegative real. -/
theorem IsNonnegReal.div {x : EReal} (hx : IsNonnegReal x) {y : ℝ} (hy : 0 < y) :
    IsNonnegReal (Ideal.div x (y : EReal)) := by
  obtain ⟨a, ha, rfl⟩ := hx
  rw [Ideal.div_coe hy.ne']
  exact ⟨a * (1 / y), mul_nonneg ha (one_div_pos.mpr hy).le, (EReal.coe_mul a (1 / y)).symm⟩

/-- The inverse square root of a positive real is a positive real. -/
theorem IsPosReal.rsqrt {x : EReal} (hx : IsPosReal x) : IsPosReal (Ideal.rsqrt x) := by
  obtain ⟨a, ha, rfl⟩ := hx
  rw [Ideal.rsqrt_coe, if_neg (not_lt.mpr ha.le), if_neg ha.ne']
  exact ⟨(Real.sqrt a)⁻¹, inv_pos.mpr (Real.sqrt_pos.mpr ha), rfl⟩

/-- A real raised to a real power is a real (the real power function is total). -/
theorem IsReal.pow {x y : EReal} (hx : IsReal x) (hy : IsReal y) : IsReal (Ideal.pow x y) := by
  obtain ⟨a, rfl⟩ := hx; obtain ⟨b, rfl⟩ := hy; exact ⟨Real.rpow a b, rfl⟩

/-! ### The constants of the program, as the reals their binary patterns denote -/

theorem ofBits_zero : Ideal.ofBits .f32 0x00000000#32 = 0 := Ideal.ofBits_zero_f32

theorem ofBits_one : Ideal.ofBits .f32 0x3F800000#32 = 1 := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

/-- The small constant added to a variance: 10995116 · 2⁻⁴⁰, a positive real. -/
theorem ofBits_eps : Ideal.ofBits .f32 0x3727C5AC#32 = ((10995116 * (2 : ℝ) ^ (-40 : Int) : ℝ) : EReal) := by
  simp [Ideal.ofBits, Ideal.ieee, -EReal.coe_mul]

/-- The pattern of positive infinity. -/
theorem ofBits_inf : Ideal.ofBits .f32 0x7F800000#32 = ⊤ := by
  simp [Ideal.ofBits, Ideal.ieee]

theorem isPosReal_eps : IsPosReal (Ideal.ofBits .f32 0x3727C5AC#32) :=
  ⟨10995116 * (2 : ℝ) ^ (-40 : Int), by positivity, ofBits_eps⟩

theorem isReal_ofBits_zero : IsReal (Ideal.ofBits .f32 0x00000000#32) := by rw [ofBits_zero]; exact isReal_zero
theorem isNonnegReal_ofBits_zero : IsNonnegReal (Ideal.ofBits .f32 0x00000000#32) := by
  rw [ofBits_zero]; exact isNonnegReal_zero
theorem isReal_ofBits_one : IsReal (Ideal.ofBits .f32 0x3F800000#32) := by rw [ofBits_one]; exact isReal_one
theorem isReal_ofBits_neg_half : IsReal (Ideal.ofBits .f32 0xBF000000#32) := by rw [ofBits_neg_half]; exact isReal_coe _
theorem isReal_ofBits_50000 : IsReal (Ideal.ofBits .f32 0x47435000#32) := by rw [ofBits_50000]; exact isReal_coe _
theorem isPosReal_ofBits_50000 : IsPosReal (Ideal.ofBits .f32 0x47435000#32) :=
  ⟨50000, by norm_num, ofBits_50000⟩

/-! ### Arrays -/

variable {s t : Shape} {φ : FTy}

/-- Every entry of the array is a real. -/
def AllReal {s : Shape} (x : s.Idx → EReal) : Prop := ∀ i, IsReal (x i)

/-- Every entry of the array is a nonnegative real. -/
def AllNonnegReal {s : Shape} (x : s.Idx → EReal) : Prop := ∀ i, IsNonnegReal (x i)

/-- Every entry of the array is a positive real. -/
def AllPosReal {s : Shape} (x : s.Idx → EReal) : Prop := ∀ i, IsPosReal (x i)

theorem AllPosReal.allReal {x : s.Idx → EReal} (h : AllPosReal x) : AllReal x := fun i => (h i).isReal
theorem AllNonnegReal.allReal {x : s.Idx → EReal} (h : AllNonnegReal x) : AllReal x := fun i => (h i).isReal
theorem AllPosReal.allNonnegReal {x : s.Idx → EReal} (h : AllPosReal x) : AllNonnegReal x := fun i => (h i).isNonnegReal

/-! #### Pointwise operations -/

theorem AllReal.addf {x y : FVec Ideal s φ} (hx : AllReal x) (hy : AllReal y) : AllReal (Idealize.ShloMosaic.addf x y) :=
  fun i => (hx i).add (hy i)
theorem AllReal.subf {x y : FVec Ideal s φ} (hx : AllReal x) (hy : AllReal y) : AllReal (Idealize.ShloMosaic.subf x y) :=
  fun i => (hx i).sub (hy i)
theorem AllReal.mulf {x y : FVec Ideal s φ} (hx : AllReal x) (hy : AllReal y) : AllReal (Idealize.ShloMosaic.mulf x y) :=
  fun i => (hx i).mul (hy i)
theorem AllReal.maximumf {x y : FVec Ideal s φ} (hx : AllReal x) (hy : AllReal y) : AllReal (Idealize.ShloMosaic.maximumf x y) :=
  fun i => (hx i).max (hy i)

/-- The entrywise square of an array of reals is an array of nonnegative reals. -/
theorem AllReal.mulf_self {x : FVec Ideal s φ} (hx : AllReal x) : AllNonnegReal (Idealize.ShloMosaic.mulf x x) :=
  fun i => (hx i).mul_self

/-- A nonnegative array plus a positive array is a positive array. -/
theorem AllNonnegReal.addf_pos {x y : FVec Ideal s φ} (hx : AllNonnegReal x) (hy : AllPosReal y) :
    AllPosReal (Idealize.ShloMosaic.addf x y) :=
  fun i => (hx i).add_pos (hy i)

/-- A constant array is real when its one value is. -/
theorem allReal_constant (s : Shape) {φ : FTy} (b : BitVec φ.bits) (h : IsReal (Ideal.ofBits φ b)) :
    AllReal (constant (F := Ideal) s φ b) := fun _ => h
theorem allNonnegReal_constant (s : Shape) {φ : FTy} (b : BitVec φ.bits) (h : IsNonnegReal (Ideal.ofBits φ b)) :
    AllNonnegReal (constant (F := Ideal) s φ b) := fun _ => h
theorem allPosReal_constant (s : Shape) {φ : FTy} (b : BitVec φ.bits) (h : IsPosReal (Ideal.ofBits φ b)) :
    AllPosReal (constant (F := Ideal) s φ b) := fun _ => h

/-- The quotient by an array of nonzero reals. -/
theorem AllReal.hostDivf {x y : FVec Ideal s φ} (hx : AllReal x) (hy : ∀ i, ∃ r : ℝ, r ≠ 0 ∧ y i = (r : EReal)) :
    AllReal (Host.divf x y) := fun i => by
  obtain ⟨r, hr, e⟩ := hy i
  show IsReal (Ideal.div (x i) (y i))
  rw [e]; exact (hx i).div hr

/-- The quotient of a nonnegative array by a positive array. -/
theorem AllNonnegReal.hostDivf {x y : FVec Ideal s φ} (hx : AllNonnegReal x) (hy : AllPosReal y) :
    AllNonnegReal (Host.divf x y) := fun i => by
  obtain ⟨r, hr, e⟩ := hy i
  show IsNonnegReal (Ideal.div (x i) (y i))
  rw [e]; exact (hx i).div hr

/-- The quotient of a real array by a positive array. -/
theorem AllReal.hostDivf_pos {x y : FVec Ideal s φ} (hx : AllReal x) (hy : AllPosReal y) :
    AllReal (Host.divf x y) :=
  hx.hostDivf fun i => by obtain ⟨r, hr, e⟩ := hy i; exact ⟨r, hr.ne', e⟩

/-- The inverse square root of a positive array. -/
theorem AllPosReal.hostRsqrt {x : FVec Ideal s φ} (hx : AllPosReal x) : AllPosReal (Host.rsqrt x) :=
  fun i => (hx i).rsqrt

/-- The power of a real array to a real array. -/
theorem AllReal.hostPowf {x y : FVec Ideal s φ} (hx : AllReal x) (hy : AllReal y) : AllReal (Host.powf x y) :=
  fun i => (hx i).pow (hy i)

/-- A selection between two real arrays is real, whatever the condition. -/
theorem AllReal.select (c : IVec s 1) {a b : s.Idx → EReal} (ha : AllReal a) (hb : AllReal b) :
    AllReal (Idealize.ShloMosaic.select c a b) := fun i => by
  show IsReal (if c i = 1 then a i else b i)
  split
  · exact ha i
  · exact hb i

/-- The inverse-square-root degree of a graph: where the degree is positive its power −1/2, elsewhere 0.
    It is real wherever the degree is. -/
theorem allReal_select_powf {d e z : FVec Ideal s φ} (c : IVec s 1) (hd : AllReal d) (he : AllReal e) (hz : AllReal z) :
    AllReal (Idealize.ShloMosaic.select c (Host.powf d e) z) :=
  AllReal.select c (hd.hostPowf he) hz

/-! #### Operations that move elements -/

/-- Every entry of a broadcast is an entry of its operand. -/
theorem AllReal.broadcastInDim {x : s.Idx → EReal} (hx : AllReal x) (t : Shape) (dims : Fin s.rank → Fin t.rank)
    (h : s.BroadcastsInDim t dims) : AllReal (Idealize.ShloMosaic.broadcastInDim t dims h x) :=
  fun _ => hx _
theorem AllPosReal.broadcastInDim {x : s.Idx → EReal} (hx : AllPosReal x) (t : Shape) (dims : Fin s.rank → Fin t.rank)
    (h : s.BroadcastsInDim t dims) : AllPosReal (Idealize.ShloMosaic.broadcastInDim t dims h x) :=
  fun _ => hx _
theorem AllNonnegReal.broadcastInDim {x : s.Idx → EReal} (hx : AllNonnegReal x) (t : Shape) (dims : Fin s.rank → Fin t.rank)
    (h : s.BroadcastsInDim t dims) : AllNonnegReal (Idealize.ShloMosaic.broadcastInDim t dims h x) :=
  fun _ => hx _

/-- Every entry of a reshaped array is an entry of its operand. -/
theorem AllReal.shapeCast {x : s.Idx → EReal} (hx : AllReal x) (t : Shape) (h : s.ShapeCasts t) :
    AllReal (Idealize.ShloMosaic.shapeCast t x h) :=
  fun _ => hx _

/-- Every entry of a gather is an entry of its operand, whatever the integer start indices are. -/
theorem AllReal.gather {si : Shape} {w : Nat} {x : s.Idx → EReal} (hx : AllReal x) (d : GatherDims s si t)
    (idx : IVec si w) : AllReal (Host.gather d x idx) :=
  fun _ => hx _

/-- Every entry of a concatenation is an entry of one of the joined arrays. -/
theorem allReal_concatenate (t : Shape) (a : Fin t.rank) (xs : List ((s : Shape) × (s.Idx → EReal)))
    (h : Shape.Concatenates (xs.map (·.1)) t a) (hxs : ∀ p ∈ xs, AllReal p.2) :
    AllReal (concatenate t a xs h) := fun j => by
  unfold concatenate
  exact hxs _ (List.getElem_mem _) _

/-! #### Sums -/

/-- A scatter with an add body: each entry is the operand's plus a finite sum of updates, whatever the integer
    scatter indices are. -/
theorem AllReal.scatterAdd {si u : Shape} {w : Nat} (d : ScatterDims s si u) {x : FVec Ideal s φ} (idx : IVec si w)
    {upd : FVec Ideal u φ} (hx : AllReal x) (hu : AllReal upd) : AllReal (Host.scatterAdd d x idx upd) := fun i => by
  show IsReal (x i + ∑ j ∈ Finset.univ.filter (fun j => d.resultIdx? j idx = some i), upd j)
  exact (hx i).add (isReal_sum _ _ fun j _ => hu j)

/-- A reduction by addition: each entry is the initial value plus a finite sum of entries of the operand. -/
theorem AllReal.reduceAdd {axes : List (Fin s.rank)} {u : Shape} {x : FVec Ideal s φ} {init : u.Idx → Ideal φ}
    (hx : AllReal x) (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (isReal_sum _ _ fun i _ => hx i)

/-- A reduction by addition of nonnegative reals from a nonnegative initial value. -/
theorem AllNonnegReal.reduceAdd {axes : List (Fin s.rank)} {u : Shape} {x : FVec Ideal s φ} {init : u.Idx → Ideal φ}
    (hx : AllNonnegReal x) (hi : AllNonnegReal init) (h : s.ReducesTo axes t) (hu : 0 < u.numel) :
    AllNonnegReal (Host.reduceAdd x init h hu) := fun j => by
  show IsNonnegReal (init (Shape.Idx.first hu) + ∑ i ∈ Finset.univ.filter (fun i => h.drop i = j), x i)
  exact (hi _).add (isNonnegReal_sum _ _ fun i _ => hx i)

/-- A matrix product: each entry is a finite sum of products of entries of the operands. -/
theorem AllReal.dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show IsReal (FloatOps.dotGeneral d prec .single lhs rhs j)
  rw [Ideal.dotGeneral_apply]
  exact isReal_sum _ _ fun k _ => (hl _).mul (hr _)

end Cert.Finite

end
-- ==== Proof.Bridge.lean ====
/-
  The reference program's layers, read index by index, and the step where the two programs differ.

  For each of the two normalised layers: the pre-activation p[r, c] is the aggregate plus the bias of column c; the
  column mean is the sum of the column divided by the number of rows; the reference's variance is the mean of the
  squared deviations from that mean; the layer's output is max(γ_c · (p − mean_c) · (var_c + ε)^(−1/2) + β_c, 0).
  When every pre-activation is a real number the variance equals the mean of the squares minus the squared mean,
  which is how the other program computes it from its two running sums; so the normalise-and-clip map fed those
  one-pass statistics is the reference's layer output.
-/
import proofs.«159056_j27436251087104_1_alg».proof.Proof.Gen.ReferenceIdeal.Read
import proofs.«159056_j27436251087104_1_alg».proof.Proof.Spec
import proofs.«159056_j27436251087104_1_alg».proof.Proof.VarianceLaw
import proofs.«159056_j27436251087104_1_alg».proof.Proof.Finite

set_option maxRecDepth 8192

noncomputable section

namespace Cert.ReferenceIdeal.Bridge

open Cert.ReferenceIdeal Cert.ReferenceIdeal.Gen Cert.ReferenceIdeal.Read
open Idealize.ShloMosaic Idealize.ShloMosaic.ValueIdx

/-- The column sum at (0, c) is the sum of column c over all rows. -/
theorem _root_.Cert.Spec.colSum_at {n f : Nat} (p : Cert.Spec.Arr2 n f) (c : Fin f) :
    Cert.Spec.colSum p (ix2 0 c) = ∑ r : Fin n, p (ix2 r c) := rfl
/-- The column sum of squares at (0, c) is the sum of the squares of column c over all rows. -/
theorem _root_.Cert.Spec.colSumSq_at {n f : Nat} (p : Cert.Spec.Arr2 n f) (c : Fin f) :
    Cert.Spec.colSumSq p (ix2 0 c) = ∑ r : Fin n, p (ix2 r c) * p (ix2 r c) := rfl

/-! ## Layer 1: 128 feature columns -/

section Layer1

variable (x0 : (⟨S50000x128, .f32⟩ : BufTy).Contents (Elt Ideal)) (x1 x2 : (⟨S600000, .i32⟩ : BufTy).Contents (Elt Ideal)) (x3 : (⟨S600000, .f32⟩ : BufTy).Contents (Elt Ideal)) (x4 : (⟨S128x128, .f32⟩ : BufTy).Contents (Elt Ideal)) (x5 x6 x7 : (⟨S128, .f32⟩ : BufTy).Contents (Elt Ideal))

theorem l1_idx_row (r : Fin 50000) (c : Fin 128) : idx_main_v44 (ix2 r c) = ix2 0 c :=
  funext fun a => by match a with | ⟨0, _⟩ => rfl | ⟨1, _⟩ => rfl
theorem l1_idx_row50 (r : Fin 50000) (c : Fin 128) : idx_main_v50 (ix2 r c) = ix2 0 c :=
  funext fun a => by match a with | ⟨0, _⟩ => rfl | ⟨1, _⟩ => rfl
theorem l1_idx_row57 (r : Fin 50000) (c : Fin 128) : idx_main_v57 (ix2 r c) = ix2 0 c :=
  funext fun a => by match a with | ⟨0, _⟩ => rfl | ⟨1, _⟩ => rfl
theorem l1_idx_row60 (r : Fin 50000) (c : Fin 128) : idx_main_v60 (ix2 r c) = ix2 0 c :=
  funext fun a => by match a with | ⟨0, _⟩ => rfl | ⟨1, _⟩ => rfl
theorem l1_idx_row66 (r : Fin 50000) (c : Fin 128) : idx_main_v66 (ix2 r c) = ix2 0 c :=
  funext fun a => by match a with | ⟨0, _⟩ => rfl | ⟨1, _⟩ => rfl
theorem l1_idx_row69 (r : Fin 50000) (c : Fin 128) : idx_main_v69 (ix2 r c) = ix2 0 c :=
  funext fun a => by match a with | ⟨0, _⟩ => rfl | ⟨1, _⟩ => rfl
theorem l1_idx_col43 (c : Fin 128) : idx_main_v43 (ix2 0 c) = ix1 c :=
  funext fun a => by match a with | ⟨0, _⟩ => rfl
theorem l1_idx_col49 (c : Fin 128) : idx_main_v49 (ix2 0 c) = ix1 c :=
  funext fun a => by match a with | ⟨0, _⟩ => rfl
theorem l1_idx_col56 (c : Fin 128) : idx_main_v56 (ix2 0 c) = ix1 c :=
  funext fun a => by match a with | ⟨0, _⟩ => rfl
theorem l1_idx_col59 (c : Fin 128) : idx_main_v59 (ix2 0 c) = ix1 c :=
  funext fun a => by match a with | ⟨0, _⟩ => rfl
theorem l1_idx_col65 (c : Fin 128) : idx_main_v65 (ix2 0 c) = ix1 c :=
  funext fun a => by match a with | ⟨0, _⟩ => rfl
theorem l1_idx_col68 (c : Fin 128) : idx_main_v68 (ix2 0 c) = ix1 c :=
  funext fun a => by match a with | ⟨0, _⟩ => rfl
theorem l1_idx_sum46 (c : Fin 128) (k : Fin 50000) : idx_main_v46 (ix1 c) k = ix2 k c :=
  funext fun a => by match a with | ⟨0, _⟩ => rfl | ⟨1, _⟩ => rfl
theorem l1_idx_sum53 (c : Fin 128) (k : Fin 50000) : idx_main_v53 (ix1 c) k = ix2 k c :=
  funext fun a => by match a with | ⟨0, _⟩ => rfl | ⟨1, _⟩ => rfl

/-- The pre-activation at (r, c): the aggregate plus the bias entry of column c. -/
theorem l1_pre_at (r : Fin 50000) (c : Fin 128) :
    val_main_v45 (F := Ideal) x0 x1 x2 x3 x4 x5 (ix2 r c) = val_main_v42 (F := Ideal) x0 x1 x2 x3 x4 (ix2 r c) + x5 (ix1 c) := by
  rw [val_main_v45_apply, val_main_v44_apply, l1_idx_row, val_main_v43_apply, l1_idx_col43]
  rfl

/-- The column mean: the sum of the column's pre-activations divided by the number of rows. -/
theorem l1_mean_at (c : Fin 128) :
    val_main_v48 (F := Ideal) x0 x1 x2 x3 x4 x5 (ix1 c)
      = Ideal.div (∑ k : Fin 50000, val_main_v45 (F := Ideal) x0 x1 x2 x3 x4 x5 (ix2 k c)) (Ideal.ofBits .f32 0x47435000#32) := by
  rw [val_main_v48_apply, val_main_v46_apply, val_main_v47_apply, val_main_cst_10_apply, val_main_cst_11_apply]
  simp only [l1_idx_sum46]
  show Ideal.div (Ideal.ofBits .f32 0x00000000#32 + _) _ = _
  rw [Ideal.ofBits_zero_f32, zero_add]
  rfl

/-- The column variance as the reference computes it: the mean of the squared deviations from the column mean. -/
theorem l1_var_at (c : Fin 128) :
    val_main_v55 (F := Ideal) x0 x1 x2 x3 x4 x5 (ix1 c)
      = Ideal.div (∑ k : Fin 50000, (val_main_v45 (F := Ideal) x0 x1 x2 x3 x4 x5 (ix2 k c) - val_main_v48 (F := Ideal) x0 x1 x2 x3 x4 x5 (ix1 c))
          * (val_main_v45 (F := Ideal) x0 x1 x2 x3 x4 x5 (ix2 k c) - val_main_v48 (F := Ideal) x0 x1 x2 x3 x4 x5 (ix1 c))) (Ideal.ofBits .f32 0x47435000#32) := by
  rw [val_main_v55_apply, val_main_v53_apply, val_main_v54_apply, val_main_cst_12_apply, val_main_cst_13_apply]
  simp only [l1_idx_sum53, val_main_v52_apply, val_main_v51_apply, val_main_v50_apply, l1_idx_row50, val_main_v49_apply, l1_idx_col49]
  show Ideal.div (Ideal.ofBits .f32 0x00000000#32 + _) _ = _
  rw [Ideal.ofBits_zero_f32, zero_add]
  rfl

/-- The layer's output at (r, c): max(γ_c · (p − mean_c) · (var_c + ε)^(−1/2) + β_c, 0). -/
theorem l1_out_at (r : Fin 50000) (c : Fin 128) :
    val_main_v71 (F := Ideal) x0 x1 x2 x3 x4 x5 x6 x7 (ix2 r c)
      = max (x6 (ix1 c) * (val_main_v45 (F := Ideal) x0 x1 x2 x3 x4 x5 (ix2 r c) - val_main_v48 (F := Ideal) x0 x1 x2 x3 x4 x5 (ix1 c))
          * Ideal.rsqrt (val_main_v55 (F := Ideal) x0 x1 x2 x3 x4 x5 (ix1 c) + Cert.Spec.eps) + x7 (ix1 c)) 0 := by
  rw [val_main_v71_apply, val_main_v70_apply, val_main_v67_apply, val_main_v61_apply, val_main_v60_apply, l1_idx_row60, val_main_v59_apply, l1_idx_col59,
    val_main_v58_apply, val_main_v57_apply, l1_idx_row57, val_main_v56_apply, l1_idx_col56,
    val_main_v66_apply, l1_idx_row66, val_main_v65_apply, l1_idx_col65, val_main_v64_apply, val_main_v63_apply, val_main_v62_apply, val_main_cst_14_apply,
    val_main_v69_apply, l1_idx_row69, val_main_v68_apply, l1_idx_col68, val_main_call1_v0_apply, val_main_call1_cst_apply]
  show max _ (Ideal.ofBits .f32 0x00000000#32) = _
  rw [Ideal.ofBits_zero_f32]
  rfl

/-- The two variance formulas agree on real pre-activations: the reference's mean of squared deviations is the
    mean of the squares minus the square of the mean. -/
theorem l1_var_one_pass (hP : ∀ i, ∃ r : ℝ, val_main_v45 (F := Ideal) x0 x1 x2 x3 x4 x5 i = (r : EReal)) (c : Fin 128) :
    val_main_v55 (F := Ideal) x0 x1 x2 x3 x4 x5 (ix1 c)
      = Ideal.div (∑ k : Fin 50000, val_main_v45 (F := Ideal) x0 x1 x2 x3 x4 x5 (ix2 k c) * val_main_v45 (F := Ideal) x0 x1 x2 x3 x4 x5 (ix2 k c)) (Ideal.ofBits .f32 0x47435000#32)
        - val_main_v48 (F := Ideal) x0 x1 x2 x3 x4 x5 (ix1 c) * val_main_v48 (F := Ideal) x0 x1 x2 x3 x4 x5 (ix1 c) := by
  rw [l1_var_at, l1_mean_at, Cert.Finite.ofBits_50000]
  exact Cert.VarianceLaw.ereal_law (fun k : Fin 50000 => val_main_v45 (F := Ideal) x0 x1 x2 x3 x4 x5 (ix2 k c)) (fun k => hP _) 50000
    (by norm_num) (by rw [Fintype.card_fin]; exact Nat.cast_ofNat)

/-- THE LAYER: the normalise-and-clip map over the aggregate, fed the one-pass statistics (column sums and sums of
    squares of the pre-activation divided by the row count, the variance as mean of squares minus squared mean) and the
    bias, scale and shift rows, is the reference's layer output — provided every pre-activation is real. -/
theorem l1_layer (hP : ∀ i, ∃ r : ℝ, val_main_v45 (F := Ideal) x0 x1 x2 x3 x4 x5 i = (r : EReal))
    (b mu var g be : Cert.Spec.Arr2 1 128)
    (hb : ∀ c : Fin 128, b (ix2 0 c) = x5 (ix1 c)) (hg : ∀ c : Fin 128, g (ix2 0 c) = x6 (ix1 c))
    (hbe : ∀ c : Fin 128, be (ix2 0 c) = x7 (ix1 c))
    (hmu : ∀ c : Fin 128, mu (ix2 0 c)
      = Ideal.div (Cert.Spec.colSum (Cert.Spec.pre (val_main_v42 (F := Ideal) x0 x1 x2 x3 x4) b) (ix2 0 c)) (Ideal.ofBits .f32 0x47435000#32))
    (hvar : ∀ c : Fin 128, var (ix2 0 c)
      = Ideal.div (Cert.Spec.colSumSq (Cert.Spec.pre (val_main_v42 (F := Ideal) x0 x1 x2 x3 x4) b) (ix2 0 c)) (Ideal.ofBits .f32 0x47435000#32)
        - mu (ix2 0 c) * mu (ix2 0 c)) :
    Cert.Spec.normRelu (val_main_v42 (F := Ideal) x0 x1 x2 x3 x4) b mu var g be = val_main_v71 (F := Ideal) x0 x1 x2 x3 x4 x5 x6 x7 := by
  have hpre : ∀ (r : Fin 50000) (c : Fin 128),
      Cert.Spec.pre (val_main_v42 (F := Ideal) x0 x1 x2 x3 x4) b (ix2 r c) = val_main_v45 (F := Ideal) x0 x1 x2 x3 x4 x5 (ix2 r c) := fun r c => by
    rw [l1_pre_at, ← hb c]; rfl
  have hmu' : ∀ c : Fin 128, mu (ix2 0 c) = val_main_v48 (F := Ideal) x0 x1 x2 x3 x4 x5 (ix1 c) := fun c => by
    rw [hmu c, l1_mean_at, Cert.Spec.colSum_at]
    simp only [hpre]
  have hvar' : ∀ c : Fin 128, var (ix2 0 c) = val_main_v55 (F := Ideal) x0 x1 x2 x3 x4 x5 (ix1 c) := fun c => by
    rw [hvar c, hmu' c, l1_var_one_pass x0 x1 x2 x3 x4 x5 hP c, Cert.Spec.colSumSq_at]
    simp only [hpre]
  funext i
  obtain ⟨r, c, rfl⟩ : ∃ (r : Fin 50000) (c : Fin 128), i = ix2 r c := ⟨i 0, i 1, eq_ix2 i⟩
  rw [l1_out_at]
  show max (g (ix2 0 c) * (val_main_v42 (F := Ideal) x0 x1 x2 x3 x4 (ix2 r c) + b (ix2 0 c) - mu (ix2 0 c))
      * Ideal.rsqrt (var (ix2 0 c) + Cert.Spec.eps) + be (ix2 0 c)) 0 = _
  rw [hg c, hbe c, hmu' c, hvar' c, hb c, ← l1_pre_at]

end Layer1

/-! ## Layer 2: 64 feature columns -/

section Layer2

variable (x0 : (⟨S50000x128, .f32⟩ : BufTy).Contents (Elt Ideal)) (x1 x2 : (⟨S600000, .i32⟩ : BufTy).Contents (Elt Ideal)) (x3 : (⟨S600000, .f32⟩ : BufTy).Contents (Elt Ideal)) (x4 : (⟨S128x128, .f32⟩ : BufTy).Contents (Elt Ideal)) (x5 x6 x7 : (⟨S128, .f32⟩ : BufTy).Contents (Elt Ideal)) (x8 : (⟨S128x64, .f32⟩ : BufTy).Contents (Elt Ideal)) (x9 x10 x11 : (⟨S64, .f32⟩ : BufTy).Contents (Elt Ideal))

theorem l2_idx_row (r : Fin 50000) (c : Fin 64) : idx_main_v87 (ix2 r c) = ix2 0 c :=
  funext fun a => by match a with | ⟨0, _⟩ => rfl | ⟨1, _⟩ => rfl
theorem l2_idx_row50 (r : Fin 50000) (c : Fin 64) : idx_main_v93 (ix2 r c) = ix2 0 c :=
  funext fun a => by match a with | ⟨0, _⟩ => rfl | ⟨1, _⟩ => rfl
theorem l2_idx_row57 (r : Fin 50000) (c : Fin 64) : idx_main_v100 (ix2 r c) = ix2 0 c :=
  funext fun a => by match a with | ⟨0, _⟩ => rfl | ⟨1, _⟩ => rfl
theorem l2_idx_row60 (r : Fin 50000) (c : Fin 64) : idx_main_v103 (ix2 r c) = ix2 0 c :=
  funext fun a => by match a with | ⟨0, _⟩ => rfl | ⟨1, _⟩ => rfl
theorem l2_idx_row66 (r : Fin 50000) (c : Fin 64) : idx_main_v109 (ix2 r c) = ix2 0 c :=
  funext fun a => by match a with | ⟨0, _⟩ => rfl | ⟨1, _⟩ => rfl
theorem l2_idx_row69 (r : Fin 50000) (c : Fin 64) : idx_main_v112 (ix2 r c) = ix2 0 c :=
  funext fun a => by match a with | ⟨0, _⟩ => rfl | ⟨1, _⟩ => rfl
theorem l2_idx_col43 (c : Fin 64) : idx_main_v86 (ix2 0 c) = ix1 c :=
  funext fun a => by match a with | ⟨0, _⟩ => rfl
theorem l2_idx_col49 (c : Fin 64) : idx_main_v92 (ix2 0 c) = ix1 c :=
  funext fun a => by match a with | ⟨0, _⟩ => rfl
theorem l2_idx_col56 (c : Fin 64) : idx_main_v99 (ix2 0 c) = ix1 c :=
  funext fun a => by match a with | ⟨0, _⟩ => rfl
theorem l2_idx_col59 (c : Fin 64) : idx_main_v102 (ix2 0 c) = ix1 c :=
  funext fun a => by match a with | ⟨0, _⟩ => rfl
theorem l2_idx_col65 (c : Fin 64) : idx_main_v108 (ix2 0 c) = ix1 c :=
  funext fun a => by match a with | ⟨0, _⟩ => rfl
theorem l2_idx_col68 (c : Fin 64) : idx_main_v111 (ix2 0 c) = ix1 c :=
  funext fun a => by match a with | ⟨0, _⟩ => rfl
theorem l2_idx_sum46 (c : Fin 64) (k : Fin 50000) : idx_main_v89 (ix1 c) k = ix2 k c :=
  funext fun a => by match a with | ⟨0, _⟩ => rfl | ⟨1, _⟩ => rfl
theorem l2_idx_sum53 (c : Fin 64) (k : Fin 50000) : idx_main_v96 (ix1 c) k = ix2 k c :=
  funext fun a => by match a with | ⟨0, _⟩ => rfl | ⟨1, _⟩ => rfl

/-- The pre-activation at (r, c): the aggregate plus the bias entry of column c. -/
theorem l2_pre_at (r : Fin 50000) (c : Fin 64) :
    val_main_v88 (F := Ideal) x0 x1 x2 x3 x4 x5 x6 x7 x8 x9 (ix2 r c) = val_main_v85 (F := Ideal) x0 x1 x2 x3 x4 x5 x6 x7 x8 (ix2 r c) + x9 (ix1 c) := by
  rw [val_main_v88_apply, val_main_v87_apply, l2_idx_row, val_main_v86_apply, l2_idx_col43]
  rfl

/-- The column mean: the sum of the column's pre-activations divided by the number of rows. -/
theorem l2_mean_at (c : Fin 64) :
    val_main_v91 (F := Ideal) x0 x1 x2 x3 x4 x5 x6 x7 x8 x9 (ix1 c)
      = Ideal.div (∑ k : Fin 50000, val_main_v88 (F := Ideal) x0 x1 x2 x3 x4 x5 x6 x7 x8 x9 (ix2 k c)) (Ideal.ofBits .f32 0x47435000#32) := by
  rw [val_main_v91_apply, val_main_v89_apply, val_main_v90_apply, val_main_cst_18_apply, val_main_cst_19_apply]
  simp only [l2_idx_sum46]
  show Ideal.div (Ideal.ofBits .f32 0x00000000#32 + _) _ = _
  rw [Ideal.ofBits_zero_f32, zero_add]
  rfl

/-- The column variance as the reference computes it: the mean of the squared deviations from the column mean. -/
theorem l2_var_at (c : Fin 64) :
    val_main_v98 (F := Ideal) x0 x1 x2 x3 x4 x5 x6 x7 x8 x9 (ix1 c)
      = Ideal.div (∑ k : Fin 50000, (val_main_v88 (F := Ideal) x0 x1 x2 x3 x4 x5 x6 x7 x8 x9 (ix2 k c) - val_main_v91 (F := Ideal) x0 x1 x2 x3 x4 x5 x6 x7 x8 x9 (ix1 c))
          * (val_main_v88 (F := Ideal) x0 x1 x2 x3 x4 x5 x6 x7 x8 x9 (ix2 k c) - val_main_v91 (F := Ideal) x0 x1 x2 x3 x4 x5 x6 x7 x8 x9 (ix1 c))) (Ideal.ofBits .f32 0x47435000#32) := by
  rw [val_main_v98_apply, val_main_v96_apply, val_main_v97_apply, val_main_cst_20_apply, val_main_cst_21_apply]
  simp only [l2_idx_sum53, val_main_v95_apply, val_main_v94_apply, val_main_v93_apply, l2_idx_row50, val_main_v92_apply, l2_idx_col49]
  show Ideal.div (Ideal.ofBits .f32 0x00000000#32 + _) _ = _
  rw [Ideal.ofBits_zero_f32, zero_add]
  rfl

/-- The layer's output at (r, c): max(γ_c · (p − mean_c) · (var_c + ε)^(−1/2) + β_c, 0). -/
theorem l2_out_at (r : Fin 50000) (c : Fin 64) :
    val_main_v114 (F := Ideal) x0 x1 x2 x3 x4 x5 x6 x7 x8 x9 x10 x11 (ix2 r c)
      = max (x10 (ix1 c) * (val_main_v88 (F := Ideal) x0 x1 x2 x3 x4 x5 x6 x7 x8 x9 (ix2 r c) - val_main_v91 (F := Ideal) x0 x1 x2 x3 x4 x5 x6 x7 x8 x9 (ix1 c))
          * Ideal.rsqrt (val_main_v98 (F := Ideal) x0 x1 x2 x3 x4 x5 x6 x7 x8 x9 (ix1 c) + Cert.Spec.eps) + x11 (ix1 c)) 0 := by
  rw [val_main_v114_apply, val_main_v113_apply, val_main_v110_apply, val_main_v104_apply, val_main_v103_apply, l2_idx_row60, val_main_v102_apply, l2_idx_col59,
    val_main_v101_apply, val_main_v100_apply, l2_idx_row57, val_main_v99_apply, l2_idx_col56,
    val_main_v109_apply, l2_idx_row66, val_main_v108_apply, l2_idx_col65, val_main_v107_apply, val_main_v106_apply, val_main_v105_apply, val_main_cst_22_apply,
    val_main_v112_apply, l2_idx_row69, val_main_v111_apply, l2_idx_col68, val_main_call2_v0_apply, val_main_call2_cst_apply]
  show max _ (Ideal.ofBits .f32 0x00000000#32) = _
  rw [Ideal.ofBits_zero_f32]
  rfl

/-- The two variance formulas agree on real pre-activations: the reference's mean of squared deviations is the
    mean of the squares minus the square of the mean. -/
theorem l2_var_one_pass (hP : ∀ i, ∃ r : ℝ, val_main_v88 (F := Ideal) x0 x1 x2 x3 x4 x5 x6 x7 x8 x9 i = (r : EReal)) (c : Fin 64) :
    val_main_v98 (F := Ideal) x0 x1 x2 x3 x4 x5 x6 x7 x8 x9 (ix1 c)
      = Ideal.div (∑ k : Fin 50000, val_main_v88 (F := Ideal) x0 x1 x2 x3 x4 x5 x6 x7 x8 x9 (ix2 k c) * val_main_v88 (F := Ideal) x0 x1 x2 x3 x4 x5 x6 x7 x8 x9 (ix2 k c)) (Ideal.ofBits .f32 0x47435000#32)
        - val_main_v91 (F := Ideal) x0 x1 x2 x3 x4 x5 x6 x7 x8 x9 (ix1 c) * val_main_v91 (F := Ideal) x0 x1 x2 x3 x4 x5 x6 x7 x8 x9 (ix1 c) := by
  rw [l2_var_at, l2_mean_at, Cert.Finite.ofBits_50000]
  exact Cert.VarianceLaw.ereal_law (fun k : Fin 50000 => val_main_v88 (F := Ideal) x0 x1 x2 x3 x4 x5 x6 x7 x8 x9 (ix2 k c)) (fun k => hP _) 50000
    (by norm_num) (by rw [Fintype.card_fin]; exact Nat.cast_ofNat)

/-- THE LAYER: the normalise-and-clip map over the aggregate, fed the one-pass statistics (column sums and sums of
    squares of the pre-activation divided by the row count, the variance as mean of squares minus squared mean) and the
    bias, scale and shift rows, is the reference's layer output — provided every pre-activation is real. -/
theorem l2_layer (hP : ∀ i, ∃ r : ℝ, val_main_v88 (F := Ideal) x0 x1 x2 x3 x4 x5 x6 x7 x8 x9 i = (r : EReal))
    (b mu var g be : Cert.Spec.Arr2 1 64)
    (hb : ∀ c : Fin 64, b (ix2 0 c) = x9 (ix1 c)) (hg : ∀ c : Fin 64, g (ix2 0 c) = x10 (ix1 c))
    (hbe : ∀ c : Fin 64, be (ix2 0 c) = x11 (ix1 c))
    (hmu : ∀ c : Fin 64, mu (ix2 0 c)
      = Ideal.div (Cert.Spec.colSum (Cert.Spec.pre (val_main_v85 (F := Ideal) x0 x1 x2 x3 x4 x5 x6 x7 x8) b) (ix2 0 c)) (Ideal.ofBits .f32 0x47435000#32))
    (hvar : ∀ c : Fin 64, var (ix2 0 c)
      = Ideal.div (Cert.Spec.colSumSq (Cert.Spec.pre (val_main_v85 (F := Ideal) x0 x1 x2 x3 x4 x5 x6 x7 x8) b) (ix2 0 c)) (Ideal.ofBits .f32 0x47435000#32)
        - mu (ix2 0 c) * mu (ix2 0 c)) :
    Cert.Spec.normRelu (val_main_v85 (F := Ideal) x0 x1 x2 x3 x4 x5 x6 x7 x8) b mu var g be = val_main_v114 (F := Ideal) x0 x1 x2 x3 x4 x5 x6 x7 x8 x9 x10 x11 := by
  have hpre : ∀ (r : Fin 50000) (c : Fin 64),
      Cert.Spec.pre (val_main_v85 (F := Ideal) x0 x1 x2 x3 x4 x5 x6 x7 x8) b (ix2 r c) = val_main_v88 (F := Ideal) x0 x1 x2 x3 x4 x5 x6 x7 x8 x9 (ix2 r c) := fun r c => by
    rw [l2_pre_at, ← hb c]; rfl
  have hmu' : ∀ c : Fin 64, mu (ix2 0 c) = val_main_v91 (F := Ideal) x0 x1 x2 x3 x4 x5 x6 x7 x8 x9 (ix1 c) := fun c => by
    rw [hmu c, l2_mean_at, Cert.Spec.colSum_at]
    simp only [hpre]
  have hvar' : ∀ c : Fin 64, var (ix2 0 c) = val_main_v98 (F := Ideal) x0 x1 x2 x3 x4 x5 x6 x7 x8 x9 (ix1 c) := fun c => by
    rw [hvar c, hmu' c, l2_var_one_pass x0 x1 x2 x3 x4 x5 x6 x7 x8 x9 hP c, Cert.Spec.colSumSq_at]
    simp only [hpre]
  funext i
  obtain ⟨r, c, rfl⟩ : ∃ (r : Fin 50000) (c : Fin 64), i = ix2 r c := ⟨i 0, i 1, eq_ix2 i⟩
  rw [l2_out_at]
  show max (g (ix2 0 c) * (val_main_v85 (F := Ideal) x0 x1 x2 x3 x4 x5 x6 x7 x8 (ix2 r c) + b (ix2 0 c) - mu (ix2 0 c))
      * Ideal.rsqrt (var (ix2 0 c) + Cert.Spec.eps) + be (ix2 0 c)) 0 = _
  rw [hg c, hbe c, hmu' c, hvar' c, hb c, ← l2_pre_at]

end Layer2

end Cert.ReferenceIdeal.Bridge

end
-- ==== Proof.BridgeMM.lean ====
/-
  The reference's three matrix products are the matrix product of the specification, and its last stage is the
  pre-activation of the specification.

  Each dense layer of the reference multiplies the layer's input by a weight matrix: entry (r, c) of the result is
  the sum over l of input[r, l] · weight[l, c]. The last stage adds the bias row to the aggregate, entry by entry:
  out[r, c] = aggregate[r, c] + bias[c].
-/
import proofs.«159056_j27436251087104_1_alg».proof.Proof.Gen.ReferenceIdeal.Read
import proofs.«159056_j27436251087104_1_alg».proof.Proof.Spec

noncomputable section

namespace Cert.ReferenceIdeal.BridgeMM

open Cert.ReferenceIdeal Cert.ReferenceIdeal.Gen Cert.ReferenceIdeal.Read
open Idealize.ShloMosaic Idealize.ShloMosaic.ValueIdx

/-! ### The operand indices of the three products: row (i 0) and column l on the left, row l and column (i 1) on the right -/

theorem lidx_v29 (i : S50000x128.Idx) (k : Fin 128) : lidx_main_v29 i k = ix2 (i 0) k :=
  funext fun a => by match a with | ⟨0, _⟩ => rfl | ⟨1, _⟩ => rfl
theorem ridx_v29 (i : S50000x128.Idx) (k : Fin 128) : ridx_main_v29 i k = ix2 k (i 1) :=
  funext fun a => by match a with | ⟨0, _⟩ => rfl | ⟨1, _⟩ => rfl
theorem lidx_v72 (i : S50000x64.Idx) (k : Fin 128) : lidx_main_v72 i k = ix2 (i 0) k :=
  funext fun a => by match a with | ⟨0, _⟩ => rfl | ⟨1, _⟩ => rfl
theorem ridx_v72 (i : S50000x64.Idx) (k : Fin 128) : ridx_main_v72 i k = ix2 k (i 1) :=
  funext fun a => by match a with | ⟨0, _⟩ => rfl | ⟨1, _⟩ => rfl
theorem lidx_v115 (i : S50000x32.Idx) (k : Fin 64) : lidx_main_v115 i k = ix2 (i 0) k :=
  funext fun a => by match a with | ⟨0, _⟩ => rfl | ⟨1, _⟩ => rfl
theorem ridx_v115 (i : S50000x32.Idx) (k : Fin 64) : ridx_main_v115 i k = ix2 k (i 1) :=
  funext fun a => by match a with | ⟨0, _⟩ => rfl | ⟨1, _⟩ => rfl

/-! ### The three products -/

/-- Layer 1's product of the node features and the first weight matrix. -/
theorem mm_v29 (x0 : (⟨S50000x128, .f32⟩ : BufTy).Contents (Elt Ideal)) (x4 : (⟨S128x128, .f32⟩ : BufTy).Contents (Elt Ideal)) :
    val_main_v29 (F := Ideal) x0 x4 = Cert.Spec.mm (n := 50000) (k := 128) (p := 128) x0 x4 := by
  funext i
  rw [val_main_v29_apply]
  unfold Cert.Spec.mm
  refine Finset.sum_congr rfl fun k _ => ?_
  rw [lidx_v29, ridx_v29]
  rfl

/-- Layer 2's product of layer 1's output and the second weight matrix. -/
theorem mm_v72 (x0 : (⟨S50000x128, .f32⟩ : BufTy).Contents (Elt Ideal)) (x1 : (⟨S600000, .i32⟩ : BufTy).Contents (Elt Ideal)) (x2 : (⟨S600000, .i32⟩ : BufTy).Contents (Elt Ideal)) (x3 : (⟨S600000, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x64, .f32⟩ : BufTy).Contents (Elt Ideal)) :
    val_main_v72 (F := Ideal) x0 x1 x2 x3 x4 x5 x6 x7 x8
      = Cert.Spec.mm (n := 50000) (k := 128) (p := 64) (val_main_v71 (F := Ideal) x0 x1 x2 x3 x4 x5 x6 x7) x8 := by
  funext i
  rw [val_main_v72_apply]
  generalize val_main_v71 (F := Ideal) x0 x1 x2 x3 x4 x5 x6 x7 = y
  unfold Cert.Spec.mm
  refine Finset.sum_congr rfl fun k _ => ?_
  rw [lidx_v72, ridx_v72]
  rfl

/-- Layer 3's product of layer 2's output and the third weight matrix. -/
theorem mm_v115 (x0 : (⟨S50000x128, .f32⟩ : BufTy).Contents (Elt Ideal)) (x1 : (⟨S600000, .i32⟩ : BufTy).Contents (Elt Ideal)) (x2 : (⟨S600000, .i32⟩ : BufTy).Contents (Elt Ideal)) (x3 : (⟨S600000, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64x32, .f32⟩ : BufTy).Contents (Elt Ideal)) :
    val_main_v115 (F := Ideal) x0 x1 x2 x3 x4 x5 x6 x7 x8 x9 x10 x11 x12
      = Cert.Spec.mm (n := 50000) (k := 64) (p := 32) (val_main_v114 (F := Ideal) x0 x1 x2 x3 x4 x5 x6 x7 x8 x9 x10 x11) x12 := by
  funext i
  rw [val_main_v115_apply]
  generalize val_main_v114 (F := Ideal) x0 x1 x2 x3 x4 x5 x6 x7 x8 x9 x10 x11 = y
  unfold Cert.Spec.mm
  refine Finset.sum_congr rfl fun k _ => ?_
  rw [lidx_v115, ridx_v115]
  rfl

/-! ### The last stage -/

theorem idx_v130 (r : Fin 50000) (c : Fin 32) : idx_main_v130 (ix2 r c) = ix2 0 c :=
  funext fun a => by match a with | ⟨0, _⟩ => rfl | ⟨1, _⟩ => rfl
theorem idx_v129 (c : Fin 32) : idx_main_v129 (ix2 0 c) = ix1 c :=
  funext fun a => by match a with | ⟨0, _⟩ => rfl

/-- The reference's result is the last aggregate plus the bias row, for any row array that holds the bias. -/
theorem pre_v131 (x0 : (⟨S50000x128, .f32⟩ : BufTy).Contents (Elt Ideal)) (x1 : (⟨S600000, .i32⟩ : BufTy).Contents (Elt Ideal)) (x2 : (⟨S600000, .i32⟩ : BufTy).Contents (Elt Ideal)) (x3 : (⟨S600000, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64x32, .f32⟩ : BufTy).Contents (Elt Ideal)) (x13 : (⟨S32, .f32⟩ : BufTy).Contents (Elt Ideal))
    (b : Cert.Spec.Arr2 1 32) (hb : ∀ c : Fin 32, b (ix2 0 c) = x13 (ix1 c)) :
    Cert.Spec.pre (n := 50000) (f := 32) (val_main_v128 (F := Ideal) x0 x1 x2 x3 x4 x5 x6 x7 x8 x9 x10 x11 x12) b
      = val_main_v131 (F := Ideal) x0 x1 x2 x3 x4 x5 x6 x7 x8 x9 x10 x11 x12 x13 := by
  funext i
  obtain ⟨r, c, rfl⟩ : ∃ (r : Fin 50000) (c : Fin 32), i = ix2 r c := ⟨i 0, i 1, eq_ix2 i⟩
  rw [val_main_v131_apply, val_main_v130_apply, idx_v130, val_main_v129_apply, idx_v129, ← hb c]
  rfl

end Cert.ReferenceIdeal.BridgeMM

end
-- ==== Proof.RefFinite.lean ====
/-
  Every intermediate array of the reference up to the second normalisation is an array of real numbers when the
  float arguments are.

  The reference is a chain of operations, each applied to earlier results. Going down the chain, every float
  result is real because its operands are: the constants are reals, a broadcast, a gather and a concatenation
  only copy entries, the pointwise sums, differences, products and maxima of reals are real, and a scatter with
  an add body, a reduction by addition and a matrix product are finite sums of reals. The integer arrays of
  edge endpoints need no hypothesis: whatever they hold, a gather reads some entry of its operand and a scatter
  adds some of its updates. The degree to the power −1/2 is real because the real power function is total. A
  variance is a sum of squares of reals divided by the number of rows, a nonnegative real, so the variance plus
  the small positive constant is a positive real and its inverse square root is real.
-/
import proofs.«159056_j27436251087104_1_alg».proof.Proof.Finite
import proofs.«159056_j27436251087104_1_alg».proof.Proof.Gen.ReferenceIdeal.Read

noncomputable section

namespace Cert.ReferenceIdeal.Finite

open Cert.ReferenceIdeal Cert.ReferenceIdeal.Gen Cert.ReferenceIdeal.Read Idealize.ShloMosaic Cert.Finite

/-- A float array of shape `s` at the exact values, and an integer array. -/
local notation "F32[" s "]" => BufTy.Contents (Elt Ideal) (BufTy.mk s EltTy.f32)
local notation "I32[" s "]" => BufTy.Contents (Elt Ideal) (BufTy.mk s EltTy.i32)

/-! ### The edge normalisation: degrees, their inverse square roots, and the edge weights scaled by them -/

theorem cst_real :
    AllReal (val_main_cst (F := Ideal)) := by
  unfold val_main_cst
  exact allReal_constant _ _ isReal_ofBits_one

theorem v3_real :
    AllReal (val_main_v3 (F := Ideal)) := by
  unfold val_main_v3
  exact cst_real.broadcastInDim _ _ _

/-- The edge weights followed by the self-loop weights 1. -/
theorem v4_real (x3 : F32[S600000]) (h3 : AllReal x3) :
    AllReal (val_main_v4 (F := Ideal) x3) := by
  unfold val_main_v4
  refine allReal_concatenate _ _ _ _ fun p hp => ?_
  simp only [List.mem_cons, List.not_mem_nil, or_false] at hp
  rcases hp with rfl | rfl
  · exact h3
  · exact v3_real

theorem cst_0_real :
    AllReal (val_main_cst_0 (F := Ideal)) := by
  unfold val_main_cst_0
  exact allReal_constant _ _ isReal_ofBits_zero

theorem v5_real :
    AllReal (val_main_v5 (F := Ideal)) := by
  unfold val_main_v5
  exact cst_0_real.broadcastInDim _ _ _

/-- The weighted in-degree of every node: a sum of edge weights. -/
theorem v7_real (x2 : I32[S600000]) (x3 : F32[S600000]) (h3 : AllReal x3) :
    AllReal (val_main_v7 (F := Ideal) x2 x3) := by
  unfold val_main_v7
  exact AllReal.scatterAdd _ _ v5_real (v4_real x3 h3)

theorem cst_2_real :
    AllReal (val_main_cst_2 (F := Ideal)) := by
  unfold val_main_cst_2
  exact allReal_constant _ _ isReal_ofBits_neg_half

theorem v10_real :
    AllReal (val_main_v10 (F := Ideal)) := by
  unfold val_main_v10
  exact cst_2_real.broadcastInDim _ _ _

theorem v11_real (x2 : I32[S600000]) (x3 : F32[S600000]) (h3 : AllReal x3) :
    AllReal (val_main_v11 (F := Ideal) x2 x3) := by
  unfold val_main_v11
  exact (v7_real x2 x3 h3).hostPowf v10_real

theorem cst_3_real :
    AllReal (val_main_cst_3 (F := Ideal)) := by
  unfold val_main_cst_3
  exact allReal_constant _ _ isReal_ofBits_zero

theorem call0_v0_real :
    AllReal (val_main_call0_v0 (F := Ideal)) := by
  unfold val_main_call0_v0
  exact cst_3_real

theorem call0_v1_real :
    AllReal (val_main_call0_v1 (F := Ideal)) := by
  unfold val_main_call0_v1
  exact call0_v0_real.broadcastInDim _ _ _

/-- The degree to the power −1/2 where the degree is positive, 0 elsewhere. -/
theorem v12_real (x2 : I32[S600000]) (x3 : F32[S600000]) (h3 : AllReal x3) :
    AllReal (val_main_v12 (F := Ideal) x2 x3) := by
  unfold val_main_v12
  exact AllReal.select _ (v11_real x2 x3 h3) call0_v1_real

theorem v19_real (x1 : I32[S600000]) (x2 : I32[S600000]) (x3 : F32[S600000]) (h3 : AllReal x3) :
    AllReal (val_main_v19 (F := Ideal) x1 x2 x3) := by
  unfold val_main_v19
  exact (v12_real x2 x3 h3).gather _ _

theorem v20_real (x1 : I32[S600000]) (x2 : I32[S600000]) (x3 : F32[S600000]) (h3 : AllReal x3) :
    AllReal (val_main_v20 (F := Ideal) x1 x2 x3) := by
  unfold val_main_v20
  exact (v19_real x1 x2 x3 h3).mulf (v4_real x3 h3)

theorem v27_real (x2 : I32[S600000]) (x3 : F32[S600000]) (h3 : AllReal x3) :
    AllReal (val_main_v27 (F := Ideal) x2 x3) := by
  unfold val_main_v27
  exact (v12_real x2 x3 h3).gather _ _

/-- The normalised edge weights. -/
theorem v28_real (x1 : I32[S600000]) (x2 : I32[S600000]) (x3 : F32[S600000]) (h3 : AllReal x3) :
    AllReal (val_main_v28 (F := Ideal) x1 x2 x3) := by
  unfold val_main_v28
  exact (v20_real x1 x2 x3 h3).mulf (v27_real x2 x3 h3)

/-! ### Layer 1 -/

theorem v29_real (x0 : F32[S50000x128]) (x4 : F32[S128x128]) (h0 : AllReal x0) (h4 : AllReal x4) :
    AllReal (val_main_v29 (F := Ideal) x0 x4) := by
  unfold val_main_v29
  exact AllReal.dotGeneral _ _ h0 h4

theorem v30_real (x1 : I32[S600000]) (x2 : I32[S600000]) (x3 : F32[S600000]) (h3 : AllReal x3) :
    AllReal (val_main_v30 (F := Ideal) x1 x2 x3) := by
  unfold val_main_v30
  exact (v28_real x1 x2 x3 h3).broadcastInDim _ _ _

theorem v37_real (x0 : F32[S50000x128]) (x1 : I32[S600000]) (x4 : F32[S128x128]) (h0 : AllReal x0) (h4 : AllReal x4) :
    AllReal (val_main_v37 (F := Ideal) x0 x1 x4) := by
  unfold val_main_v37
  exact (v29_real x0 x4 h0 h4).gather _ _

theorem v38_real (x1 : I32[S600000]) (x2 : I32[S600000]) (x3 : F32[S600000]) (h3 : AllReal x3) :
    AllReal (val_main_v38 (F := Ideal) x1 x2 x3) := by
  unfold val_main_v38
  exact (v30_real x1 x2 x3 h3).broadcastInDim _ _ _

theorem v39_real (x0 : F32[S50000x128]) (x1 : I32[S600000]) (x2 : I32[S600000]) (x3 : F32[S600000]) (x4 : F32[S128x128]) (h0 : AllReal x0) (h3 : AllReal x3) (h4 : AllReal x4) :
    AllReal (val_main_v39 (F := Ideal) x0 x1 x2 x3 x4) := by
  unfold val_main_v39
  exact (v38_real x1 x2 x3 h3).mulf (v37_real x0 x1 x4 h0 h4)

theorem cst_9_real :
    AllReal (val_main_cst_9 (F := Ideal)) := by
  unfold val_main_cst_9
  exact allReal_constant _ _ isReal_ofBits_zero

theorem v40_real :
    AllReal (val_main_v40 (F := Ideal)) := by
  unfold val_main_v40
  exact cst_9_real.broadcastInDim _ _ _

/-- The aggregate along the edges. -/
theorem v42_real (x0 : F32[S50000x128]) (x1 : I32[S600000]) (x2 : I32[S600000]) (x3 : F32[S600000]) (x4 : F32[S128x128]) (h0 : AllReal x0) (h3 : AllReal x3) (h4 : AllReal x4) :
    AllReal (val_main_v42 (F := Ideal) x0 x1 x2 x3 x4) := by
  unfold val_main_v42
  exact AllReal.scatterAdd _ _ v40_real (v39_real x0 x1 x2 x3 x4 h0 h3 h4)

theorem v43_real (x5 : F32[S128]) (h5 : AllReal x5) :
    AllReal (val_main_v43 (F := Ideal) x5) := by
  unfold val_main_v43
  exact h5.broadcastInDim _ _ _

theorem v44_real (x5 : F32[S128]) (h5 : AllReal x5) :
    AllReal (val_main_v44 (F := Ideal) x5) := by
  unfold val_main_v44
  exact (v43_real x5 h5).broadcastInDim _ _ _

/-- The pre-activation of layer 1: aggregate plus bias. -/
theorem v45_real (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllReal (val_main_v45 (F := Ideal) x0 x1 x2 x3 x4 x5) := by
  unfold val_main_v45
  exact (v42_real x0 x1 x2 x3 x4 h0 h3 h4).addf (v44_real x5 h5)

theorem cst_10_real :
    AllReal (val_main_cst_10 (F := Ideal)) := by
  unfold val_main_cst_10
  exact allReal_constant _ _ isReal_ofBits_zero

/-- The column sums of the pre-activation. -/
theorem v46_real (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllReal (val_main_v46 (F := Ideal) x0 x1 x2 x3 x4 x5) := by
  unfold val_main_v46
  exact (v45_real x0 x1 x2 x3 x4 x5 h0 h3 h4 h5).reduceAdd cst_10_real _ _

theorem cst_11_pos :
    AllPosReal (val_main_cst_11 (F := Ideal)) := by
  unfold val_main_cst_11
  exact allPosReal_constant _ _ isPosReal_ofBits_50000

theorem v47_pos :
    AllPosReal (val_main_v47 (F := Ideal)) := by
  unfold val_main_v47
  exact cst_11_pos.broadcastInDim _ _ _

/-- The column means of layer 1. -/
theorem v48_real (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllReal (val_main_v48 (F := Ideal) x0 x1 x2 x3 x4 x5) := by
  unfold val_main_v48
  exact (v46_real x0 x1 x2 x3 x4 x5 h0 h3 h4 h5).hostDivf_pos v47_pos

theorem v49_real (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllReal (val_main_v49 (F := Ideal) x0 x1 x2 x3 x4 x5) := by
  unfold val_main_v49
  exact (v48_real x0 x1 x2 x3 x4 x5 h0 h3 h4 h5).broadcastInDim _ _ _

theorem v50_real (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllReal (val_main_v50 (F := Ideal) x0 x1 x2 x3 x4 x5) := by
  unfold val_main_v50
  exact (v49_real x0 x1 x2 x3 x4 x5 h0 h3 h4 h5).broadcastInDim _ _ _

theorem v51_real (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllReal (val_main_v51 (F := Ideal) x0 x1 x2 x3 x4 x5) := by
  unfold val_main_v51
  exact (v45_real x0 x1 x2 x3 x4 x5 h0 h3 h4 h5).subf (v50_real x0 x1 x2 x3 x4 x5 h0 h3 h4 h5)

/-- The squared deviations from the mean. -/
theorem v52_nonneg (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllNonnegReal (val_main_v52 (F := Ideal) x0 x1 x2 x3 x4 x5) := by
  unfold val_main_v52
  exact (v51_real x0 x1 x2 x3 x4 x5 h0 h3 h4 h5).mulf_self

theorem cst_12_nonneg :
    AllNonnegReal (val_main_cst_12 (F := Ideal)) := by
  unfold val_main_cst_12
  exact allNonnegReal_constant _ _ isNonnegReal_ofBits_zero

theorem v53_nonneg (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllNonnegReal (val_main_v53 (F := Ideal) x0 x1 x2 x3 x4 x5) := by
  unfold val_main_v53
  exact (v52_nonneg x0 x1 x2 x3 x4 x5 h0 h3 h4 h5).reduceAdd cst_12_nonneg _ _

theorem cst_13_pos :
    AllPosReal (val_main_cst_13 (F := Ideal)) := by
  unfold val_main_cst_13
  exact allPosReal_constant _ _ isPosReal_ofBits_50000

theorem v54_pos :
    AllPosReal (val_main_v54 (F := Ideal)) := by
  unfold val_main_v54
  exact cst_13_pos.broadcastInDim _ _ _

/-- The column variances of layer 1: nonnegative reals. -/
theorem v55_nonneg (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllNonnegReal (val_main_v55 (F := Ideal) x0 x1 x2 x3 x4 x5) := by
  unfold val_main_v55
  exact (v53_nonneg x0 x1 x2 x3 x4 x5 h0 h3 h4 h5).hostDivf v54_pos

theorem cst_14_pos :
    AllPosReal (val_main_cst_14 (F := Ideal)) := by
  unfold val_main_cst_14
  exact allPosReal_constant _ _ isPosReal_eps

theorem v62_pos :
    AllPosReal (val_main_v62 (F := Ideal)) := by
  unfold val_main_v62
  exact cst_14_pos.broadcastInDim _ _ _

/-- The variance of layer 1 plus the small constant: positive reals. -/
theorem v63_pos (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllPosReal (val_main_v63 (F := Ideal) x0 x1 x2 x3 x4 x5) := by
  unfold val_main_v63
  exact (v55_nonneg x0 x1 x2 x3 x4 x5 h0 h3 h4 h5).addf_pos v62_pos

theorem v56_real (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllReal (val_main_v56 (F := Ideal) x0 x1 x2 x3 x4 x5) := by
  unfold val_main_v56
  exact (v48_real x0 x1 x2 x3 x4 x5 h0 h3 h4 h5).broadcastInDim _ _ _

theorem v57_real (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllReal (val_main_v57 (F := Ideal) x0 x1 x2 x3 x4 x5) := by
  unfold val_main_v57
  exact (v56_real x0 x1 x2 x3 x4 x5 h0 h3 h4 h5).broadcastInDim _ _ _

theorem v58_real (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllReal (val_main_v58 (F := Ideal) x0 x1 x2 x3 x4 x5) := by
  unfold val_main_v58
  exact (v45_real x0 x1 x2 x3 x4 x5 h0 h3 h4 h5).subf (v57_real x0 x1 x2 x3 x4 x5 h0 h3 h4 h5)

theorem v59_real (x6 : F32[S128]) (h6 : AllReal x6) :
    AllReal (val_main_v59 (F := Ideal) x6) := by
  unfold val_main_v59
  exact h6.broadcastInDim _ _ _

theorem v60_real (x6 : F32[S128]) (h6 : AllReal x6) :
    AllReal (val_main_v60 (F := Ideal) x6) := by
  unfold val_main_v60
  exact (v59_real x6 h6).broadcastInDim _ _ _

theorem v61_real (x0 : F32[S50000x128]) (x1 : I32[S600000]) (x2 : I32[S600000]) (x3 : F32[S600000]) (x4 : F32[S128x128]) (x5 : F32[S128]) (x6 : F32[S128]) (h0 : AllReal x0) (h3 : AllReal x3) (h4 : AllReal x4) (h5 : AllReal x5) (h6 : AllReal x6) :
    AllReal (val_main_v61 (F := Ideal) x0 x1 x2 x3 x4 x5 x6) := by
  unfold val_main_v61
  exact (v60_real x6 h6).mulf (v58_real x0 x1 x2 x3 x4 x5 h0 h3 h4 h5)

theorem v64_pos (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllPosReal (val_main_v64 (F := Ideal) x0 x1 x2 x3 x4 x5) := by
  unfold val_main_v64
  exact (v63_pos x0 x1 x2 x3 x4 x5 h0 h3 h4 h5).hostRsqrt

theorem v65_real (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllReal (val_main_v65 (F := Ideal) x0 x1 x2 x3 x4 x5) := by
  unfold val_main_v65
  exact (v64_pos x0 x1 x2 x3 x4 x5 h0 h3 h4 h5).allReal.broadcastInDim _ _ _

theorem v66_real (x0 : F32[S50000x128]) (x1 : I32[S600000]) (x2 : I32[S600000]) (x3 : F32[S600000]) (x4 : F32[S128x128]) (x5 : F32[S128]) (h0 : AllReal x0) (h3 : AllReal x3) (h4 : AllReal x4) (h5 : AllReal x5) :
    AllReal (val_main_v66 (F := Ideal) x0 x1 x2 x3 x4 x5) := by
  unfold val_main_v66
  exact (v65_real x0 x1 x2 x3 x4 x5 h0 h3 h4 h5).broadcastInDim _ _ _

theorem v67_real (x0 : F32[S50000x128]) (x1 : I32[S600000]) (x2 : I32[S600000]) (x3 : F32[S600000]) (x4 : F32[S128x128]) (x5 : F32[S128]) (x6 : F32[S128]) (h0 : AllReal x0) (h3 : AllReal x3) (h4 : AllReal x4) (h5 : AllReal x5) (h6 : AllReal x6) :
    AllReal (val_main_v67 (F := Ideal) x0 x1 x2 x3 x4 x5 x6) := by
  unfold val_main_v67
  exact (v61_real x0 x1 x2 x3 x4 x5 x6 h0 h3 h4 h5 h6).mulf (v66_real x0 x1 x2 x3 x4 x5 h0 h3 h4 h5)

theorem v68_real (x7 : F32[S128]) (h7 : AllReal x7) :
    AllReal (val_main_v68 (F := Ideal) x7) := by
  unfold val_main_v68
  exact h7.broadcastInDim _ _ _

theorem v69_real (x7 : F32[S128]) (h7 : AllReal x7) :
    AllReal (val_main_v69 (F := Ideal) x7) := by
  unfold val_main_v69
  exact (v68_real x7 h7).broadcastInDim _ _ _

theorem v70_real (x0 : F32[S50000x128]) (x1 : I32[S600000]) (x2 : I32[S600000]) (x3 : F32[S600000]) (x4 : F32[S128x128]) (x5 : F32[S128]) (x6 : F32[S128]) (x7 : F32[S128]) (h0 : AllReal x0) (h3 : AllReal x3) (h4 : AllReal x4) (h5 : AllReal x5) (h6 : AllReal x6) (h7 : AllReal x7) :
    AllReal (val_main_v70 (F := Ideal) x0 x1 x2 x3 x4 x5 x6 x7) := by
  unfold val_main_v70
  exact (v67_real x0 x1 x2 x3 x4 x5 x6 h0 h3 h4 h5 h6).addf (v69_real x7 h7)

theorem call1_cst_real :
    AllReal (val_main_call1_cst (F := Ideal)) := by
  unfold val_main_call1_cst
  exact allReal_constant _ _ isReal_ofBits_zero

theorem call1_v0_real :
    AllReal (val_main_call1_v0 (F := Ideal)) := by
  unfold val_main_call1_v0
  exact call1_cst_real.broadcastInDim _ _ _

/-- The output of layer 1: normalised, scaled, shifted and clipped at zero. -/
theorem v71_real (x0 : F32[S50000x128]) (x1 : I32[S600000]) (x2 : I32[S600000]) (x3 : F32[S600000]) (x4 : F32[S128x128]) (x5 : F32[S128]) (x6 : F32[S128]) (x7 : F32[S128]) (h0 : AllReal x0) (h3 : AllReal x3) (h4 : AllReal x4) (h5 : AllReal x5) (h6 : AllReal x6) (h7 : AllReal x7) :
    AllReal (val_main_v71 (F := Ideal) x0 x1 x2 x3 x4 x5 x6 x7) := by
  unfold val_main_v71
  exact (v70_real x0 x1 x2 x3 x4 x5 x6 x7 h0 h3 h4 h5 h6 h7).maximumf call1_v0_real

/-! ### Layer 2 -/

theorem v72_real (x0 : F32[S50000x128]) (x1 : I32[S600000]) (x2 : I32[S600000]) (x3 : F32[S600000]) (x4 : F32[S128x128]) (x5 : F32[S128]) (x6 : F32[S128]) (x7 : F32[S128]) (x8 : F32[S128x64]) (h0 : AllReal x0) (h3 : AllReal x3) (h4 : AllReal x4) (h5 : AllReal x5) (h6 : AllReal x6) (h7 : AllReal x7) (h8 : AllReal x8) :
    AllReal (val_main_v72 (F := Ideal) x0 x1 x2 x3 x4 x5 x6 x7 x8) := by
  unfold val_main_v72
  exact AllReal.dotGeneral _ _ (v71_real x0 x1 x2 x3 x4 x5 x6 x7 h0 h3 h4 h5 h6 h7) h8

theorem v73_real (x1 : I32[S600000]) (x2 : I32[S600000]) (x3 : F32[S600000]) (h3 : AllReal x3) :
    AllReal (val_main_v73 (F := Ideal) x1 x2 x3) := by
  unfold val_main_v73
  exact (v28_real x1 x2 x3 h3).broadcastInDim _ _ _

theorem v80_real (x0 : F32[S50000x128]) (x1 : I32[S600000]) (x2 : I32[S600000]) (x3 : F32[S600000]) (x4 : F32[S128x128]) (x5 : F32[S128]) (x6 : F32[S128]) (x7 : F32[S128]) (x8 : F32[S128x64]) (h0 : AllReal x0) (h3 : AllReal x3) (h4 : AllReal x4) (h5 : AllReal x5) (h6 : AllReal x6) (h7 : AllReal x7) (h8 : AllReal x8) :
    AllReal (val_main_v80 (F := Ideal) x0 x1 x2 x3 x4 x5 x6 x7 x8) := by
  unfold val_main_v80
  exact (v72_real x0 x1 x2 x3 x4 x5 x6 x7 x8 h0 h3 h4 h5 h6 h7 h8).gather _ _

theorem v81_real (x1 : I32[S600000]) (x2 : I32[S600000]) (x3 : F32[S600000]) (h3 : AllReal x3) :
    AllReal (val_main_v81 (F := Ideal) x1 x2 x3) := by
  unfold val_main_v81
  exact (v73_real x1 x2 x3 h3).broadcastInDim _ _ _

theorem v82_real (x0 : F32[S50000x128]) (x1 : I32[S600000]) (x2 : I32[S600000]) (x3 : F32[S600000]) (x4 : F32[S128x128]) (x5 : F32[S128]) (x6 : F32[S128]) (x7 : F32[S128]) (x8 : F32[S128x64]) (h0 : AllReal x0) (h3 : AllReal x3) (h4 : AllReal x4) (h5 : AllReal x5) (h6 : AllReal x6) (h7 : AllReal x7) (h8 : AllReal x8) :
    AllReal (val_main_v82 (F := Ideal) x0 x1 x2 x3 x4 x5 x6 x7 x8) := by
  unfold val_main_v82
  exact (v81_real x1 x2 x3 h3).mulf (v80_real x0 x1 x2 x3 x4 x5 x6 x7 x8 h0 h3 h4 h5 h6 h7 h8)

theorem cst_17_real :
    AllReal (val_main_cst_17 (F := Ideal)) := by
  unfold val_main_cst_17
  exact allReal_constant _ _ isReal_ofBits_zero

theorem v83_real :
    AllReal (val_main_v83 (F := Ideal)) := by
  unfold val_main_v83
  exact cst_17_real.broadcastInDim _ _ _

theorem v85_real (x0 : F32[S50000x128]) (x1 : I32[S600000]) (x2 : I32[S600000]) (x3 : F32[S600000]) (x4 : F32[S128x128]) (x5 : F32[S128]) (x6 : F32[S128]) (x7 : F32[S128]) (x8 : F32[S128x64]) (h0 : AllReal x0) (h3 : AllReal x3) (h4 : AllReal x4) (h5 : AllReal x5) (h6 : AllReal x6) (h7 : AllReal x7) (h8 : AllReal x8) :
    AllReal (val_main_v85 (F := Ideal) x0 x1 x2 x3 x4 x5 x6 x7 x8) := by
  unfold val_main_v85
  exact AllReal.scatterAdd _ _ v83_real (v82_real x0 x1 x2 x3 x4 x5 x6 x7 x8 h0 h3 h4 h5 h6 h7 h8)

theorem v86_real (x9 : F32[S64]) (h9 : AllReal x9) :
    AllReal (val_main_v86 (F := Ideal) x9) := by
  unfold val_main_v86
  exact h9.broadcastInDim _ _ _

theorem v87_real (x9 : F32[S64]) (h9 : AllReal x9) :
    AllReal (val_main_v87 (F := Ideal) x9) := by
  unfold val_main_v87
  exact (v86_real x9 h9).broadcastInDim _ _ _

/-- The pre-activation of layer 2: aggregate plus bias. -/
theorem v88_real (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllReal (val_main_v88 (F := Ideal) x0 x1 x2 x3 x4 x5 x6 x7 x8 x9) := by
  unfold val_main_v88
  exact (v85_real x0 x1 x2 x3 x4 x5 x6 x7 x8 h0 h3 h4 h5 h6 h7 h8).addf (v87_real x9 h9)

theorem cst_18_real :
    AllReal (val_main_cst_18 (F := Ideal)) := by
  unfold val_main_cst_18
  exact allReal_constant _ _ isReal_ofBits_zero

theorem v89_real (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllReal (val_main_v89 (F := Ideal) x0 x1 x2 x3 x4 x5 x6 x7 x8 x9) := by
  unfold val_main_v89
  exact (v88_real x0 x1 x2 x3 x4 x5 x6 x7 x8 x9 h0 h3 h4 h5 h6 h7 h8 h9).reduceAdd cst_18_real _ _

theorem cst_19_pos :
    AllPosReal (val_main_cst_19 (F := Ideal)) := by
  unfold val_main_cst_19
  exact allPosReal_constant _ _ isPosReal_ofBits_50000

theorem v90_pos :
    AllPosReal (val_main_v90 (F := Ideal)) := by
  unfold val_main_v90
  exact cst_19_pos.broadcastInDim _ _ _

/-- The column means of layer 2. -/
theorem v91_real (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllReal (val_main_v91 (F := Ideal) x0 x1 x2 x3 x4 x5 x6 x7 x8 x9) := by
  unfold val_main_v91
  exact (v89_real x0 x1 x2 x3 x4 x5 x6 x7 x8 x9 h0 h3 h4 h5 h6 h7 h8 h9).hostDivf_pos v90_pos

theorem v92_real (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllReal (val_main_v92 (F := Ideal) x0 x1 x2 x3 x4 x5 x6 x7 x8 x9) := by
  unfold val_main_v92
  exact (v91_real x0 x1 x2 x3 x4 x5 x6 x7 x8 x9 h0 h3 h4 h5 h6 h7 h8 h9).broadcastInDim _ _ _

theorem v93_real (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllReal (val_main_v93 (F := Ideal) x0 x1 x2 x3 x4 x5 x6 x7 x8 x9) := by
  unfold val_main_v93
  exact (v92_real x0 x1 x2 x3 x4 x5 x6 x7 x8 x9 h0 h3 h4 h5 h6 h7 h8 h9).broadcastInDim _ _ _

theorem v94_real (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllReal (val_main_v94 (F := Ideal) x0 x1 x2 x3 x4 x5 x6 x7 x8 x9) := by
  unfold val_main_v94
  exact (v88_real x0 x1 x2 x3 x4 x5 x6 x7 x8 x9 h0 h3 h4 h5 h6 h7 h8 h9).subf (v93_real x0 x1 x2 x3 x4 x5 x6 x7 x8 x9 h0 h3 h4 h5 h6 h7 h8 h9)

theorem v95_nonneg (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllNonnegReal (val_main_v95 (F := Ideal) x0 x1 x2 x3 x4 x5 x6 x7 x8 x9) := by
  unfold val_main_v95
  exact (v94_real x0 x1 x2 x3 x4 x5 x6 x7 x8 x9 h0 h3 h4 h5 h6 h7 h8 h9).mulf_self

theorem cst_20_nonneg :
    AllNonnegReal (val_main_cst_20 (F := Ideal)) := by
  unfold val_main_cst_20
  exact allNonnegReal_constant _ _ isNonnegReal_ofBits_zero

theorem v96_nonneg (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllNonnegReal (val_main_v96 (F := Ideal) x0 x1 x2 x3 x4 x5 x6 x7 x8 x9) := by
  unfold val_main_v96
  exact (v95_nonneg x0 x1 x2 x3 x4 x5 x6 x7 x8 x9 h0 h3 h4 h5 h6 h7 h8 h9).reduceAdd cst_20_nonneg _ _

theorem cst_21_pos :
    AllPosReal (val_main_cst_21 (F := Ideal)) := by
  unfold val_main_cst_21
  exact allPosReal_constant _ _ isPosReal_ofBits_50000

theorem v97_pos :
    AllPosReal (val_main_v97 (F := Ideal)) := by
  unfold val_main_v97
  exact cst_21_pos.broadcastInDim _ _ _

/-- The column variances of layer 2: nonnegative reals. -/
theorem v98_nonneg (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllNonnegReal (val_main_v98 (F := Ideal) x0 x1 x2 x3 x4 x5 x6 x7 x8 x9) := by
  unfold val_main_v98
  exact (v96_nonneg x0 x1 x2 x3 x4 x5 x6 x7 x8 x9 h0 h3 h4 h5 h6 h7 h8 h9).hostDivf v97_pos

theorem cst_22_pos :
    AllPosReal (val_main_cst_22 (F := Ideal)) := by
  unfold val_main_cst_22
  exact allPosReal_constant _ _ isPosReal_eps

theorem v105_pos :
    AllPosReal (val_main_v105 (F := Ideal)) := by
  unfold val_main_v105
  exact cst_22_pos.broadcastInDim _ _ _

/-- The variance of layer 2 plus the small constant: positive reals. -/
theorem v106_pos (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllPosReal (val_main_v106 (F := Ideal) x0 x1 x2 x3 x4 x5 x6 x7 x8 x9) := by
  unfold val_main_v106
  exact (v98_nonneg x0 x1 x2 x3 x4 x5 x6 x7 x8 x9 h0 h3 h4 h5 h6 h7 h8 h9).addf_pos v105_pos

theorem v99_real (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllReal (val_main_v99 (F := Ideal) x0 x1 x2 x3 x4 x5 x6 x7 x8 x9) := by
  unfold val_main_v99
  exact (v91_real x0 x1 x2 x3 x4 x5 x6 x7 x8 x9 h0 h3 h4 h5 h6 h7 h8 h9).broadcastInDim _ _ _

theorem v100_real (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllReal (val_main_v100 (F := Ideal) x0 x1 x2 x3 x4 x5 x6 x7 x8 x9) := by
  unfold val_main_v100
  exact (v99_real x0 x1 x2 x3 x4 x5 x6 x7 x8 x9 h0 h3 h4 h5 h6 h7 h8 h9).broadcastInDim _ _ _

theorem v101_real (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllReal (val_main_v101 (F := Ideal) x0 x1 x2 x3 x4 x5 x6 x7 x8 x9) := by
  unfold val_main_v101
  exact (v88_real x0 x1 x2 x3 x4 x5 x6 x7 x8 x9 h0 h3 h4 h5 h6 h7 h8 h9).subf (v100_real x0 x1 x2 x3 x4 x5 x6 x7 x8 x9 h0 h3 h4 h5 h6 h7 h8 h9)

theorem v102_real (x10 : F32[S64]) (h10 : AllReal x10) :
    AllReal (val_main_v102 (F := Ideal) x10) := by
  unfold val_main_v102
  exact h10.broadcastInDim _ _ _

theorem v103_real (x10 : F32[S64]) (h10 : AllReal x10) :
    AllReal (val_main_v103 (F := Ideal) x10) := by
  unfold val_main_v103
  exact (v102_real x10 h10).broadcastInDim _ _ _

theorem v104_real (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (x10 : F32[S64]) (h0 : AllReal x0) (h3 : AllReal x3) (h4 : AllReal x4) (h5 : AllReal x5) (h6 : AllReal x6) (h7 : AllReal x7) (h8 : AllReal x8) (h9 : AllReal x9) (h10 : AllReal x10) :
    AllReal (val_main_v104 (F := Ideal) x0 x1 x2 x3 x4 x5 x6 x7 x8 x9 x10) := by
  unfold val_main_v104
  exact (v103_real x10 h10).mulf (v101_real x0 x1 x2 x3 x4 x5 x6 x7 x8 x9 h0 h3 h4 h5 h6 h7 h8 h9)

/-- The inverse square root of the variance of layer 2 plus the small constant: positive reals. -/
theorem v107_pos (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllPosReal (val_main_v107 (F := Ideal) x0 x1 x2 x3 x4 x5 x6 x7 x8 x9) := by
  unfold val_main_v107
  exact (v106_pos x0 x1 x2 x3 x4 x5 x6 x7 x8 x9 h0 h3 h4 h5 h6 h7 h8 h9).hostRsqrt

theorem v108_real (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllReal (val_main_v108 (F := Ideal) x0 x1 x2 x3 x4 x5 x6 x7 x8 x9) := by
  unfold val_main_v108
  exact (v107_pos x0 x1 x2 x3 x4 x5 x6 x7 x8 x9 h0 h3 h4 h5 h6 h7 h8 h9).allReal.broadcastInDim _ _ _

theorem v109_real (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (h0 : AllReal x0) (h3 : AllReal x3) (h4 : AllReal x4) (h5 : AllReal x5) (h6 : AllReal x6) (h7 : AllReal x7) (h8 : AllReal x8) (h9 : AllReal x9) :
    AllReal (val_main_v109 (F := Ideal) x0 x1 x2 x3 x4 x5 x6 x7 x8 x9) := by
  unfold val_main_v109
  exact (v108_real x0 x1 x2 x3 x4 x5 x6 x7 x8 x9 h0 h3 h4 h5 h6 h7 h8 h9).broadcastInDim _ _ _

theorem v110_real (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (x10 : F32[S64]) (h0 : AllReal x0) (h3 : AllReal x3) (h4 : AllReal x4) (h5 : AllReal x5) (h6 : AllReal x6) (h7 : AllReal x7) (h8 : AllReal x8) (h9 : AllReal x9) (h10 : AllReal x10) :
    AllReal (val_main_v110 (F := Ideal) x0 x1 x2 x3 x4 x5 x6 x7 x8 x9 x10) := by
  unfold val_main_v110
  exact (v104_real x0 x1 x2 x3 x4 x5 x6 x7 x8 x9 x10 h0 h3 h4 h5 h6 h7 h8 h9 h10).mulf (v109_real x0 x1 x2 x3 x4 x5 x6 x7 x8 x9 h0 h3 h4 h5 h6 h7 h8 h9)

theorem v111_real (x11 : F32[S64]) (h11 : AllReal x11) :
    AllReal (val_main_v111 (F := Ideal) x11) := by
  unfold val_main_v111
  exact h11.broadcastInDim _ _ _

theorem v112_real (x11 : F32[S64]) (h11 : AllReal x11) :
    AllReal (val_main_v112 (F := Ideal) x11) := by
  unfold val_main_v112
  exact (v111_real x11 h11).broadcastInDim _ _ _

theorem v113_real (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (x10 : F32[S64]) (x11 : F32[S64]) (h0 : AllReal x0) (h3 : AllReal x3) (h4 : AllReal x4) (h5 : AllReal x5) (h6 : AllReal x6) (h7 : AllReal x7) (h8 : AllReal x8) (h9 : AllReal x9) (h10 : AllReal x10) (h11 : AllReal x11) :
    AllReal (val_main_v113 (F := Ideal) x0 x1 x2 x3 x4 x5 x6 x7 x8 x9 x10 x11) := by
  unfold val_main_v113
  exact (v110_real x0 x1 x2 x3 x4 x5 x6 x7 x8 x9 x10 h0 h3 h4 h5 h6 h7 h8 h9 h10).addf (v112_real x11 h11)

theorem call2_cst_real :
    AllReal (val_main_call2_cst (F := Ideal)) := by
  unfold val_main_call2_cst
  exact allReal_constant _ _ isReal_ofBits_zero

theorem call2_v0_real :
    AllReal (val_main_call2_v0 (F := Ideal)) := by
  unfold val_main_call2_v0
  exact call2_cst_real.broadcastInDim _ _ _

/-- The output of layer 2: normalised, scaled, shifted and clipped at zero. -/
theorem v114_real (x0 : F32[S50000x128]) (x1 : I32[S600000]) (x2 : I32[S600000]) (x3 : F32[S600000]) (x4 : F32[S128x128]) (x5 : F32[S128]) (x6 : F32[S128]) (x7 : F32[S128]) (x8 : F32[S128x64]) (x9 : F32[S64]) (x10 : F32[S64]) (x11 : F32[S64]) (h0 : AllReal x0) (h3 : AllReal x3) (h4 : AllReal x4) (h5 : AllReal x5) (h6 : AllReal x6) (h7 : AllReal x7) (h8 : AllReal x8) (h9 : AllReal x9) (h10 : AllReal x10) (h11 : AllReal x11) :
    AllReal (val_main_v114 (F := Ideal) x0 x1 x2 x3 x4 x5 x6 x7 x8 x9 x10 x11) := by
  unfold val_main_v114
  exact (v113_real x0 x1 x2 x3 x4 x5 x6 x7 x8 x9 x10 x11 h0 h3 h4 h5 h6 h7 h8 h9 h10 h11).maximumf call2_v0_real

end Cert.ReferenceIdeal.Finite

end
-- ==== Proof.Chain.lean ====
/-
  The idealized kernel's fold, buffer by buffer: what each buffer that a later segment reads holds at each
  boundary between segments, as a function of the launch memory. A host stretch's result is its operations applied
  to the incoming contents; a region's output array is its value as one whole-array function of its input arrays;
  everything else is carried over unchanged. Every value is identified with the reference program's stage of the
  same buffer at the kernel's argument arrays: the host operations of the two programs coincide, a matmul region is
  the host's matrix product, an accumulating region gives the column sums and sums of squares, and — where every
  argument is real — the normalising regions fed the one-pass mean and variance give the reference's layer output.
  The last boundary's result buffer is therefore the reference's result at the kernel's arguments.
-/
import proofs.«159056_j27436251087104_1_alg».proof.Proof.Gen.KernelIdeal.Frame
import proofs.«159056_j27436251087104_1_alg».proof.Proof.Gen.ReferenceIdeal.Read
import proofs.«159056_j27436251087104_1_alg».proof.Proof.Spec
import proofs.«159056_j27436251087104_1_alg».proof.Proof.Region0
import proofs.«159056_j27436251087104_1_alg».proof.Proof.Region1
import proofs.«159056_j27436251087104_1_alg».proof.Proof.Region2
import proofs.«159056_j27436251087104_1_alg».proof.Proof.Region3
import proofs.«159056_j27436251087104_1_alg».proof.Proof.Region4
import proofs.«159056_j27436251087104_1_alg».proof.Proof.Region5
import proofs.«159056_j27436251087104_1_alg».proof.Proof.Region6
import proofs.«159056_j27436251087104_1_alg».proof.Proof.Region7
import proofs.«159056_j27436251087104_1_alg».proof.Proof.Bridge
import proofs.«159056_j27436251087104_1_alg».proof.Proof.BridgeMM
import proofs.«159056_j27436251087104_1_alg».proof.Proof.Finite
import proofs.«159056_j27436251087104_1_alg».proof.Proof.RefFinite
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo Idealize.ShloMosaic.ValueIdx

/-! ## Rows and one-pass statistics as the host computes them -/

/-- A length-128 vector as a single row. -/
abbrev row128 (x : FVec Ideal S128 .f32) : FVec Ideal S1x128 .f32 := shapeCast S1x128 x shapeCasts_S128_S1x128
/-- A length-64 vector as a single row. -/
abbrev row64 (x : FVec Ideal S64 .f32) : FVec Ideal S1x64 .f32 := shapeCast S1x64 x shapeCasts_S64_S1x64
/-- A length-32 vector as a single row. -/
abbrev row32 (x : FVec Ideal S32 .f32) : FVec Ideal S1x32 .f32 := shapeCast S1x32 x shapeCasts_S32_S1x32

/-- The row count 50000 as a row of 128 entries. -/
abbrev cnt128 : FVec Ideal S1x128 .f32 := broadcastInDim S1x128 ![] bcast_S_S1x128 (constant (F := Ideal) S_ .f32 0x47435000#32)
/-- The row count 50000 as a row of 64 entries. -/
abbrev cnt64 : FVec Ideal S1x64 .f32 := broadcastInDim S1x64 ![] bcast_S_S1x64 (constant (F := Ideal) S_ .f32 0x47435000#32)

/-- The column means of the pre-activation: its column sums over the row count. -/
def mean128 (a : FVec Ideal S50000x128 .f32) (b : FVec Ideal S1x128 .f32) : FVec Ideal S1x128 .f32 :=
  Host.divf (Cert.Spec.colSum (Cert.Spec.pre a b)) cnt128
/-- The column variances in one pass: the mean of the squares minus the squared mean. -/
def var128 (a : FVec Ideal S50000x128 .f32) (b : FVec Ideal S1x128 .f32) : FVec Ideal S1x128 .f32 :=
  subf (Host.divf (Cert.Spec.colSumSq (Cert.Spec.pre a b)) cnt128) (mulf (mean128 a b) (mean128 a b))
def mean64 (a : FVec Ideal S50000x64 .f32) (b : FVec Ideal S1x64 .f32) : FVec Ideal S1x64 .f32 :=
  Host.divf (Cert.Spec.colSum (Cert.Spec.pre a b)) cnt64
def var64 (a : FVec Ideal S50000x64 .f32) (b : FVec Ideal S1x64 .f32) : FVec Ideal S1x64 .f32 :=
  subf (Host.divf (Cert.Spec.colSumSq (Cert.Spec.pre a b)) cnt64) (mulf (mean64 a b) (mean64 a b))

theorem row128_at (x : FVec Ideal S128 .f32) (j : Fin 128) : row128 x (ix2 0 j) = x (ix1 j) :=
  shapeCast_a_1a_apply x shapeCasts_S128_S1x128 0 j
theorem row64_at (x : FVec Ideal S64 .f32) (j : Fin 64) : row64 x (ix2 0 j) = x (ix1 j) :=
  shapeCast_a_1a_apply x shapeCasts_S64_S1x64 0 j
theorem row32_at (x : FVec Ideal S32 .f32) (j : Fin 32) : row32 x (ix2 0 j) = x (ix1 j) :=
  shapeCast_a_1a_apply x shapeCasts_S32_S1x32 0 j
theorem mean128_at (a : FVec Ideal S50000x128 .f32) (b : FVec Ideal S1x128 .f32) (j : Fin 128) :
    mean128 a b (ix2 0 j) = Ideal.div (Cert.Spec.colSum (Cert.Spec.pre a b) (ix2 0 j)) (Ideal.ofBits .f32 0x47435000#32) := rfl
theorem var128_at (a : FVec Ideal S50000x128 .f32) (b : FVec Ideal S1x128 .f32) (j : Fin 128) :
    var128 a b (ix2 0 j) = Ideal.div (Cert.Spec.colSumSq (Cert.Spec.pre a b) (ix2 0 j)) (Ideal.ofBits .f32 0x47435000#32)
      - mean128 a b (ix2 0 j) * mean128 a b (ix2 0 j) := rfl
theorem mean64_at (a : FVec Ideal S50000x64 .f32) (b : FVec Ideal S1x64 .f32) (j : Fin 64) :
    mean64 a b (ix2 0 j) = Ideal.div (Cert.Spec.colSum (Cert.Spec.pre a b) (ix2 0 j)) (Ideal.ofBits .f32 0x47435000#32) := rfl
theorem var64_at (a : FVec Ideal S50000x64 .f32) (b : FVec Ideal S1x64 .f32) (j : Fin 64) :
    var64 a b (ix2 0 j) = Ideal.div (Cert.Spec.colSumSq (Cert.Spec.pre a b) (ix2 0 j)) (Ideal.ofBits .f32 0x47435000#32)
      - mean64 a b (ix2 0 j) * mean64 a b (ix2 0 j) := rfl

variable (m : (ℓ : Loc nD τ sig) → Buf (Elt Ideal) ℓ) (ρ : Dev nD → PrngReg)

/-- Every float argument array of core `c` holds real numbers only. -/
structure RealArgsAt (c : Dev nD) : Prop where
  h0 : Cert.Finite.AllReal (s := S50000x128) (m ((c : Thread nD τ).loc main_arg0))
  h3 : Cert.Finite.AllReal (s := S600000) (m ((c : Thread nD τ).loc main_arg3))
  h4 : Cert.Finite.AllReal (s := S128x128) (m ((c : Thread nD τ).loc main_arg4))
  h5 : Cert.Finite.AllReal (s := S128) (m ((c : Thread nD τ).loc main_arg5))
  h6 : Cert.Finite.AllReal (s := S128) (m ((c : Thread nD τ).loc main_arg6))
  h7 : Cert.Finite.AllReal (s := S128) (m ((c : Thread nD τ).loc main_arg7))
  h8 : Cert.Finite.AllReal (s := S128x64) (m ((c : Thread nD τ).loc main_arg8))
  h9 : Cert.Finite.AllReal (s := S64) (m ((c : Thread nD τ).loc main_arg9))

/-- Every float argument array used by the normalised layers is real, on every core. -/
def RealArgs : Prop := ∀ c : Dev nD, RealArgsAt m c

/-- A buffer no operation of a host stretch writes holds after the stretch what it held before. -/
local macro "skip_host " ops:ident ref:term : term =>
  `(StableHlo.after_of_forall_not_mem (b := $ref) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The launch memory -/
theorem w0_arg0 (c : Dev nD) : W0 m ρ c (Proc.devRef .tc main_arg0) = (m ((c : Thread nD τ).loc main_arg0)) := rfl
theorem w0_arg1 (c : Dev nD) : W0 m ρ c (Proc.devRef .tc main_arg1) = (m ((c : Thread nD τ).loc main_arg1)) := rfl
theorem w0_arg2 (c : Dev nD) : W0 m ρ c (Proc.devRef .tc main_arg2) = (m ((c : Thread nD τ).loc main_arg2)) := rfl
theorem w0_arg3 (c : Dev nD) : W0 m ρ c (Proc.devRef .tc main_arg3) = (m ((c : Thread nD τ).loc main_arg3)) := rfl
theorem w0_arg4 (c : Dev nD) : W0 m ρ c (Proc.devRef .tc main_arg4) = (m ((c : Thread nD τ).loc main_arg4)) := rfl
theorem w0_arg5 (c : Dev nD) : W0 m ρ c (Proc.devRef .tc main_arg5) = (m ((c : Thread nD τ).loc main_arg5)) := rfl
theorem w0_arg6 (c : Dev nD) : W0 m ρ c (Proc.devRef .tc main_arg6) = (m ((c : Thread nD τ).loc main_arg6)) := rfl
theorem w0_arg7 (c : Dev nD) : W0 m ρ c (Proc.devRef .tc main_arg7) = (m ((c : Thread nD τ).loc main_arg7)) := rfl
theorem w0_arg8 (c : Dev nD) : W0 m ρ c (Proc.devRef .tc main_arg8) = (m ((c : Thread nD τ).loc main_arg8)) := rfl
theorem w0_arg9 (c : Dev nD) : W0 m ρ c (Proc.devRef .tc main_arg9) = (m ((c : Thread nD τ).loc main_arg9)) := rfl
theorem w0_arg10 (c : Dev nD) : W0 m ρ c (Proc.devRef .tc main_arg10) = (m ((c : Thread nD τ).loc main_arg10)) := rfl
theorem w0_arg11 (c : Dev nD) : W0 m ρ c (Proc.devRef .tc main_arg11) = (m ((c : Thread nD τ).loc main_arg11)) := rfl
theorem w0_arg12 (c : Dev nD) : W0 m ρ c (Proc.devRef .tc main_arg12) = (m ((c : Thread nD τ).loc main_arg12)) := rfl
theorem w0_arg13 (c : Dev nD) : W0 m ρ c (Proc.devRef .tc main_arg13) = (m ((c : Thread nD τ).loc main_arg13)) := rfl

/-! ### After the first host stretch: the edge lists with self-loops, the weights with ones, the degrees, their powers -/
theorem w1_v1 (c : Dev nD) : W1 m ρ c (Proc.devRef .tc main_v1) = (Cert.ReferenceIdeal.Read.val_main_v1 (F := Ideal) (m ((c : Thread nD τ).loc main_arg1))) := by
  show StableHlo.after hostOps0 (W0 m ρ c) (Proc.devRef .tc main_v1) = _
  after_results
  rfl
theorem w1_v2 (c : Dev nD) : W1 m ρ c (Proc.devRef .tc main_v2) = (Cert.ReferenceIdeal.Read.val_main_v2 (F := Ideal) (m ((c : Thread nD τ).loc main_arg2))) := by
  show StableHlo.after hostOps0 (W0 m ρ c) (Proc.devRef .tc main_v2) = _
  after_results
  rfl
theorem w1_v4 (c : Dev nD) : W1 m ρ c (Proc.devRef .tc main_v4) = (Cert.ReferenceIdeal.Read.val_main_v4 (F := Ideal) (m ((c : Thread nD τ).loc main_arg3))) := by
  show StableHlo.after hostOps0 (W0 m ρ c) (Proc.devRef .tc main_v4) = _
  after_results
  rfl
theorem w1_v9 (c : Dev nD) : W1 m ρ c (Proc.devRef .tc main_v9) = (Cert.ReferenceIdeal.Read.val_main_v9 (F := Ideal) (m ((c : Thread nD τ).loc main_arg2)) (m ((c : Thread nD τ).loc main_arg3))) := by
  show StableHlo.after hostOps0 (W0 m ρ c) (Proc.devRef .tc main_v9) = _
  after_results
  rfl
theorem w1_v11 (c : Dev nD) : W1 m ρ c (Proc.devRef .tc main_v11) = (Cert.ReferenceIdeal.Read.val_main_v11 (F := Ideal) (m ((c : Thread nD τ).loc main_arg2)) (m ((c : Thread nD τ).loc main_arg3))) := by
  show StableHlo.after hostOps0 (W0 m ρ c) (Proc.devRef .tc main_v11) = _
  after_results
  rfl
theorem w1_cst_3 (c : Dev nD) : W1 m ρ c (Proc.devRef .tc main_cst_3) = (Cert.ReferenceIdeal.Read.val_main_cst_3 (F := Ideal)) := by
  show StableHlo.after hostOps0 (W0 m ρ c) (Proc.devRef .tc main_cst_3) = _
  after_results
  rfl
theorem w1_arg0 (c : Dev nD) : W1 m ρ c (Proc.devRef .tc main_arg0) = (m ((c : Thread nD τ).loc main_arg0)) :=
  (skip_host hostOps0 (Proc.devRef .tc main_arg0)).trans (w0_arg0 m ρ c)
theorem w1_arg4 (c : Dev nD) : W1 m ρ c (Proc.devRef .tc main_arg4) = (m ((c : Thread nD τ).loc main_arg4)) :=
  (skip_host hostOps0 (Proc.devRef .tc main_arg4)).trans (w0_arg4 m ρ c)
theorem w1_arg5 (c : Dev nD) : W1 m ρ c (Proc.devRef .tc main_arg5) = (m ((c : Thread nD τ).loc main_arg5)) :=
  (skip_host hostOps0 (Proc.devRef .tc main_arg5)).trans (w0_arg5 m ρ c)
theorem w1_arg6 (c : Dev nD) : W1 m ρ c (Proc.devRef .tc main_arg6) = (m ((c : Thread nD τ).loc main_arg6)) :=
  (skip_host hostOps0 (Proc.devRef .tc main_arg6)).trans (w0_arg6 m ρ c)
theorem w1_arg7 (c : Dev nD) : W1 m ρ c (Proc.devRef .tc main_arg7) = (m ((c : Thread nD τ).loc main_arg7)) :=
  (skip_host hostOps0 (Proc.devRef .tc main_arg7)).trans (w0_arg7 m ρ c)
theorem w1_arg8 (c : Dev nD) : W1 m ρ c (Proc.devRef .tc main_arg8) = (m ((c : Thread nD τ).loc main_arg8)) :=
  (skip_host hostOps0 (Proc.devRef .tc main_arg8)).trans (w0_arg8 m ρ c)
theorem w1_arg9 (c : Dev nD) : W1 m ρ c (Proc.devRef .tc main_arg9) = (m ((c : Thread nD τ).loc main_arg9)) :=
  (skip_host hostOps0 (Proc.devRef .tc main_arg9)).trans (w0_arg9 m ρ c)
theorem w1_arg10 (c : Dev nD) : W1 m ρ c (Proc.devRef .tc main_arg10) = (m ((c : Thread nD τ).loc main_arg10)) :=
  (skip_host hostOps0 (Proc.devRef .tc main_arg10)).trans (w0_arg10 m ρ c)
theorem w1_arg11 (c : Dev nD) : W1 m ρ c (Proc.devRef .tc main_arg11) = (m ((c : Thread nD τ).loc main_arg11)) :=
  (skip_host hostOps0 (Proc.devRef .tc main_arg11)).trans (w0_arg11 m ρ c)
theorem w1_arg12 (c : Dev nD) : W1 m ρ c (Proc.devRef .tc main_arg12) = (m ((c : Thread nD τ).loc main_arg12)) :=
  (skip_host hostOps0 (Proc.devRef .tc main_arg12)).trans (w0_arg12 m ρ c)
theorem w1_arg13 (c : Dev nD) : W1 m ρ c (Proc.devRef .tc main_arg13) = (m ((c : Thread nD τ).loc main_arg13)) :=
  (skip_host hostOps0 (Proc.devRef .tc main_arg13)).trans (w0_arg13 m ρ c)

/-! ### After the selection of the inverse square roots of the positive degrees -/
set_option maxRecDepth 1000000 in
set_option maxHeartbeats 4000000 in
theorem w2_v12 (c : Dev nD) : W2 m ρ c (Proc.devRef .tc main_v12) = (Cert.ReferenceIdeal.Read.val_main_v12 (F := Ideal) (m ((c : Thread nD τ).loc main_arg2)) (m ((c : Thread nD τ).loc main_arg3))) := by
  have h0 := w1_v9 m ρ c
  have h1 := w1_v11 m ρ c
  have h2 := w1_cst_3 m ρ c
  show StableHlo.after hostOps0_1 (W1 m ρ c) (Proc.devRef .tc main_v12) = _
  generalize W1 m ρ c = F at h0 h1 h2 ⊢
  after_results
  rw [h0, h1, h2]
  unfold Cert.ReferenceIdeal.Read.val_main_v12 Cert.ReferenceIdeal.Read.val_main_call0_v1 Cert.ReferenceIdeal.Read.val_main_call0_v0
  simp only [cast_eq]
theorem w2_v1 (c : Dev nD) : W2 m ρ c (Proc.devRef .tc main_v1) = (Cert.ReferenceIdeal.Read.val_main_v1 (F := Ideal) (m ((c : Thread nD τ).loc main_arg1))) :=
  (skip_host hostOps0_1 (Proc.devRef .tc main_v1)).trans (w1_v1 m ρ c)
theorem w2_v2 (c : Dev nD) : W2 m ρ c (Proc.devRef .tc main_v2) = (Cert.ReferenceIdeal.Read.val_main_v2 (F := Ideal) (m ((c : Thread nD τ).loc main_arg2))) :=
  (skip_host hostOps0_1 (Proc.devRef .tc main_v2)).trans (w1_v2 m ρ c)
theorem w2_v4 (c : Dev nD) : W2 m ρ c (Proc.devRef .tc main_v4) = (Cert.ReferenceIdeal.Read.val_main_v4 (F := Ideal) (m ((c : Thread nD τ).loc main_arg3))) :=
  (skip_host hostOps0_1 (Proc.devRef .tc main_v4)).trans (w1_v4 m ρ c)
theorem w2_arg0 (c : Dev nD) : W2 m ρ c (Proc.devRef .tc main_arg0) = (m ((c : Thread nD τ).loc main_arg0)) :=
  (skip_host hostOps0_1 (Proc.devRef .tc main_arg0)).trans (w1_arg0 m ρ c)
theorem w2_arg4 (c : Dev nD) : W2 m ρ c (Proc.devRef .tc main_arg4) = (m ((c : Thread nD τ).loc main_arg4)) :=
  (skip_host hostOps0_1 (Proc.devRef .tc main_arg4)).trans (w1_arg4 m ρ c)
theorem w2_arg5 (c : Dev nD) : W2 m ρ c (Proc.devRef .tc main_arg5) = (m ((c : Thread nD τ).loc main_arg5)) :=
  (skip_host hostOps0_1 (Proc.devRef .tc main_arg5)).trans (w1_arg5 m ρ c)
theorem w2_arg6 (c : Dev nD) : W2 m ρ c (Proc.devRef .tc main_arg6) = (m ((c : Thread nD τ).loc main_arg6)) :=
  (skip_host hostOps0_1 (Proc.devRef .tc main_arg6)).trans (w1_arg6 m ρ c)
theorem w2_arg7 (c : Dev nD) : W2 m ρ c (Proc.devRef .tc main_arg7) = (m ((c : Thread nD τ).loc main_arg7)) :=
  (skip_host hostOps0_1 (Proc.devRef .tc main_arg7)).trans (w1_arg7 m ρ c)
theorem w2_arg8 (c : Dev nD) : W2 m ρ c (Proc.devRef .tc main_arg8) = (m ((c : Thread nD τ).loc main_arg8)) :=
  (skip_host hostOps0_1 (Proc.devRef .tc main_arg8)).trans (w1_arg8 m ρ c)
theorem w2_arg9 (c : Dev nD) : W2 m ρ c (Proc.devRef .tc main_arg9) = (m ((c : Thread nD τ).loc main_arg9)) :=
  (skip_host hostOps0_1 (Proc.devRef .tc main_arg9)).trans (w1_arg9 m ρ c)
theorem w2_arg10 (c : Dev nD) : W2 m ρ c (Proc.devRef .tc main_arg10) = (m ((c : Thread nD τ).loc main_arg10)) :=
  (skip_host hostOps0_1 (Proc.devRef .tc main_arg10)).trans (w1_arg10 m ρ c)
theorem w2_arg11 (c : Dev nD) : W2 m ρ c (Proc.devRef .tc main_arg11) = (m ((c : Thread nD τ).loc main_arg11)) :=
  (skip_host hostOps0_1 (Proc.devRef .tc main_arg11)).trans (w1_arg11 m ρ c)
theorem w2_arg12 (c : Dev nD) : W2 m ρ c (Proc.devRef .tc main_arg12) = (m ((c : Thread nD τ).loc main_arg12)) :=
  (skip_host hostOps0_1 (Proc.devRef .tc main_arg12)).trans (w1_arg12 m ρ c)
theorem w2_arg13 (c : Dev nD) : W2 m ρ c (Proc.devRef .tc main_arg13) = (m ((c : Thread nD τ).loc main_arg13)) :=
  (skip_host hostOps0_1 (Proc.devRef .tc main_arg13)).trans (w1_arg13 m ρ c)

/-! ### After the edge normalisation -/
set_option maxRecDepth 1000000 in
set_option maxHeartbeats 4000000 in
theorem w3_v28 (c : Dev nD) : W3 m ρ c (Proc.devRef .tc main_v28) = (Cert.ReferenceIdeal.Read.val_main_v28 (F := Ideal) (m ((c : Thread nD τ).loc main_arg1)) (m ((c : Thread nD τ).loc main_arg2)) (m ((c : Thread nD τ).loc main_arg3))) := by
  have h0 := w2_v12 m ρ c
  have h1 := w2_v1 m ρ c
  have h2 := w2_v2 m ρ c
  have h3 := w2_v4 m ρ c
  show StableHlo.after hostOps0_2 (W2 m ρ c) (Proc.devRef .tc main_v28) = _
  generalize W2 m ρ c = F at h0 h1 h2 h3 ⊢
  after_results
  rw [h0, h1, h2, h3]
  unfold Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_v23 Cert.ReferenceIdeal.Read.val_main_c_6 Cert.ReferenceIdeal.Read.val_main_v22 Cert.ReferenceIdeal.Read.val_main_v21 Cert.ReferenceIdeal.Read.val_main_c_5 Cert.ReferenceIdeal.Read.val_main_v20 Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_c_4 Cert.ReferenceIdeal.Read.val_main_v14 Cert.ReferenceIdeal.Read.val_main_v13 Cert.ReferenceIdeal.Read.val_main_c
  rfl
theorem w3_v1 (c : Dev nD) : W3 m ρ c (Proc.devRef .tc main_v1) = (Cert.ReferenceIdeal.Read.val_main_v1 (F := Ideal) (m ((c : Thread nD τ).loc main_arg1))) :=
  (skip_host hostOps0_2 (Proc.devRef .tc main_v1)).trans (w2_v1 m ρ c)
theorem w3_v2 (c : Dev nD) : W3 m ρ c (Proc.devRef .tc main_v2) = (Cert.ReferenceIdeal.Read.val_main_v2 (F := Ideal) (m ((c : Thread nD τ).loc main_arg2))) :=
  (skip_host hostOps0_2 (Proc.devRef .tc main_v2)).trans (w2_v2 m ρ c)
theorem w3_arg0 (c : Dev nD) : W3 m ρ c (Proc.devRef .tc main_arg0) = (m ((c : Thread nD τ).loc main_arg0)) :=
  (skip_host hostOps0_2 (Proc.devRef .tc main_arg0)).trans (w2_arg0 m ρ c)
theorem w3_arg4 (c : Dev nD) : W3 m ρ c (Proc.devRef .tc main_arg4) = (m ((c : Thread nD τ).loc main_arg4)) :=
  (skip_host hostOps0_2 (Proc.devRef .tc main_arg4)).trans (w2_arg4 m ρ c)
theorem w3_arg5 (c : Dev nD) : W3 m ρ c (Proc.devRef .tc main_arg5) = (m ((c : Thread nD τ).loc main_arg5)) :=
  (skip_host hostOps0_2 (Proc.devRef .tc main_arg5)).trans (w2_arg5 m ρ c)
theorem w3_arg6 (c : Dev nD) : W3 m ρ c (Proc.devRef .tc main_arg6) = (m ((c : Thread nD τ).loc main_arg6)) :=
  (skip_host hostOps0_2 (Proc.devRef .tc main_arg6)).trans (w2_arg6 m ρ c)
theorem w3_arg7 (c : Dev nD) : W3 m ρ c (Proc.devRef .tc main_arg7) = (m ((c : Thread nD τ).loc main_arg7)) :=
  (skip_host hostOps0_2 (Proc.devRef .tc main_arg7)).trans (w2_arg7 m ρ c)
theorem w3_arg8 (c : Dev nD) : W3 m ρ c (Proc.devRef .tc main_arg8) = (m ((c : Thread nD τ).loc main_arg8)) :=
  (skip_host hostOps0_2 (Proc.devRef .tc main_arg8)).trans (w2_arg8 m ρ c)
theorem w3_arg9 (c : Dev nD) : W3 m ρ c (Proc.devRef .tc main_arg9) = (m ((c : Thread nD τ).loc main_arg9)) :=
  (skip_host hostOps0_2 (Proc.devRef .tc main_arg9)).trans (w2_arg9 m ρ c)
theorem w3_arg10 (c : Dev nD) : W3 m ρ c (Proc.devRef .tc main_arg10) = (m ((c : Thread nD τ).loc main_arg10)) :=
  (skip_host hostOps0_2 (Proc.devRef .tc main_arg10)).trans (w2_arg10 m ρ c)
theorem w3_arg11 (c : Dev nD) : W3 m ρ c (Proc.devRef .tc main_arg11) = (m ((c : Thread nD τ).loc main_arg11)) :=
  (skip_host hostOps0_2 (Proc.devRef .tc main_arg11)).trans (w2_arg11 m ρ c)
theorem w3_arg12 (c : Dev nD) : W3 m ρ c (Proc.devRef .tc main_arg12) = (m ((c : Thread nD τ).loc main_arg12)) :=
  (skip_host hostOps0_2 (Proc.devRef .tc main_arg12)).trans (w2_arg12 m ρ c)
theorem w3_arg13 (c : Dev nD) : W3 m ρ c (Proc.devRef .tc main_arg13) = (m ((c : Thread nD τ).loc main_arg13)) :=
  (skip_host hostOps0_2 (Proc.devRef .tc main_arg13)).trans (w2_arg13 m ρ c)

/-! ### Layer 1: the product with the first weight matrix -/
theorem w4_v29 (c : Dev nD) : W4 m ρ c (Proc.devRef .tc main_v29) = (Cert.ReferenceIdeal.Read.val_main_v29 (F := Ideal) (m ((c : Thread nD τ).loc main_arg0)) (m ((c : Thread nD τ).loc main_arg4))) :=
  (W4_arr m ρ c 2).trans ((Cert.KernelIdeal.RegionValue.region0 (V3 m ρ) c).trans (by
    show Cert.Spec.mm (W3 m ρ c (Proc.devRef .tc main_arg0)) (W3 m ρ c (Proc.devRef .tc main_arg4)) = _
    rw [w3_arg0 m ρ c, w3_arg4 m ρ c]
    exact (Cert.ReferenceIdeal.BridgeMM.mm_v29 _ _).symm))
theorem w4_v28 (c : Dev nD) : W4 m ρ c (Proc.devRef .tc main_v28) = (Cert.ReferenceIdeal.Read.val_main_v28 (F := Ideal) (m ((c : Thread nD τ).loc main_arg1)) (m ((c : Thread nD τ).loc main_arg2)) (m ((c : Thread nD τ).loc main_arg3))) :=
  (W4_of_ne m ρ c main_v28 (by decide)).trans (w3_v28 m ρ c)
theorem w4_v1 (c : Dev nD) : W4 m ρ c (Proc.devRef .tc main_v1) = (Cert.ReferenceIdeal.Read.val_main_v1 (F := Ideal) (m ((c : Thread nD τ).loc main_arg1))) :=
  (W4_of_ne m ρ c main_v1 (by decide)).trans (w3_v1 m ρ c)
theorem w4_v2 (c : Dev nD) : W4 m ρ c (Proc.devRef .tc main_v2) = (Cert.ReferenceIdeal.Read.val_main_v2 (F := Ideal) (m ((c : Thread nD τ).loc main_arg2))) :=
  (W4_of_ne m ρ c main_v2 (by decide)).trans (w3_v2 m ρ c)
theorem w4_arg5 (c : Dev nD) : W4 m ρ c (Proc.devRef .tc main_arg5) = (m ((c : Thread nD τ).loc main_arg5)) :=
  (W4_of_ne m ρ c main_arg5 (by decide)).trans (w3_arg5 m ρ c)
theorem w4_arg6 (c : Dev nD) : W4 m ρ c (Proc.devRef .tc main_arg6) = (m ((c : Thread nD τ).loc main_arg6)) :=
  (W4_of_ne m ρ c main_arg6 (by decide)).trans (w3_arg6 m ρ c)
theorem w4_arg7 (c : Dev nD) : W4 m ρ c (Proc.devRef .tc main_arg7) = (m ((c : Thread nD τ).loc main_arg7)) :=
  (W4_of_ne m ρ c main_arg7 (by decide)).trans (w3_arg7 m ρ c)
theorem w4_arg8 (c : Dev nD) : W4 m ρ c (Proc.devRef .tc main_arg8) = (m ((c : Thread nD τ).loc main_arg8)) :=
  (W4_of_ne m ρ c main_arg8 (by decide)).trans (w3_arg8 m ρ c)
theorem w4_arg9 (c : Dev nD) : W4 m ρ c (Proc.devRef .tc main_arg9) = (m ((c : Thread nD τ).loc main_arg9)) :=
  (W4_of_ne m ρ c main_arg9 (by decide)).trans (w3_arg9 m ρ c)
theorem w4_arg10 (c : Dev nD) : W4 m ρ c (Proc.devRef .tc main_arg10) = (m ((c : Thread nD τ).loc main_arg10)) :=
  (W4_of_ne m ρ c main_arg10 (by decide)).trans (w3_arg10 m ρ c)
theorem w4_arg11 (c : Dev nD) : W4 m ρ c (Proc.devRef .tc main_arg11) = (m ((c : Thread nD τ).loc main_arg11)) :=
  (W4_of_ne m ρ c main_arg11 (by decide)).trans (w3_arg11 m ρ c)
theorem w4_arg12 (c : Dev nD) : W4 m ρ c (Proc.devRef .tc main_arg12) = (m ((c : Thread nD τ).loc main_arg12)) :=
  (W4_of_ne m ρ c main_arg12 (by decide)).trans (w3_arg12 m ρ c)
theorem w4_arg13 (c : Dev nD) : W4 m ρ c (Proc.devRef .tc main_arg13) = (m ((c : Thread nD τ).loc main_arg13)) :=
  (W4_of_ne m ρ c main_arg13 (by decide)).trans (w3_arg13 m ρ c)

/-! ### Layer 1: the aggregate along the edges, and the bias as a row -/
set_option maxRecDepth 1000000 in
set_option maxHeartbeats 4000000 in
theorem w5_v42 (c : Dev nD) : W5 m ρ c (Proc.devRef .tc main_v42) = (Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  have h0 := w4_v29 m ρ c
  have h1 := w4_v28 m ρ c
  have h2 := w4_v1 m ρ c
  have h3 := w4_v2 m ρ c
  show StableHlo.after hostOps1 (W4 m ρ c) (Proc.devRef .tc main_v42) = _
  generalize W4 m ρ c = F at h0 h1 h2 h3 ⊢
  after_results
  rw [h0, h1, h2, h3]
  unfold Cert.ReferenceIdeal.Read.val_main_v42 Cert.ReferenceIdeal.Read.val_main_v41 Cert.ReferenceIdeal.Read.val_main_v40 Cert.ReferenceIdeal.Read.val_main_cst_9 Cert.ReferenceIdeal.Read.val_main_v39 Cert.ReferenceIdeal.Read.val_main_v38 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_c_8 Cert.ReferenceIdeal.Read.val_main_v32 Cert.ReferenceIdeal.Read.val_main_v31 Cert.ReferenceIdeal.Read.val_main_c_7 Cert.ReferenceIdeal.Read.val_main_v30
  rfl
theorem w5_v43 (c : Dev nD) : W5 m ρ c (Proc.devRef .tc main_v43) = (row128 (m ((c : Thread nD τ).loc main_arg5))) := by
  have h0 := w4_arg5 m ρ c
  show StableHlo.after hostOps1 (W4 m ρ c) (Proc.devRef .tc main_v43) = _
  generalize W4 m ρ c = F at h0 ⊢
  after_results
  rw [h0]
  rfl
theorem w5_v28 (c : Dev nD) : W5 m ρ c (Proc.devRef .tc main_v28) = (Cert.ReferenceIdeal.Read.val_main_v28 (F := Ideal) (m ((c : Thread nD τ).loc main_arg1)) (m ((c : Thread nD τ).loc main_arg2)) (m ((c : Thread nD τ).loc main_arg3))) :=
  (skip_host hostOps1 (Proc.devRef .tc main_v28)).trans (w4_v28 m ρ c)
theorem w5_v1 (c : Dev nD) : W5 m ρ c (Proc.devRef .tc main_v1) = (Cert.ReferenceIdeal.Read.val_main_v1 (F := Ideal) (m ((c : Thread nD τ).loc main_arg1))) :=
  (skip_host hostOps1 (Proc.devRef .tc main_v1)).trans (w4_v1 m ρ c)
theorem w5_v2 (c : Dev nD) : W5 m ρ c (Proc.devRef .tc main_v2) = (Cert.ReferenceIdeal.Read.val_main_v2 (F := Ideal) (m ((c : Thread nD τ).loc main_arg2))) :=
  (skip_host hostOps1 (Proc.devRef .tc main_v2)).trans (w4_v2 m ρ c)
theorem w5_arg6 (c : Dev nD) : W5 m ρ c (Proc.devRef .tc main_arg6) = (m ((c : Thread nD τ).loc main_arg6)) :=
  (skip_host hostOps1 (Proc.devRef .tc main_arg6)).trans (w4_arg6 m ρ c)
theorem w5_arg7 (c : Dev nD) : W5 m ρ c (Proc.devRef .tc main_arg7) = (m ((c : Thread nD τ).loc main_arg7)) :=
  (skip_host hostOps1 (Proc.devRef .tc main_arg7)).trans (w4_arg7 m ρ c)
theorem w5_arg8 (c : Dev nD) : W5 m ρ c (Proc.devRef .tc main_arg8) = (m ((c : Thread nD τ).loc main_arg8)) :=
  (skip_host hostOps1 (Proc.devRef .tc main_arg8)).trans (w4_arg8 m ρ c)
theorem w5_arg9 (c : Dev nD) : W5 m ρ c (Proc.devRef .tc main_arg9) = (m ((c : Thread nD τ).loc main_arg9)) :=
  (skip_host hostOps1 (Proc.devRef .tc main_arg9)).trans (w4_arg9 m ρ c)
theorem w5_arg10 (c : Dev nD) : W5 m ρ c (Proc.devRef .tc main_arg10) = (m ((c : Thread nD τ).loc main_arg10)) :=
  (skip_host hostOps1 (Proc.devRef .tc main_arg10)).trans (w4_arg10 m ρ c)
theorem w5_arg11 (c : Dev nD) : W5 m ρ c (Proc.devRef .tc main_arg11) = (m ((c : Thread nD τ).loc main_arg11)) :=
  (skip_host hostOps1 (Proc.devRef .tc main_arg11)).trans (w4_arg11 m ρ c)
theorem w5_arg12 (c : Dev nD) : W5 m ρ c (Proc.devRef .tc main_arg12) = (m ((c : Thread nD τ).loc main_arg12)) :=
  (skip_host hostOps1 (Proc.devRef .tc main_arg12)).trans (w4_arg12 m ρ c)
theorem w5_arg13 (c : Dev nD) : W5 m ρ c (Proc.devRef .tc main_arg13) = (m ((c : Thread nD τ).loc main_arg13)) :=
  (skip_host hostOps1 (Proc.devRef .tc main_arg13)).trans (w4_arg13 m ρ c)

/-! ### Layer 1: the column sums and the column sums of squares of the pre-activation -/
theorem w6_v44_0 (c : Dev nD) : W6 m ρ c (Proc.devRef .tc main_v44_0) = (Cert.Spec.colSum (Cert.Spec.pre (Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (row128 (m ((c : Thread nD τ).loc main_arg5))))) :=
  (W6_arr m ρ c 2).trans ((Cert.KernelIdeal.RegionValue.region1_sum (V5 m ρ) c).trans (by
    show Cert.Spec.colSum (Cert.Spec.pre (W5 m ρ c (Proc.devRef .tc main_v42)) (W5 m ρ c (Proc.devRef .tc main_v43))) = _
    rw [w5_v42 m ρ c, w5_v43 m ρ c]))
theorem w6_v44_1 (c : Dev nD) : W6 m ρ c (Proc.devRef .tc main_v44_1) = (Cert.Spec.colSumSq (Cert.Spec.pre (Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (row128 (m ((c : Thread nD τ).loc main_arg5))))) :=
  (W6_arr m ρ c 3).trans ((Cert.KernelIdeal.RegionValue.region1_sumsq (V5 m ρ) c).trans (by
    show Cert.Spec.colSumSq (Cert.Spec.pre (W5 m ρ c (Proc.devRef .tc main_v42)) (W5 m ρ c (Proc.devRef .tc main_v43))) = _
    rw [w5_v42 m ρ c, w5_v43 m ρ c]))
theorem w6_v42 (c : Dev nD) : W6 m ρ c (Proc.devRef .tc main_v42) = (Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :=
  (W6_arr m ρ c 0).trans (((dat1 (V5 m ρ) c).arrAt_in 0 rfl _).trans ((A_eq1 (V5 m ρ) c 0).trans (w5_v42 m ρ c)))
theorem w6_v43 (c : Dev nD) : W6 m ρ c (Proc.devRef .tc main_v43) = (row128 (m ((c : Thread nD τ).loc main_arg5))) :=
  (W6_arr m ρ c 1).trans (((dat1 (V5 m ρ) c).arrAt_in 1 rfl _).trans ((A_eq1 (V5 m ρ) c 1).trans (w5_v43 m ρ c)))
theorem w6_v28 (c : Dev nD) : W6 m ρ c (Proc.devRef .tc main_v28) = (Cert.ReferenceIdeal.Read.val_main_v28 (F := Ideal) (m ((c : Thread nD τ).loc main_arg1)) (m ((c : Thread nD τ).loc main_arg2)) (m ((c : Thread nD τ).loc main_arg3))) :=
  (W6_of_ne m ρ c main_v28 (by decide)).trans (w5_v28 m ρ c)
theorem w6_v1 (c : Dev nD) : W6 m ρ c (Proc.devRef .tc main_v1) = (Cert.ReferenceIdeal.Read.val_main_v1 (F := Ideal) (m ((c : Thread nD τ).loc main_arg1))) :=
  (W6_of_ne m ρ c main_v1 (by decide)).trans (w5_v1 m ρ c)
theorem w6_v2 (c : Dev nD) : W6 m ρ c (Proc.devRef .tc main_v2) = (Cert.ReferenceIdeal.Read.val_main_v2 (F := Ideal) (m ((c : Thread nD τ).loc main_arg2))) :=
  (W6_of_ne m ρ c main_v2 (by decide)).trans (w5_v2 m ρ c)
theorem w6_arg6 (c : Dev nD) : W6 m ρ c (Proc.devRef .tc main_arg6) = (m ((c : Thread nD τ).loc main_arg6)) :=
  (W6_of_ne m ρ c main_arg6 (by decide)).trans (w5_arg6 m ρ c)
theorem w6_arg7 (c : Dev nD) : W6 m ρ c (Proc.devRef .tc main_arg7) = (m ((c : Thread nD τ).loc main_arg7)) :=
  (W6_of_ne m ρ c main_arg7 (by decide)).trans (w5_arg7 m ρ c)
theorem w6_arg8 (c : Dev nD) : W6 m ρ c (Proc.devRef .tc main_arg8) = (m ((c : Thread nD τ).loc main_arg8)) :=
  (W6_of_ne m ρ c main_arg8 (by decide)).trans (w5_arg8 m ρ c)
theorem w6_arg9 (c : Dev nD) : W6 m ρ c (Proc.devRef .tc main_arg9) = (m ((c : Thread nD τ).loc main_arg9)) :=
  (W6_of_ne m ρ c main_arg9 (by decide)).trans (w5_arg9 m ρ c)
theorem w6_arg10 (c : Dev nD) : W6 m ρ c (Proc.devRef .tc main_arg10) = (m ((c : Thread nD τ).loc main_arg10)) :=
  (W6_of_ne m ρ c main_arg10 (by decide)).trans (w5_arg10 m ρ c)
theorem w6_arg11 (c : Dev nD) : W6 m ρ c (Proc.devRef .tc main_arg11) = (m ((c : Thread nD τ).loc main_arg11)) :=
  (W6_of_ne m ρ c main_arg11 (by decide)).trans (w5_arg11 m ρ c)
theorem w6_arg12 (c : Dev nD) : W6 m ρ c (Proc.devRef .tc main_arg12) = (m ((c : Thread nD τ).loc main_arg12)) :=
  (W6_of_ne m ρ c main_arg12 (by decide)).trans (w5_arg12 m ρ c)
theorem w6_arg13 (c : Dev nD) : W6 m ρ c (Proc.devRef .tc main_arg13) = (m ((c : Thread nD τ).loc main_arg13)) :=
  (W6_of_ne m ρ c main_arg13 (by decide)).trans (w5_arg13 m ρ c)

/-! ### Layer 1: the mean row, the variance row (mean of squares minus squared mean), scale and shift as rows -/
theorem w7_v46 (c : Dev nD) : W7 m ρ c (Proc.devRef .tc main_v46) = (mean128 (Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (row128 (m ((c : Thread nD τ).loc main_arg5)))) := by
  have h0 := w6_v44_0 m ρ c
  show StableHlo.after hostOps2 (W6 m ρ c) (Proc.devRef .tc main_v46) = _
  generalize W6 m ρ c = F at h0 ⊢
  after_results
  rw [h0]
  rfl
theorem w7_v50 (c : Dev nD) : W7 m ρ c (Proc.devRef .tc main_v50) = (var128 (Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (row128 (m ((c : Thread nD τ).loc main_arg5)))) := by
  have h0 := w6_v44_1 m ρ c
  have h1 := w6_v44_0 m ρ c
  show StableHlo.after hostOps2 (W6 m ρ c) (Proc.devRef .tc main_v50) = _
  generalize W6 m ρ c = F at h0 h1 ⊢
  after_results
  rw [h0, h1]
  rfl
theorem w7_v51 (c : Dev nD) : W7 m ρ c (Proc.devRef .tc main_v51) = (row128 (m ((c : Thread nD τ).loc main_arg6))) := by
  have h0 := w6_arg6 m ρ c
  show StableHlo.after hostOps2 (W6 m ρ c) (Proc.devRef .tc main_v51) = _
  generalize W6 m ρ c = F at h0 ⊢
  after_results
  rw [h0]
  rfl
theorem w7_v52 (c : Dev nD) : W7 m ρ c (Proc.devRef .tc main_v52) = (row128 (m ((c : Thread nD τ).loc main_arg7))) := by
  have h0 := w6_arg7 m ρ c
  show StableHlo.after hostOps2 (W6 m ρ c) (Proc.devRef .tc main_v52) = _
  generalize W6 m ρ c = F at h0 ⊢
  after_results
  rw [h0]
  rfl
theorem w7_v42 (c : Dev nD) : W7 m ρ c (Proc.devRef .tc main_v42) = (Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :=
  (skip_host hostOps2 (Proc.devRef .tc main_v42)).trans (w6_v42 m ρ c)
theorem w7_v43 (c : Dev nD) : W7 m ρ c (Proc.devRef .tc main_v43) = (row128 (m ((c : Thread nD τ).loc main_arg5))) :=
  (skip_host hostOps2 (Proc.devRef .tc main_v43)).trans (w6_v43 m ρ c)
theorem w7_v28 (c : Dev nD) : W7 m ρ c (Proc.devRef .tc main_v28) = (Cert.ReferenceIdeal.Read.val_main_v28 (F := Ideal) (m ((c : Thread nD τ).loc main_arg1)) (m ((c : Thread nD τ).loc main_arg2)) (m ((c : Thread nD τ).loc main_arg3))) :=
  (skip_host hostOps2 (Proc.devRef .tc main_v28)).trans (w6_v28 m ρ c)
theorem w7_v1 (c : Dev nD) : W7 m ρ c (Proc.devRef .tc main_v1) = (Cert.ReferenceIdeal.Read.val_main_v1 (F := Ideal) (m ((c : Thread nD τ).loc main_arg1))) :=
  (skip_host hostOps2 (Proc.devRef .tc main_v1)).trans (w6_v1 m ρ c)
theorem w7_v2 (c : Dev nD) : W7 m ρ c (Proc.devRef .tc main_v2) = (Cert.ReferenceIdeal.Read.val_main_v2 (F := Ideal) (m ((c : Thread nD τ).loc main_arg2))) :=
  (skip_host hostOps2 (Proc.devRef .tc main_v2)).trans (w6_v2 m ρ c)
theorem w7_arg8 (c : Dev nD) : W7 m ρ c (Proc.devRef .tc main_arg8) = (m ((c : Thread nD τ).loc main_arg8)) :=
  (skip_host hostOps2 (Proc.devRef .tc main_arg8)).trans (w6_arg8 m ρ c)
theorem w7_arg9 (c : Dev nD) : W7 m ρ c (Proc.devRef .tc main_arg9) = (m ((c : Thread nD τ).loc main_arg9)) :=
  (skip_host hostOps2 (Proc.devRef .tc main_arg9)).trans (w6_arg9 m ρ c)
theorem w7_arg10 (c : Dev nD) : W7 m ρ c (Proc.devRef .tc main_arg10) = (m ((c : Thread nD τ).loc main_arg10)) :=
  (skip_host hostOps2 (Proc.devRef .tc main_arg10)).trans (w6_arg10 m ρ c)
theorem w7_arg11 (c : Dev nD) : W7 m ρ c (Proc.devRef .tc main_arg11) = (m ((c : Thread nD τ).loc main_arg11)) :=
  (skip_host hostOps2 (Proc.devRef .tc main_arg11)).trans (w6_arg11 m ρ c)
theorem w7_arg12 (c : Dev nD) : W7 m ρ c (Proc.devRef .tc main_arg12) = (m ((c : Thread nD τ).loc main_arg12)) :=
  (skip_host hostOps2 (Proc.devRef .tc main_arg12)).trans (w6_arg12 m ρ c)
theorem w7_arg13 (c : Dev nD) : W7 m ρ c (Proc.devRef .tc main_arg13) = (m ((c : Thread nD τ).loc main_arg13)) :=
  (skip_host hostOps2 (Proc.devRef .tc main_arg13)).trans (w6_arg13 m ρ c)

/-! ### Layer 1: normalise and clip — the reference's layer output, for real arguments -/
theorem w8_v53 (hR : RealArgs m) (c : Dev nD) : W8 m ρ c (Proc.devRef .tc main_v53) = (Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W8_arr m ρ c 6).trans ((Cert.KernelIdeal.RegionValue.region2 (V7 m ρ) c).trans (by
    show Cert.Spec.normRelu (W7 m ρ c (Proc.devRef .tc main_v42)) (W7 m ρ c (Proc.devRef .tc main_v43)) (W7 m ρ c (Proc.devRef .tc main_v46)) (W7 m ρ c (Proc.devRef .tc main_v50))
      (W7 m ρ c (Proc.devRef .tc main_v51)) (W7 m ρ c (Proc.devRef .tc main_v52)) = _
    rw [w7_v42 m ρ c, w7_v43 m ρ c, w7_v46 m ρ c, w7_v50 m ρ c, w7_v51 m ρ c, w7_v52 m ρ c]
    exact Cert.ReferenceIdeal.Bridge.l1_layer _ _ _ _ _ _ _ _
      (Cert.ReferenceIdeal.Finite.v45_real _ _ _ _ _ _ (hR c).h0 (hR c).h3 (hR c).h4 (hR c).h5)
      _ _ _ _ _ (fun j => row128_at _ j) (fun j => row128_at _ j) (fun j => row128_at _ j)
      (fun j => mean128_at _ _ j) (fun j => var128_at _ _ j)))
theorem w8_v28 (c : Dev nD) : W8 m ρ c (Proc.devRef .tc main_v28) = (Cert.ReferenceIdeal.Read.val_main_v28 (F := Ideal) (m ((c : Thread nD τ).loc main_arg1)) (m ((c : Thread nD τ).loc main_arg2)) (m ((c : Thread nD τ).loc main_arg3))) :=
  (W8_of_ne m ρ c main_v28 (by decide)).trans (w7_v28 m ρ c)
theorem w8_v1 (c : Dev nD) : W8 m ρ c (Proc.devRef .tc main_v1) = (Cert.ReferenceIdeal.Read.val_main_v1 (F := Ideal) (m ((c : Thread nD τ).loc main_arg1))) :=
  (W8_of_ne m ρ c main_v1 (by decide)).trans (w7_v1 m ρ c)
theorem w8_v2 (c : Dev nD) : W8 m ρ c (Proc.devRef .tc main_v2) = (Cert.ReferenceIdeal.Read.val_main_v2 (F := Ideal) (m ((c : Thread nD τ).loc main_arg2))) :=
  (W8_of_ne m ρ c main_v2 (by decide)).trans (w7_v2 m ρ c)
theorem w8_arg8 (c : Dev nD) : W8 m ρ c (Proc.devRef .tc main_arg8) = (m ((c : Thread nD τ).loc main_arg8)) :=
  (W8_of_ne m ρ c main_arg8 (by decide)).trans (w7_arg8 m ρ c)
theorem w8_arg9 (c : Dev nD) : W8 m ρ c (Proc.devRef .tc main_arg9) = (m ((c : Thread nD τ).loc main_arg9)) :=
  (W8_of_ne m ρ c main_arg9 (by decide)).trans (w7_arg9 m ρ c)
theorem w8_arg10 (c : Dev nD) : W8 m ρ c (Proc.devRef .tc main_arg10) = (m ((c : Thread nD τ).loc main_arg10)) :=
  (W8_of_ne m ρ c main_arg10 (by decide)).trans (w7_arg10 m ρ c)
theorem w8_arg11 (c : Dev nD) : W8 m ρ c (Proc.devRef .tc main_arg11) = (m ((c : Thread nD τ).loc main_arg11)) :=
  (W8_of_ne m ρ c main_arg11 (by decide)).trans (w7_arg11 m ρ c)
theorem w8_arg12 (c : Dev nD) : W8 m ρ c (Proc.devRef .tc main_arg12) = (m ((c : Thread nD τ).loc main_arg12)) :=
  (W8_of_ne m ρ c main_arg12 (by decide)).trans (w7_arg12 m ρ c)
theorem w8_arg13 (c : Dev nD) : W8 m ρ c (Proc.devRef .tc main_arg13) = (m ((c : Thread nD τ).loc main_arg13)) :=
  (W8_of_ne m ρ c main_arg13 (by decide)).trans (w7_arg13 m ρ c)

/-! ### Layer 2: the product with the second weight matrix -/
theorem w9_v54 (hR : RealArgs m) (c : Dev nD) : W9 m ρ c (Proc.devRef .tc main_v54) = (Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W9_arr m ρ c 2).trans ((Cert.KernelIdeal.RegionValue.region3 (V8 m ρ) c).trans (by
    show Cert.Spec.mm (W8 m ρ c (Proc.devRef .tc main_v53)) (W8 m ρ c (Proc.devRef .tc main_arg8)) = _
    rw [w8_v53 m ρ hR c, w8_arg8 m ρ c]
    exact (Cert.ReferenceIdeal.BridgeMM.mm_v72 _ _ _ _ _ _ _ _ _).symm))
theorem w9_v28 (c : Dev nD) : W9 m ρ c (Proc.devRef .tc main_v28) = (Cert.ReferenceIdeal.Read.val_main_v28 (F := Ideal) (m ((c : Thread nD τ).loc main_arg1)) (m ((c : Thread nD τ).loc main_arg2)) (m ((c : Thread nD τ).loc main_arg3))) :=
  (W9_of_ne m ρ c main_v28 (by decide)).trans (w8_v28 m ρ c)
theorem w9_v1 (c : Dev nD) : W9 m ρ c (Proc.devRef .tc main_v1) = (Cert.ReferenceIdeal.Read.val_main_v1 (F := Ideal) (m ((c : Thread nD τ).loc main_arg1))) :=
  (W9_of_ne m ρ c main_v1 (by decide)).trans (w8_v1 m ρ c)
theorem w9_v2 (c : Dev nD) : W9 m ρ c (Proc.devRef .tc main_v2) = (Cert.ReferenceIdeal.Read.val_main_v2 (F := Ideal) (m ((c : Thread nD τ).loc main_arg2))) :=
  (W9_of_ne m ρ c main_v2 (by decide)).trans (w8_v2 m ρ c)
theorem w9_arg9 (c : Dev nD) : W9 m ρ c (Proc.devRef .tc main_arg9) = (m ((c : Thread nD τ).loc main_arg9)) :=
  (W9_of_ne m ρ c main_arg9 (by decide)).trans (w8_arg9 m ρ c)
theorem w9_arg10 (c : Dev nD) : W9 m ρ c (Proc.devRef .tc main_arg10) = (m ((c : Thread nD τ).loc main_arg10)) :=
  (W9_of_ne m ρ c main_arg10 (by decide)).trans (w8_arg10 m ρ c)
theorem w9_arg11 (c : Dev nD) : W9 m ρ c (Proc.devRef .tc main_arg11) = (m ((c : Thread nD τ).loc main_arg11)) :=
  (W9_of_ne m ρ c main_arg11 (by decide)).trans (w8_arg11 m ρ c)
theorem w9_arg12 (c : Dev nD) : W9 m ρ c (Proc.devRef .tc main_arg12) = (m ((c : Thread nD τ).loc main_arg12)) :=
  (W9_of_ne m ρ c main_arg12 (by decide)).trans (w8_arg12 m ρ c)
theorem w9_arg13 (c : Dev nD) : W9 m ρ c (Proc.devRef .tc main_arg13) = (m ((c : Thread nD τ).loc main_arg13)) :=
  (W9_of_ne m ρ c main_arg13 (by decide)).trans (w8_arg13 m ρ c)

/-! ### Layer 2: the aggregate, the bias row -/
set_option maxRecDepth 1000000 in
set_option maxHeartbeats 4000000 in
theorem w10_v67 (hR : RealArgs m) (c : Dev nD) : W10 m ρ c (Proc.devRef .tc main_v67) = (Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have h0 := w9_v54 m ρ hR c
  have h1 := w9_v28 m ρ c
  have h2 := w9_v1 m ρ c
  have h3 := w9_v2 m ρ c
  show StableHlo.after hostOps4 (W9 m ρ c) (Proc.devRef .tc main_v67) = _
  generalize W9 m ρ c = F at h0 h1 h2 h3 ⊢
  after_results
  rw [h0, h1, h2, h3]
  unfold Cert.ReferenceIdeal.Read.val_main_v85 Cert.ReferenceIdeal.Read.val_main_v84 Cert.ReferenceIdeal.Read.val_main_v83 Cert.ReferenceIdeal.Read.val_main_cst_17 Cert.ReferenceIdeal.Read.val_main_v82 Cert.ReferenceIdeal.Read.val_main_v81 Cert.ReferenceIdeal.Read.val_main_v80 Cert.ReferenceIdeal.Read.val_main_v79 Cert.ReferenceIdeal.Read.val_main_v78 Cert.ReferenceIdeal.Read.val_main_v77 Cert.ReferenceIdeal.Read.val_main_v76 Cert.ReferenceIdeal.Read.val_main_c_16 Cert.ReferenceIdeal.Read.val_main_v75 Cert.ReferenceIdeal.Read.val_main_v74 Cert.ReferenceIdeal.Read.val_main_c_15 Cert.ReferenceIdeal.Read.val_main_v73
  rfl
theorem w10_v68 (c : Dev nD) : W10 m ρ c (Proc.devRef .tc main_v68) = (row64 (m ((c : Thread nD τ).loc main_arg9))) := by
  have h0 := w9_arg9 m ρ c
  show StableHlo.after hostOps4 (W9 m ρ c) (Proc.devRef .tc main_v68) = _
  generalize W9 m ρ c = F at h0 ⊢
  after_results
  rw [h0]
  rfl
theorem w10_v28 (c : Dev nD) : W10 m ρ c (Proc.devRef .tc main_v28) = (Cert.ReferenceIdeal.Read.val_main_v28 (F := Ideal) (m ((c : Thread nD τ).loc main_arg1)) (m ((c : Thread nD τ).loc main_arg2)) (m ((c : Thread nD τ).loc main_arg3))) :=
  (skip_host hostOps4 (Proc.devRef .tc main_v28)).trans (w9_v28 m ρ c)
theorem w10_v1 (c : Dev nD) : W10 m ρ c (Proc.devRef .tc main_v1) = (Cert.ReferenceIdeal.Read.val_main_v1 (F := Ideal) (m ((c : Thread nD τ).loc main_arg1))) :=
  (skip_host hostOps4 (Proc.devRef .tc main_v1)).trans (w9_v1 m ρ c)
theorem w10_v2 (c : Dev nD) : W10 m ρ c (Proc.devRef .tc main_v2) = (Cert.ReferenceIdeal.Read.val_main_v2 (F := Ideal) (m ((c : Thread nD τ).loc main_arg2))) :=
  (skip_host hostOps4 (Proc.devRef .tc main_v2)).trans (w9_v2 m ρ c)
theorem w10_arg10 (c : Dev nD) : W10 m ρ c (Proc.devRef .tc main_arg10) = (m ((c : Thread nD τ).loc main_arg10)) :=
  (skip_host hostOps4 (Proc.devRef .tc main_arg10)).trans (w9_arg10 m ρ c)
theorem w10_arg11 (c : Dev nD) : W10 m ρ c (Proc.devRef .tc main_arg11) = (m ((c : Thread nD τ).loc main_arg11)) :=
  (skip_host hostOps4 (Proc.devRef .tc main_arg11)).trans (w9_arg11 m ρ c)
theorem w10_arg12 (c : Dev nD) : W10 m ρ c (Proc.devRef .tc main_arg12) = (m ((c : Thread nD τ).loc main_arg12)) :=
  (skip_host hostOps4 (Proc.devRef .tc main_arg12)).trans (w9_arg12 m ρ c)
theorem w10_arg13 (c : Dev nD) : W10 m ρ c (Proc.devRef .tc main_arg13) = (m ((c : Thread nD τ).loc main_arg13)) :=
  (skip_host hostOps4 (Proc.devRef .tc main_arg13)).trans (w9_arg13 m ρ c)

/-! ### Layer 2: the column sums and sums of squares -/
theorem w11_v69_0 (hR : RealArgs m) (c : Dev nD) : W11 m ρ c (Proc.devRef .tc main_v69_0) = (Cert.Spec.colSum (Cert.Spec.pre (Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (row64 (m ((c : Thread nD τ).loc main_arg9))))) :=
  (W11_arr m ρ c 2).trans ((Cert.KernelIdeal.RegionValue.region4_sum (V10 m ρ) c).trans (by
    show Cert.Spec.colSum (Cert.Spec.pre (W10 m ρ c (Proc.devRef .tc main_v67)) (W10 m ρ c (Proc.devRef .tc main_v68))) = _
    rw [w10_v67 m ρ hR c, w10_v68 m ρ c]))
theorem w11_v69_1 (hR : RealArgs m) (c : Dev nD) : W11 m ρ c (Proc.devRef .tc main_v69_1) = (Cert.Spec.colSumSq (Cert.Spec.pre (Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (row64 (m ((c : Thread nD τ).loc main_arg9))))) :=
  (W11_arr m ρ c 3).trans ((Cert.KernelIdeal.RegionValue.region4_sumsq (V10 m ρ) c).trans (by
    show Cert.Spec.colSumSq (Cert.Spec.pre (W10 m ρ c (Proc.devRef .tc main_v67)) (W10 m ρ c (Proc.devRef .tc main_v68))) = _
    rw [w10_v67 m ρ hR c, w10_v68 m ρ c]))
theorem w11_v67 (hR : RealArgs m) (c : Dev nD) : W11 m ρ c (Proc.devRef .tc main_v67) = (Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W11_arr m ρ c 0).trans (((dat4 (V10 m ρ) c).arrAt_in 0 rfl _).trans ((A_eq4 (V10 m ρ) c 0).trans (w10_v67 m ρ hR c)))
theorem w11_v68 (c : Dev nD) : W11 m ρ c (Proc.devRef .tc main_v68) = (row64 (m ((c : Thread nD τ).loc main_arg9))) :=
  (W11_arr m ρ c 1).trans (((dat4 (V10 m ρ) c).arrAt_in 1 rfl _).trans ((A_eq4 (V10 m ρ) c 1).trans (w10_v68 m ρ c)))
theorem w11_v28 (c : Dev nD) : W11 m ρ c (Proc.devRef .tc main_v28) = (Cert.ReferenceIdeal.Read.val_main_v28 (F := Ideal) (m ((c : Thread nD τ).loc main_arg1)) (m ((c : Thread nD τ).loc main_arg2)) (m ((c : Thread nD τ).loc main_arg3))) :=
  (W11_of_ne m ρ c main_v28 (by decide)).trans (w10_v28 m ρ c)
theorem w11_v1 (c : Dev nD) : W11 m ρ c (Proc.devRef .tc main_v1) = (Cert.ReferenceIdeal.Read.val_main_v1 (F := Ideal) (m ((c : Thread nD τ).loc main_arg1))) :=
  (W11_of_ne m ρ c main_v1 (by decide)).trans (w10_v1 m ρ c)
theorem w11_v2 (c : Dev nD) : W11 m ρ c (Proc.devRef .tc main_v2) = (Cert.ReferenceIdeal.Read.val_main_v2 (F := Ideal) (m ((c : Thread nD τ).loc main_arg2))) :=
  (W11_of_ne m ρ c main_v2 (by decide)).trans (w10_v2 m ρ c)
theorem w11_arg10 (c : Dev nD) : W11 m ρ c (Proc.devRef .tc main_arg10) = (m ((c : Thread nD τ).loc main_arg10)) :=
  (W11_of_ne m ρ c main_arg10 (by decide)).trans (w10_arg10 m ρ c)
theorem w11_arg11 (c : Dev nD) : W11 m ρ c (Proc.devRef .tc main_arg11) = (m ((c : Thread nD τ).loc main_arg11)) :=
  (W11_of_ne m ρ c main_arg11 (by decide)).trans (w10_arg11 m ρ c)
theorem w11_arg12 (c : Dev nD) : W11 m ρ c (Proc.devRef .tc main_arg12) = (m ((c : Thread nD τ).loc main_arg12)) :=
  (W11_of_ne m ρ c main_arg12 (by decide)).trans (w10_arg12 m ρ c)
theorem w11_arg13 (c : Dev nD) : W11 m ρ c (Proc.devRef .tc main_arg13) = (m ((c : Thread nD τ).loc main_arg13)) :=
  (W11_of_ne m ρ c main_arg13 (by decide)).trans (w10_arg13 m ρ c)

/-! ### Layer 2: mean, variance, scale and shift rows -/
theorem w12_v71 (hR : RealArgs m) (c : Dev nD) : W12 m ρ c (Proc.devRef .tc main_v71) = (mean64 (Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (row64 (m ((c : Thread nD τ).loc main_arg9)))) := by
  have h0 := w11_v69_0 m ρ hR c
  show StableHlo.after hostOps5 (W11 m ρ c) (Proc.devRef .tc main_v71) = _
  generalize W11 m ρ c = F at h0 ⊢
  after_results
  rw [h0]
  rfl
theorem w12_v75 (hR : RealArgs m) (c : Dev nD) : W12 m ρ c (Proc.devRef .tc main_v75) = (var64 (Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (row64 (m ((c : Thread nD τ).loc main_arg9)))) := by
  have h0 := w11_v69_1 m ρ hR c
  have h1 := w11_v69_0 m ρ hR c
  show StableHlo.after hostOps5 (W11 m ρ c) (Proc.devRef .tc main_v75) = _
  generalize W11 m ρ c = F at h0 h1 ⊢
  after_results
  rw [h0, h1]
  rfl
theorem w12_v76 (c : Dev nD) : W12 m ρ c (Proc.devRef .tc main_v76) = (row64 (m ((c : Thread nD τ).loc main_arg10))) := by
  have h0 := w11_arg10 m ρ c
  show StableHlo.after hostOps5 (W11 m ρ c) (Proc.devRef .tc main_v76) = _
  generalize W11 m ρ c = F at h0 ⊢
  after_results
  rw [h0]
  rfl
theorem w12_v77 (c : Dev nD) : W12 m ρ c (Proc.devRef .tc main_v77) = (row64 (m ((c : Thread nD τ).loc main_arg11))) := by
  have h0 := w11_arg11 m ρ c
  show StableHlo.after hostOps5 (W11 m ρ c) (Proc.devRef .tc main_v77) = _
  generalize W11 m ρ c = F at h0 ⊢
  after_results
  rw [h0]
  rfl
theorem w12_v67 (hR : RealArgs m) (c : Dev nD) : W12 m ρ c (Proc.devRef .tc main_v67) = (Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (skip_host hostOps5 (Proc.devRef .tc main_v67)).trans (w11_v67 m ρ hR c)
theorem w12_v68 (c : Dev nD) : W12 m ρ c (Proc.devRef .tc main_v68) = (row64 (m ((c : Thread nD τ).loc main_arg9))) :=
  (skip_host hostOps5 (Proc.devRef .tc main_v68)).trans (w11_v68 m ρ c)
theorem w12_v28 (c : Dev nD) : W12 m ρ c (Proc.devRef .tc main_v28) = (Cert.ReferenceIdeal.Read.val_main_v28 (F := Ideal) (m ((c : Thread nD τ).loc main_arg1)) (m ((c : Thread nD τ).loc main_arg2)) (m ((c : Thread nD τ).loc main_arg3))) :=
  (skip_host hostOps5 (Proc.devRef .tc main_v28)).trans (w11_v28 m ρ c)
theorem w12_v1 (c : Dev nD) : W12 m ρ c (Proc.devRef .tc main_v1) = (Cert.ReferenceIdeal.Read.val_main_v1 (F := Ideal) (m ((c : Thread nD τ).loc main_arg1))) :=
  (skip_host hostOps5 (Proc.devRef .tc main_v1)).trans (w11_v1 m ρ c)
theorem w12_v2 (c : Dev nD) : W12 m ρ c (Proc.devRef .tc main_v2) = (Cert.ReferenceIdeal.Read.val_main_v2 (F := Ideal) (m ((c : Thread nD τ).loc main_arg2))) :=
  (skip_host hostOps5 (Proc.devRef .tc main_v2)).trans (w11_v2 m ρ c)
theorem w12_arg12 (c : Dev nD) : W12 m ρ c (Proc.devRef .tc main_arg12) = (m ((c : Thread nD τ).loc main_arg12)) :=
  (skip_host hostOps5 (Proc.devRef .tc main_arg12)).trans (w11_arg12 m ρ c)
theorem w12_arg13 (c : Dev nD) : W12 m ρ c (Proc.devRef .tc main_arg13) = (m ((c : Thread nD τ).loc main_arg13)) :=
  (skip_host hostOps5 (Proc.devRef .tc main_arg13)).trans (w11_arg13 m ρ c)

/-! ### Layer 2: normalise and clip -/
theorem w13_v78 (hR : RealArgs m) (c : Dev nD) : W13 m ρ c (Proc.devRef .tc main_v78) = (Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (W13_arr m ρ c 6).trans ((Cert.KernelIdeal.RegionValue.region5 (V12 m ρ) c).trans (by
    show Cert.Spec.normRelu (W12 m ρ c (Proc.devRef .tc main_v67)) (W12 m ρ c (Proc.devRef .tc main_v68)) (W12 m ρ c (Proc.devRef .tc main_v71)) (W12 m ρ c (Proc.devRef .tc main_v75))
      (W12 m ρ c (Proc.devRef .tc main_v76)) (W12 m ρ c (Proc.devRef .tc main_v77)) = _
    rw [w12_v67 m ρ hR c, w12_v68 m ρ c, w12_v71 m ρ hR c, w12_v75 m ρ hR c, w12_v76 m ρ c, w12_v77 m ρ c]
    exact Cert.ReferenceIdeal.Bridge.l2_layer _ _ _ _ _ _ _ _ _ _ _ _
      (Cert.ReferenceIdeal.Finite.v88_real _ _ _ _ _ _ _ _ _ _ (hR c).h0 (hR c).h3 (hR c).h4 (hR c).h5 (hR c).h6 (hR c).h7 (hR c).h8 (hR c).h9)
      _ _ _ _ _ (fun j => row64_at _ j) (fun j => row64_at _ j) (fun j => row64_at _ j)
      (fun j => mean64_at _ _ j) (fun j => var64_at _ _ j)))
theorem w13_v28 (c : Dev nD) : W13 m ρ c (Proc.devRef .tc main_v28) = (Cert.ReferenceIdeal.Read.val_main_v28 (F := Ideal) (m ((c : Thread nD τ).loc main_arg1)) (m ((c : Thread nD τ).loc main_arg2)) (m ((c : Thread nD τ).loc main_arg3))) :=
  (W13_of_ne m ρ c main_v28 (by decide)).trans (w12_v28 m ρ c)
theorem w13_v1 (c : Dev nD) : W13 m ρ c (Proc.devRef .tc main_v1) = (Cert.ReferenceIdeal.Read.val_main_v1 (F := Ideal) (m ((c : Thread nD τ).loc main_arg1))) :=
  (W13_of_ne m ρ c main_v1 (by decide)).trans (w12_v1 m ρ c)
theorem w13_v2 (c : Dev nD) : W13 m ρ c (Proc.devRef .tc main_v2) = (Cert.ReferenceIdeal.Read.val_main_v2 (F := Ideal) (m ((c : Thread nD τ).loc main_arg2))) :=
  (W13_of_ne m ρ c main_v2 (by decide)).trans (w12_v2 m ρ c)
theorem w13_arg12 (c : Dev nD) : W13 m ρ c (Proc.devRef .tc main_arg12) = (m ((c : Thread nD τ).loc main_arg12)) :=
  (W13_of_ne m ρ c main_arg12 (by decide)).trans (w12_arg12 m ρ c)
theorem w13_arg13 (c : Dev nD) : W13 m ρ c (Proc.devRef .tc main_arg13) = (m ((c : Thread nD τ).loc main_arg13)) :=
  (W13_of_ne m ρ c main_arg13 (by decide)).trans (w12_arg13 m ρ c)

/-! ### Layer 3: the product with the third weight matrix -/
theorem w14_v79 (hR : RealArgs m) (c : Dev nD) : W14 m ρ c (Proc.devRef .tc main_v79) = (Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :=
  (W14_arr m ρ c 2).trans ((Cert.KernelIdeal.RegionValue.region6 (V13 m ρ) c).trans (by
    show Cert.Spec.mm (W13 m ρ c (Proc.devRef .tc main_v78)) (W13 m ρ c (Proc.devRef .tc main_arg12)) = _
    rw [w13_v78 m ρ hR c, w13_arg12 m ρ c]
    exact (Cert.ReferenceIdeal.BridgeMM.mm_v115 _ _ _ _ _ _ _ _ _ _ _ _ _).symm))
theorem w14_v28 (c : Dev nD) : W14 m ρ c (Proc.devRef .tc main_v28) = (Cert.ReferenceIdeal.Read.val_main_v28 (F := Ideal) (m ((c : Thread nD τ).loc main_arg1)) (m ((c : Thread nD τ).loc main_arg2)) (m ((c : Thread nD τ).loc main_arg3))) :=
  (W14_of_ne m ρ c main_v28 (by decide)).trans (w13_v28 m ρ c)
theorem w14_v1 (c : Dev nD) : W14 m ρ c (Proc.devRef .tc main_v1) = (Cert.ReferenceIdeal.Read.val_main_v1 (F := Ideal) (m ((c : Thread nD τ).loc main_arg1))) :=
  (W14_of_ne m ρ c main_v1 (by decide)).trans (w13_v1 m ρ c)
theorem w14_v2 (c : Dev nD) : W14 m ρ c (Proc.devRef .tc main_v2) = (Cert.ReferenceIdeal.Read.val_main_v2 (F := Ideal) (m ((c : Thread nD τ).loc main_arg2))) :=
  (W14_of_ne m ρ c main_v2 (by decide)).trans (w13_v2 m ρ c)
theorem w14_arg13 (c : Dev nD) : W14 m ρ c (Proc.devRef .tc main_arg13) = (m ((c : Thread nD τ).loc main_arg13)) :=
  (W14_of_ne m ρ c main_arg13 (by decide)).trans (w13_arg13 m ρ c)

/-! ### Layer 3: the aggregate and the bias row -/
set_option maxRecDepth 1000000 in
set_option maxHeartbeats 4000000 in
theorem w15_v92 (hR : RealArgs m) (c : Dev nD) : W15 m ρ c (Proc.devRef .tc main_v92) = (Cert.ReferenceIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  have h0 := w14_v79 m ρ hR c
  have h1 := w14_v28 m ρ c
  have h2 := w14_v1 m ρ c
  have h3 := w14_v2 m ρ c
  show StableHlo.after hostOps7 (W14 m ρ c) (Proc.devRef .tc main_v92) = _
  generalize W14 m ρ c = F at h0 h1 h2 h3 ⊢
  after_results
  rw [h0, h1, h2, h3]
  unfold Cert.ReferenceIdeal.Read.val_main_v128 Cert.ReferenceIdeal.Read.val_main_v127 Cert.ReferenceIdeal.Read.val_main_v126 Cert.ReferenceIdeal.Read.val_main_cst_25 Cert.ReferenceIdeal.Read.val_main_v125 Cert.ReferenceIdeal.Read.val_main_v124 Cert.ReferenceIdeal.Read.val_main_v123 Cert.ReferenceIdeal.Read.val_main_v122 Cert.ReferenceIdeal.Read.val_main_v121 Cert.ReferenceIdeal.Read.val_main_v120 Cert.ReferenceIdeal.Read.val_main_v119 Cert.ReferenceIdeal.Read.val_main_c_24 Cert.ReferenceIdeal.Read.val_main_v118 Cert.ReferenceIdeal.Read.val_main_v117 Cert.ReferenceIdeal.Read.val_main_c_23 Cert.ReferenceIdeal.Read.val_main_v116
  rfl
theorem w15_v93 (c : Dev nD) : W15 m ρ c (Proc.devRef .tc main_v93) = (row32 (m ((c : Thread nD τ).loc main_arg13))) := by
  have h0 := w14_arg13 m ρ c
  show StableHlo.after hostOps7 (W14 m ρ c) (Proc.devRef .tc main_v93) = _
  generalize W14 m ρ c = F at h0 ⊢
  after_results
  rw [h0]
  rfl

/-! ### The result: the last aggregate plus its bias — the reference's result -/
theorem w16_v98 (hR : RealArgs m) (c : Dev nD) : W16 m ρ c (Proc.devRef .tc main_v98) = (Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W16_arr m ρ c 6).trans ((Cert.KernelIdeal.RegionValue.region7 (V15 m ρ) c).trans (by
    show Cert.Spec.pre (W15 m ρ c (Proc.devRef .tc main_v92)) (W15 m ρ c (Proc.devRef .tc main_v93)) = _
    rw [w15_v92 m ρ hR c, w15_v93 m ρ c]
    exact Cert.ReferenceIdeal.BridgeMM.pre_v131 _ _ _ _ _ _ _ _ _ _ _ _ _ _ _ (fun j => row32_at _ j)))

end Cert.KernelIdeal.Chain

end
-- ==== Proof.RefRun.lean ====
/-
  The reference program's run, with its result named as the last stage of its chain of operations.

  The reference computes the three graph-convolution layers as a chain of whole-array operations on the host.
  Its run ends with the result array holding the composed term of those operations applied to the argument
  arrays as they were at launch, and with every argument array unchanged. Here that term is named as the last
  stage of the chain read one operation at a time (the bias addition of the third layer), each stage a function
  of the argument arrays only, so that the result can be compared with the other program's stage by stage.
  Dropping the result from the same run gives the reference's own claim: it runs and leaves its arguments alone.
-/
import proofs.«159056_j27436251087104_1_alg».proof.Defs
import proofs.«159056_j27436251087104_1_alg».proof.Proof.Gen.ReferenceIdeal
import proofs.«159056_j27436251087104_1_alg».proof.Proof.Gen.Pre_finite_inputs
import proofs.«159056_j27436251087104_1_alg».proof.Proof.Gen.ReferenceIdeal.Run
import proofs.«159056_j27436251087104_1_alg».proof.Proof.Gen.ReferenceIdeal.Read

noncomputable section

namespace Cert.ReferenceIdeal.RefRun

open Idealize.ShloMosaic Idealize.ShloMosaic.TcCoe Idealize.SL.Sem

/-- Every execution of the reference from the memory m' terminates with the result array at the last stage of its
    chain of operations, as a function of the argument arrays at launch, and with the argument arrays unchanged. -/
theorem run_read (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v131)
        = Cert.ReferenceIdeal.Read.val_main_v131 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)) :=
  (θ_run (Cert.ReferenceIdeal.defs (F := Ideal)) _ _).mono
    (fun _ h c => ⟨(h c).1.trans (Cert.ReferenceIdeal.Read.val_main_v131_eq (F := Ideal) m' c), (h c).2⟩)
    (Cert.ReferenceIdeal.Value.run (F := Ideal) m' ρ')

/-- The reference runs, without fault, and leaves its argument arrays unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefRun

end
-- ==== Proof.PreFinite.lean ====
/-
  From the precondition to real inputs.

  The precondition says of every float argument array that all its entries are smaller in absolute value than
  positive infinity: each array contributes the conjunction, over all its entries, of that comparison, and the
  precondition is the conjunction of these. An extended real whose absolute value is below positive infinity is
  neither infinity, hence a real number. So under the precondition every float argument is an array of reals.
-/
import proofs.«159056_j27436251087104_1_alg».proof.Proof.Gen.Pre_finite_inputs
import proofs.«159056_j27436251087104_1_alg».proof.Proof.Finite
import Idealize.ShloMosaic.Lib.ReduceAll

noncomputable section

namespace Cert.PreFinite

open Idealize.ShloMosaic Cert.Pre_finite_inputs Cert.Finite

/-- The shape with no axes has one index. -/
instance : Subsingleton S_.Idx := ⟨fun _ _ => funext fun d => d.elim0⟩

/-- A comparison "less than" that came out true says its left side is below its right side. -/
theorem lt_of_cmp_olt {a b : EReal} (h : Ideal.cmp .olt a b = 1#1) : a < b := by
  by_contra hn
  simp [Ideal.cmp, hn] at h

/-- One array's part of the precondition: if the conjunction over all entries of "the absolute value is below the
    entry of a second array", every entry of which is positive infinity, is true, then every entry of the array
    is a real. -/
theorem allReal_of_all {s u : Shape} {axes : List (Fin s.rank)} (x y : FVec Ideal s .f32) (hy : ∀ i, y i = ⊤)
    (init : u.Idx → BitVec 1) (h : s.ReducesTo axes S_) (hu : 0 < u.numel) (j : S_.Idx)
    (e : Host.reduce IntOp.andi (cmpf .olt (Host.absf x) y) init h hu j = 1#1) : AllReal x := fun i => by
  have hi : Ideal.cmp .olt (max (x i) (-(x i))) (y i) = 1#1 := Host.reduce_andi_all _ init h hu j e i
  rw [hy i] at hi
  exact isReal_of_abs_lt_top (lt_of_cmp_olt hi)

/-- Under the precondition every float argument is an array of reals. -/
theorem allReal_of_pre [Facts] (a0 : FVec Ideal S50000x128 .f32) (a1 a2 : IVec S600000 32) (a3 : FVec Ideal S600000 .f32)
    (a4 : FVec Ideal S128x128 .f32) (a5 a6 a7 : FVec Ideal S128 .f32) (a8 : FVec Ideal S128x64 .f32)
    (a9 a10 a11 : FVec Ideal S64 .f32) (a12 : FVec Ideal S64x32 .f32) (a13 : FVec Ideal S32 .f32)
    (h : fn (F := Ideal) a0 a1 a2 a3 a4 a5 a6 a7 a8 a9 a10 a11 a12 a13 = fun _ => 1#1) :
    AllReal a0 ∧ AllReal a3 ∧ AllReal a4 ∧ AllReal a5 ∧ AllReal a6 ∧ AllReal a7 ∧ AllReal a8 ∧ AllReal a9
      ∧ AllReal a10 ∧ AllReal a11 ∧ AllReal a12 ∧ AllReal a13 := by
  have h0 := congrFun h ValueIdx.ix0
  dsimp only [fn, fn_part1, fn_part2, fn_part3, Idealize.ShloMosaic.andi] at h0
  simp only [IntOp.andi_eq_one] at h0
  obtain ⟨⟨⟨⟨⟨⟨⟨⟨⟨⟨⟨e0, e3⟩, e4⟩, e5⟩, e6⟩, e7⟩, e8⟩, e9⟩, e10⟩, e11⟩, e12⟩, e13⟩ := h0
  have top : ∀ {t : Shape} (dims : Fin S_.rank → Fin t.rank) (hb : S_.BroadcastsInDim t dims) (i : t.Idx),
      broadcastInDim t dims hb (constant (F := Ideal) S_ .f32 0x7F800000#32) i = ⊤ := fun _ _ _ => ofBits_inf
  exact ⟨allReal_of_all a0 _ (top _ _) _ _ _ _ e0, allReal_of_all a3 _ (top _ _) _ _ _ _ e3,
    allReal_of_all a4 _ (top _ _) _ _ _ _ e4, allReal_of_all a5 _ (top _ _) _ _ _ _ e5,
    allReal_of_all a6 _ (top _ _) _ _ _ _ e6, allReal_of_all a7 _ (top _ _) _ _ _ _ e7,
    allReal_of_all a8 _ (top _ _) _ _ _ _ e8, allReal_of_all a9 _ (top _ _) _ _ _ _ e9,
    allReal_of_all a10 _ (top _ _) _ _ _ _ e10, allReal_of_all a11 _ (top _ _) _ _ _ _ e11,
    allReal_of_all a12 _ (top _ _) _ _ _ _ e12, allReal_of_all a13 _ (top _ _) _ _ _ _ e13⟩

end Cert.PreFinite

end
-- ==== Proof.lean ====
/-
  The claim: the kernel program, its idealization and the reference program each run to completion without a fault
  and leave their argument arrays unchanged; the idealization rewrote nothing; and, read over the extended reals,
  the idealized kernel and the reference end with the same result array whenever every float input is finite.

  The computation is three graph-convolution layers over 50000 nodes. Each layer multiplies the node features by a
  weight matrix, aggregates the product along the weighted edges (the same host operations in both programs), and
  adds a bias row; the first two layers then normalise every feature column by its mean and variance over the nodes,
  scale, shift and clip at zero. The programs differ only in the variance: the reference takes the mean of the squared
  deviations from the mean, the kernel accumulates the column sums and the column sums of squares in one pass and
  takes the mean of the squares minus the squared mean. These agree when every pre-activation is a real number, which
  follows from the finiteness of the inputs: every operation on the way (sums of products, the power of a positive
  degree, gathers, accumulating scatters, the inverse square root of a positive variance plus ε) keeps real numbers
  real. The kernel's matrix products, running sums and normalise-and-clip maps are read off its run region by region;
  the result buffer of the last region is then the reference's result as a function of the same arguments.
-/
import proofs.«159056_j27436251087104_1_alg».proof.Defs
import proofs.«159056_j27436251087104_1_alg».proof.Proof.Gen.Kernel
import proofs.«159056_j27436251087104_1_alg».proof.Proof.Gen.Kernel.Skeleton
import proofs.«159056_j27436251087104_1_alg».proof.Proof.Gen.Kernel.Launch
import proofs.«159056_j27436251087104_1_alg».proof.Proof.Gen.Kernel.Points
import proofs.«159056_j27436251087104_1_alg».proof.Proof.Gen.Kernel.Frame
import proofs.«159056_j27436251087104_1_alg».proof.Proof.Gen.KernelIdeal
import proofs.«159056_j27436251087104_1_alg».proof.Proof.Gen.KernelIdeal.Skeleton
import proofs.«159056_j27436251087104_1_alg».proof.Proof.Gen.KernelIdeal.Launch
import proofs.«159056_j27436251087104_1_alg».proof.Proof.Gen.KernelIdeal.Points
import proofs.«159056_j27436251087104_1_alg».proof.Proof.Gen.KernelIdeal.Frame
import proofs.«159056_j27436251087104_1_alg».proof.Proof.Gen.ReferenceIdeal
import proofs.«159056_j27436251087104_1_alg».proof.Proof.Gen.Pre_finite_inputs
import proofs.«159056_j27436251087104_1_alg».proof.Proof.Gen.ReferenceIdeal.Run
import proofs.«159056_j27436251087104_1_alg».proof.Proof.Gen.ReferenceIdeal.Read
import proofs.«159056_j27436251087104_1_alg».proof.Proof.KernelRun
import proofs.«159056_j27436251087104_1_alg».proof.Proof.Chain
import proofs.«159056_j27436251087104_1_alg».proof.Proof.RefRun
import proofs.«159056_j27436251087104_1_alg».proof.Proof.PreFinite
import Idealize.ShloMosaic.Adequacy
import Idealize.ShloMosaic.Init

set_option maxRecDepth 16384

noncomputable section

namespace Cert.Proof

open Idealize.ShloMosaic Idealize.ShloMosaic.TcCoe Idealize.SL.Sem

/-- The kernel runs and leaves its arguments unchanged. -/
theorem frame_p : Cert.frame_Kernel := fun m ρ _ => Cert.Kernel.Gen.frame m ρ

/-- The idealized kernel runs and leaves its arguments unchanged. -/
theorem frame_pi : Cert.frame_KernelIdeal := fun m ρ _ => Cert.KernelIdeal.Gen.frame m ρ

/-- The idealization rewrote nothing. -/
theorem preserves : Cert.preserves_Kernel_KernelIdeal := trivial

/-- Finite float inputs are arrays of real numbers. -/
theorem realArgs (m : (ℓ : Loc Cert.KernelIdeal.nD Cert.KernelIdeal.τ Cert.KernelIdeal.sig) → Buf (Elt Ideal) ℓ)
    (h : Cert.Pre_KernelIdeal m) : Cert.KernelIdeal.Chain.RealArgs m := fun c => by
  have H := Cert.PreFinite.allReal_of_pre _ _ _ _ _ _ _ _ _ _ _ _ _ _ (h c)
  exact ⟨H.1, H.2.1, H.2.2.1, H.2.2.2.1, H.2.2.2.2.1, H.2.2.2.2.2.1, H.2.2.2.2.2.2.1, H.2.2.2.2.2.2.2.1⟩

/-- From memories that agree on the arguments, both idealized programs end with the reference's result as a function
    of the (kernel's) argument arrays, element by element. -/
theorem algebraic : Cert.algebraic_KernelIdeal_ReferenceIdeal := by
  intro m ρ m' ρ' hpre hagree
  have hR := realArgs m hpre
  refine ⟨fun c => Cert.ReferenceIdeal.Read.val_main_v131 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run (Cert.KernelIdeal.defs (F := Ideal)) _ _).mono (fun r h c => ⟨?_, ?_⟩) (Cert.KernelIdeal.RunValue.run_all m ρ)
    · exact (Cert.KernelIdeal.RunValue.result_mem m ρ r h c).trans (Cert.KernelIdeal.Chain.w16_v98 m ρ hR c)
    · exact ⟨(h c _ (Cert.KernelIdeal.Gen.mem_uc Cert.KernelIdeal.main_arg0 (by decide))).trans (Cert.KernelIdeal.Gen.W16_main_arg0 m ρ c),
        (h c _ (Cert.KernelIdeal.Gen.mem_uc Cert.KernelIdeal.main_arg1 (by decide))).trans (Cert.KernelIdeal.Gen.W16_main_arg1 m ρ c),
        (h c _ (Cert.KernelIdeal.Gen.mem_uc Cert.KernelIdeal.main_arg2 (by decide))).trans (Cert.KernelIdeal.Gen.W16_main_arg2 m ρ c),
        (h c _ (Cert.KernelIdeal.Gen.mem_uc Cert.KernelIdeal.main_arg3 (by decide))).trans (Cert.KernelIdeal.Gen.W16_main_arg3 m ρ c),
        (h c _ (Cert.KernelIdeal.Gen.mem_uc Cert.KernelIdeal.main_arg4 (by decide))).trans (Cert.KernelIdeal.Gen.W16_main_arg4 m ρ c),
        (h c _ (Cert.KernelIdeal.Gen.mem_uc Cert.KernelIdeal.main_arg5 (by decide))).trans (Cert.KernelIdeal.Gen.W16_main_arg5 m ρ c),
        (h c _ (Cert.KernelIdeal.Gen.mem_uc Cert.KernelIdeal.main_arg6 (by decide))).trans (Cert.KernelIdeal.Gen.W16_main_arg6 m ρ c),
        (h c _ (Cert.KernelIdeal.Gen.mem_uc Cert.KernelIdeal.main_arg7 (by decide))).trans (Cert.KernelIdeal.Gen.W16_main_arg7 m ρ c),
        (h c _ (Cert.KernelIdeal.Gen.mem_uc Cert.KernelIdeal.main_arg8 (by decide))).trans (Cert.KernelIdeal.Gen.W16_main_arg8 m ρ c),
        (h c _ (Cert.KernelIdeal.Gen.mem_uc Cert.KernelIdeal.main_arg9 (by decide))).trans (Cert.KernelIdeal.Gen.W16_main_arg9 m ρ c),
        (h c _ (Cert.KernelIdeal.Gen.mem_uc Cert.KernelIdeal.main_arg10 (by decide))).trans (Cert.KernelIdeal.Gen.W16_main_arg10 m ρ c),
        (h c _ (Cert.KernelIdeal.Gen.mem_uc Cert.KernelIdeal.main_arg11 (by decide))).trans (Cert.KernelIdeal.Gen.W16_main_arg11 m ρ c),
        (h c _ (Cert.KernelIdeal.Gen.mem_uc Cert.KernelIdeal.main_arg12 (by decide))).trans (Cert.KernelIdeal.Gen.W16_main_arg12 m ρ c),
        (h c _ (Cert.KernelIdeal.Gen.mem_uc Cert.KernelIdeal.main_arg13 (by decide))).trans (Cert.KernelIdeal.Gen.W16_main_arg13 m ρ c)⟩
  · refine (θ_run (Cert.ReferenceIdeal.defs (F := Ideal)) _ _).mono (fun r h c => ⟨?_, (h c).2⟩) (Cert.ReferenceIdeal.RefRun.run_read m' ρ')
    obtain ⟨e0, e1, e2, e3, e4, e5, e6, e7, e8, e9, e10, e11, e12, e13⟩ := hagree c
    rw [(h c).1, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_p, frame_pi, Cert.ReferenceIdeal.RefRun.frame_ri, preserves, algebraic⟩

end Cert.Proof

end
